-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8192x128 .f32) (main_arg1 : FVec F S8192x128 .f32) (main_arg2 : FVec F S128x128 .f32) (main_arg3 : FVec F S128 .f32) (main_arg4 : FVec F S128x128 .f32) (main_arg5 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S2048x128 : Shape := ⟨2, ![2048, 128]⟩
abbrev S16x1x128 : Shape := ⟨3, ![16, 1, 128]⟩
abbrev S512x128 : Shape := ⟨2, ![512, 128]⟩
abbrev S1x1x128 : Shape := ⟨3, ![1, 1, 128]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S512x512 : Shape := ⟨2, ![512, 512]⟩
abbrev S1x512x1 : Shape := ⟨3, ![1, 512, 1]⟩
abbrev S1 : Shape := ⟨1, ![1]⟩
abbrev S1x1x1 : Shape := ⟨3, ![1, 1, 1]⟩
abbrev S16x1x3 : Shape := ⟨3, ![16, 1, 3]⟩
abbrev S16x3 : Shape := ⟨2, ![16, 3]⟩
abbrev S_ : Shape := ⟨0, ![]⟩
abbrev S3 : Shape := ⟨1, ![3]⟩

abbrev nBuf : Space → Nat
  | .hbm => 31
  | .vmem => 23
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S16x1x128, .f32⟩
  | .hbm, ⟨11, _⟩ => ⟨S16x1x3, .f32⟩
  | .hbm, ⟨12, _⟩ => ⟨S16x3, .f32⟩
  | .hbm, ⟨13, _⟩ => ⟨S_, .f32⟩
  | .hbm, ⟨14, _⟩ => ⟨S3, .f32⟩
  | .hbm, ⟨15, _⟩ => ⟨S1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v109 : BitVec 1 := Scalar.cmpi .eq arg1 c15_i32
  let v110 : BitVec 32 := Scalar.extui v109
  let c0_i32_39 : BitVec 32 := 0#32
  let v111 : BitVec 1 := Scalar.cmpi .ne v110 c0_i32_39
  v111

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  transposes_S512x1_p1_0_S1x512 : S512x1.Transposes [1, 0] S1x512
  transposes_S512x128_p1_0_S128x512 : S512x128.Transposes [1, 0] S128x512
  broadcasts_S512x1_S512x512 : S512x1.Broadcasts S512x512
  broadcasts_S1x512_S512x512 : S1x512.Broadcasts S512x512
  reduces_S512x512_S512 : S512x512.Reduces [1] S512
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  slices_S16x1x128_S16x1x3_0_0_0 : S16x1x128.Slices ![0, 0, 0] S16x1x3
  shapeCasts_S16x1x3_S16x3 : S16x1x3.ShapeCasts S16x3
  reducesTo_S16x3_S3_d0 : S16x3.ReducesTo [0] S3
  h_S_ : 0 < S_.numel
  slices_S3_S1_0 : S3.Slices ![0] S1
  shapeCasts_S1_S_ : S1.ShapeCasts S_
  slices_S3_S1_1 : S3.Slices ![1] S1
  slices_S3_S1_2 : S3.Slices ![2] S1
  dot_S2048x128_S128x128_S2048x128_1_0_0_1_n_n_wf : DotDims.WF S2048x128 S128x128 S2048x128 [1] [0] [0] [1] [] []
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S8192x128.size a
  hwx0_6 : ∀ i : grid0.Coords, EltTy.bits .f32 = 32 ∨ (Rect.block (s := S8192x128) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S8192x128.size a
  hwx0_7 : ∀ i : grid0.Coords, EltTy.bits .f32 = 32 ∨ (Rect.block (s := S8192x128) S2048x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S8192x128.size a
  hwx1_0 : ∀ i : grid1.Coords, EltTy.bits .f32 = 32 ∨ (Rect.block (s := S8192x128) S512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x128.size a
  hwx1_1 : ∀ i : grid1.Coords, EltTy.bits .f32 = 32 ∨ (Rect.block (s := S8192x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .f32 = 32 ∨ (Rect.block (s := S8192x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S16x1x128.size a
  hwx1_4 : ∀ i : grid1.Coords, EltTy.bits .f32 = 32 ∨ (Rect.block (s := S16x1x128) S1x1x128.size (cc1_transform_4 i) (hinb1_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S2048x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 107
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S128x128, .f32⟩
  | .hbm, ⟨12, _⟩ => ⟨S8192x128, .f32⟩
  | .hbm, ⟨13, _⟩ => ⟨S1x128, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S1x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S128x8192, .f32⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x128, .f32⟩
  | .hbm, ⟨46, _⟩ => ⟨S_, .f32⟩
  | .hbm, ⟨47, _⟩ => ⟨S8192, .f32⟩
  | .hbm, ⟨48, _⟩ => ⟨S8192x128, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S128x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8192x128, .f32⟩
  | .hbm, ⟨76, _⟩ => ⟨S_, .f32⟩
  | .hbm, ⟨77, _⟩ => ⟨S8192, .f32⟩
  | .hbm, ⟨78, _⟩ => ⟨S8192x128, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S1x8192, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S128x8192, .f32⟩
  | .hbm, ⟨87, _⟩ => ⟨S8192x8192, .f32⟩
  | .hbm, ⟨88, _⟩ => ⟨S_, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192x8192, .f32⟩
  | .hbm, ⟨94, _⟩ => ⟨S8192x8192, .f32⟩
  | .hbm, ⟨95, _⟩ => ⟨S8192x8192, .f32⟩
  | .hbm, ⟨96, _⟩ => ⟨S_, .f32⟩
  | .hbm, ⟨97, _⟩ => ⟨S8192x8192, .f32⟩
  | .hbm, ⟨98, _⟩ => ⟨S8192x8192, .f32⟩
  | .hbm, ⟨99, _⟩ => ⟨S8192x8192, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_13 : Ref sig .tc := ⟨.hbm, 76, rfl⟩
abbrev main_v56 : Ref sig .tc := ⟨.hbm, 77, rfl⟩
abbrev main_v57 : Ref sig .tc := ⟨.hbm, 78, rfl⟩
abbrev main_cst_14 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_18 : Ref sig .tc := ⟨.hbm, 100, rfl⟩
abbrev main_v75 : Ref sig .tc := ⟨.hbm, 101, rfl⟩
abbrev main_cst_19 : Ref sig .tc := ⟨.hbm, 102, rfl⟩
abbrev main_v76 : Ref sig .tc := ⟨.hbm, 103, rfl⟩
abbrev main_cst_20 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Region0Body.lean ====
/- The first pallas_call (the two linear layers) as a body: what one run of it leaves in its two output
   buffers, as a function of what its six input buffers hold, and the proof that it does.

   The body reads its eight VMEM buffers whole. Buffers 0 and 1 hold a block of 2048 rows of the text and of the
   time features, buffers 2 and 4 the two 128 x 128 weight matrices, buffers 3 and 5 the two bias rows. It
   computes, for each of the two layers, rows * weightsᵀ + bias (the skeleton's payloads `k0_pay1`, `k0_pay2`),
   and overwrites output buffers 6 and 7 with the two results, each by ONE store through the rectangle that is the
   whole buffer. It also reads each output buffer just before overwriting it; the value read is never used. -/
import proofs.«172921_j68745246539824_1_alg».proof.Proof.Gen.KernelIdeal.Launch
import proofs.«172921_j68745246539824_1_alg».proof.Proof.Gen.KernelIdeal.Skeleton
import proofs.«172921_j68745246539824_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 2048 rows lies inside its buffer recurses once per coordinate of the long axis
set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through

Every access of the body is through the rectangle "all of the buffer": offset 0 on both axes, the buffer's own
extents, stride 1. There is one per buffer shape. -/

/-- All of a 2048 x 128 buffer (a block of rows, or a block of results). -/
abbrev rRows : Rect S2048x128 := Rect.unit (s := S2048x128) ![0, 0] S2048x128.size inb_S2048x128_S2048x128_0_0
/-- All of a 128 x 128 buffer (a weight matrix). -/
abbrev rWeights : Rect S128x128 := Rect.unit (s := S128x128) ![0, 0] S128x128.size inb_S128x128_S128x128_0_0
/-- All of a 1 x 128 buffer (a bias row). -/
abbrev rBias : Rect S1x128 := Rect.unit (s := S1x128) ![0, 0] S1x128.size inb_S1x128_S1x128_0_0

/-! ## What the body leaves in the two output buffers -/

/-- Output buffer 6 after the body, when buffers 0, 2, 3 read `x0` (a block of text rows), `x2` (the first
    layer's weights) and `x3` (its bias): the contents a single write of the first layer's result through the
    whole-buffer rectangle leaves, whatever was there before. -/
def out0_6 (x0 : Vec F S2048x128 .f32) (x2 : Vec F S128x128 .f32) (x3 : Vec F S1x128 .f32) : Vec F S2048x128 .f32 :=
  View.canon [⟨rRows, k0_pay1 (View.ld x0 rRows) (View.ld x2 rWeights) (View.ld x3 rBias)⟩]

/-- Output buffer 7 after the body, when buffers 1, 4, 5 read `x1` (a block of time rows), `x4` (the second
    layer's weights) and `x5` (its bias): the same for the second layer. -/
def out0_7 (x1 : Vec F S2048x128 .f32) (x4 : Vec F S128x128 .f32) (x5 : Vec F S1x128 .f32) : Vec F S2048x128 .f32 :=
  View.canon [⟨rRows, k0_pay2 (View.ld x1 rRows) (View.ld x4 rWeights) (View.ld x5 rBias)⟩]

/-- One write through the whole-buffer rectangle reaches every entry of a 2048 x 128 buffer: the rectangle's
    extents are the buffer's, so the buffer is one tile of that size, at tile index (0, 0), and the write is
    that tile. Whatever the payload `p`. -/
theorem cover_rows (p : Vec F S2048x128 .f32) (y : S2048x128.Idx) :
    ∃ pc ∈ ([⟨rRows, p⟩] : List (View.Piece (Elt F) S2048x128 .f32)), y ∈ pc.1.set :=
  View.cover_of_tiled [⟨rRows, p⟩] S2048x128.size (by rfl) y

/-! ## The body's triple -/

set_option maxHeartbeats 1000000 in
/-- The body, called at any grid point `i` on eight whole VMEM buffers of which the six inputs read `x0 … x5`
    and the two outputs hold anything, runs without a fault to a state where the inputs read what they read and
    the outputs read `out0_6 x0 x2 x3` and `out0_7 x1 x4 x5`. The function is a sequence of eight loads and two
    stores over the two payloads, run here one operation at a time; what remains at the end is that a buffer read
    after one write that covers it reads what was written. -/
theorem sound_kernel0 (c : Dev nD) (E : Set ℕ) (i : grid0.Coords)
    (a0 : Memref sig .tc .vmem S2048x128 .f32) (h0 : a0.IsWhole) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S128x128 .f32) (h4 : a4.IsWhole) (a5 : Memref sig .tc .vmem S1x128 .f32) (h5 : a5.IsWhole)
    (a6 : Memref sig .tc .vmem S2048x128 .f32) (h6 : a6.IsWhole) (a7 : Memref sig .tc .vmem S2048x128 .f32) (h7 : a7.IsWhole)
    (x0 x1 : Vec F S2048x128 .f32) (x2 : Vec F S128x128 .f32) (x3 : Vec F S1x128 .f32)
    (x4 : Vec F S128x128 .f32) (x5 : Vec F S1x128 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (out0_6 x0 x2 x3)
            ∗ owns (c : Thread nD τ) a7 fullShare (out0_7 x1 x4 x5)) -∗ K ⟨⟩))
      ⊢ wp frame (wpE (defs₀ (F := F)) Variants.none c none) E
          (cc0__linear_kernel i a0 h0 a1 h1 a2 h2 a3 h3 a4 h4 a5 h5 a6 h6 a7 h7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

end Cert.KernelIdeal.Hand0

end
-- ==== Proof.Region0.lean ====
/- The first pallas_call (the two linear layers) as a pipeline of 4 grid points over 8 windows, at ANY contents `V`
   of the TensorCore's buffers when the call is entered: what each window's staging buffer holds before and after
   the body at every point, and the proof that the body turns the one into the other.

   The windows. Windows 0 and 1 walk the text and the time features, 2048 rows per point. Windows 2, 4 are the
   two weight matrices and 3, 5 the two bias rows: their block is the whole array at every point, so it is brought
   in once, at the first point, and stays. Windows 6 and 7 are the two results, 2048 rows per point, written back
   at every point. Before the body at a point every INPUT buffer holds that window's block of the array as the
   call found it (fetched at this point, or left there from an earlier one); after it the inputs are unchanged and
   output buffers 6, 7 hold `out0_6`, `out0_7` of the input blocks. -/
import proofs.«172921_j68745246539824_1_alg».proof.Proof.Region0Body

-- deciding that a rectangle of 2048 rows lies inside its buffer recurses once per coordinate of the long axis
set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at point `t`: the entries of its array, as the call finds it (`V`), at the rows and
    columns the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of text rows): its current staging buffer holds its block at every point.
    For any proof data whose array is `V`'s (`hA`) and whose body leaves the block in place (`hafter`); the window is
    never cut short by the array's edge and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the block of time rows): its current staging buffer holds its block at every point.
    For any proof data whose array is `V`'s (`hA`) and whose body leaves the block in place (`hafter`); the window is
    never cut short by the array's edge and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the first layer's weights): its current staging buffer holds its block at every point, although it is
    brought in at the first point only: the block index never moves, so what was brought in then is still this point's block.
    For any proof data whose array is `V`'s (`hA`) and whose body leaves the block in place (`hafter`); the window is
    never cut short by the array's edge and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 (the first layer's bias row): its current staging buffer holds its block at every point, although it is
    brought in at the first point only: the block index never moves, so what was brought in then is still this point's block.
    For any proof data whose array is `V`'s (`hA`) and whose body leaves the block in place (`hafter`); the window is
    never cut short by the array's edge and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 (the second layer's weights): its current staging buffer holds its block at every point, although it is
    brought in at the first point only: the block index never moves, so what was brought in then is still this point's block.
    For any proof data whose array is `V`'s (`hA`) and whose body leaves the block in place (`hafter`); the window is
    never cut short by the array's edge and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 (the second layer's bias row): its current staging buffer holds its block at every point, although it is
    brought in at the first point only: the block index never moves, so what was brought in then is still this point's block.
    For any proof data whose array is `V`'s (`hA`) and whose body leaves the block in place (`hafter`); the window is
    never cut short by the array's edge and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the call on core `c`. The arrays are as the call finds them (`V`). After the body at point
    `t` each input window's buffer still holds its block, and the two output windows' buffers hold the two layers'
    results on the blocks: `out0_6` of the text rows, the first weights and the first bias; `out0_7` of the time
    rows, the second weights and the second bias. The invariant carried from point to point is that nothing else of
    the core moves (the other scoped buffers and the generator register); every buffer is owned whole and nothing is
    owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the record of what is owed, and each window's current
    staging buffer owned whole at what the proof data says it holds then, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point. The six input buffers hold their blocks (`before0_W`), so the body's triple applies with
    the blocks for `x0 … x5`; the invariant and the record of what is owed are not touched by the body and pass
    through; they do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point: the conjunction over the windows written out one by one is
    `sound_body0`'s pre and post. -/
theorem body_obligation0 (c : Dev nD) : BodyObligation (dat0 (F := F) V c) (defs₀ (F := F)) Variants.none () Set.univ := fun t => by
  rw [bigSep_W0, bigSep_W0]
  exact sound_body0 V c t

end Cert.KernelIdeal.Hand0

end
-- ==== Proof.Region1Runs.lean ====
/-
  The second region (the pairwise Gaussian sums over a 16 × 16 grid of tiles): what its body's runs are stated over.
  A grid point t = 16·I + J works on row tile I and column tile J. The body resets its accumulator when J = 0, adds the
  tile's three sums at every point, and copies the accumulator to the output block when J = 15.
-/
import proofs.«172921_j68745246539824_1_alg».proof.Proof.Gen.KernelIdeal.Launch
import proofs.«172921_j68745246539824_1_alg».proof.Proof.Gen.KernelIdeal.Skeleton
import proofs.«172921_j68745246539824_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffer contents of the core when the region is entered: a parameter, fixed by the run of the whole program.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index did not move since the previous point. One statement per input window (0: row tile of the first
    array, 1: row tile of the second, 2 and 3: the column tiles). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, as functions of the grid point -/

/-- "the column tile is the first one" (the accumulator is reset), as the body computes it from the coordinates. -/
abbrev cond1_0 (i : grid1.Coords) : Prop := (Scalar.cmpi .ne (Scalar.extui (Scalar.cmpi .eq (BitVec.ofNat 32 (i 1).val) 0#32)) 0#32) = 1#1
/-- It holds exactly at the points 16·I. -/
theorem hcond1_0 : ∀ t : Fin cfg1.N, cond1_0 (grid1.coords t) ↔ t.val % 16 = 0 :=
  (by decide +kernel : ∀ t : Fin grid1.N, cond1_0 (grid1.coords t) ↔ t.val % 16 = 0)
/-- "the column tile is the last one" (the accumulator is copied out). -/
abbrev cond1_1 (i : grid1.Coords) : Prop := k1_cond2 i = 1#1
/-- It holds exactly at the points 16·I + 15. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column tile the body stores nothing into the output block, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last column tile it does. -/
theorem liveAt1_4 : ∀ t : Fin cfg1.N, cond1_1 (grid1.coords t) → cfg1.idle 4 (grid1.coords t) = false := by decide +kernel

/-! ## The memrefs the body is called with -/

/-- One staging buffer of the output window, through which its contents are stated (the choice does not matter). -/
abbrev VO1_4 : View sig .tc .vmem S1x1x128 .f32 := (Memref.whole cc1_stg4_0 : Memref sig .tc .vmem S1x1x128 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1_0 : Memref sig .tc .vmem S1x1x128 .f32 := Memref.whole cc1_scratch0
abbrev VS1_0 : View sig .tc .vmem S1x1x128 .f32 := scM1_0.view

end Cert.KernelIdeal.Hand1

end
-- ==== Proof.Region1RunA.lean ====
/-
  The body of the second region at the first column tile of a row of tiles: the accumulator is reset, then the tile's sums are added; nothing is stored into the output block.
-/
import proofs.«172921_j68745246539824_1_alg».proof.Proof.Region1Runs

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, in this case of its two conditionals: the four input tiles at their contents, it
    runs to a continuation that holds the inputs as they were, the accumulator with the listed stores written, and the
    output block as the case leaves it. The lists of stores are found by running the body. -/
noncomputable def kernelRun1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) :
    Σ' (L4 : List (View.Piece (Elt F) S1x1x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gauss_kernel i arg2 harg2 arg3 harg3 arg4 harg4 arg5 harg5 arg6 harg6 arg7 harg7) K } := by
  refine ⟨[], ?_, fun xi4 E K => ?run⟩
  case run =>
    simp only [cc1__gauss_kernel_eq_skeleton]; unfold cc1__gauss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand1

end
-- ==== Proof.Region1RunB.lean ====
/-
  The body of the second region at a column tile that is neither the first nor the last: the tile's sums are added to the accumulator as the previous point left it; nothing is stored into the output block.
-/
import proofs.«172921_j68745246539824_1_alg».proof.Proof.Region1RunA

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, in this case of its two conditionals: the four input tiles at their contents, it
    runs to a continuation that holds the inputs as they were, the accumulator with the listed stores written, and the
    output block as the case leaves it. The lists of stores are found by running the body. -/
noncomputable def kernelRun1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) :
    Σ' (L4 : List (View.Piece (Elt F) S1x1x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gauss_kernel i arg2 harg2 arg3 harg3 arg4 harg4 arg5 harg5 arg6 harg6 arg7 harg7) K } := by
  refine ⟨[], ?_, fun xi4 E K => ?run⟩
  case run =>
    simp only [cc1__gauss_kernel_eq_skeleton]; unfold cc1__gauss_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand1

end
-- ==== Proof.Region1RunC.lean ====
/-
  The body of the second region at the last column tile of a row of tiles: the tile's sums are added to the accumulator as the previous point left it, and the accumulator is copied into the output block.
-/
import proofs.«172921_j68745246539824_1_alg».proof.Proof.Region1RunB

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, in this case of its two conditionals: the four input tiles at their contents, it
    runs to a continuation that holds the inputs as they were, the accumulator with the listed stores written, and the
    output block as the case leaves it. The lists of stores are found by running the body. -/
noncomputable def kernelRun1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) :
    Σ' (L4 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gauss_kernel i arg2 harg2 arg3 harg3 arg4 harg4 arg5 harg5 arg6 harg6 arg7 harg7) K } := by
  refine ⟨?_, ?_, fun E K => ?run⟩
  case run =>
    simp only [cc1__gauss_kernel_eq_skeleton]; unfold cc1__gauss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand1

end
-- ==== Proof.Region1.lean ====
/-
  The second region's proof data: what the accumulator and the output block hold after every grid point (by recursion on
  the point: reset at the first column tile, added to at every tile, copied out at the last), the invariant that carries
  the accumulator from point to point, and the body's obligation at every point.
-/
import proofs.«172921_j68745246539824_1_alg».proof.Proof.Region1RunC

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's staging buffer: its stores read back (none: a placeholder nothing consults, the window being idle there). -/
def out1_A_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) : Vec F S1x1x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's stores into the accumulator cover it. -/
theorem scover1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) (y : S1x1x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x1x128.size (by sl_kernel_rfl) y

/-- What case A leaves in the accumulator: its stores read back. -/
def sout1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) : Vec F S1x1x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case B leaves in the output block's staging buffer: its stores read back (none: a placeholder nothing consults, the window being idle there). -/
def out1_B_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) : Vec F S1x1x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's stores into the accumulator cover it. -/
theorem scover1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) (y : S1x1x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x1x128.size (by sl_kernel_rfl) y

/-- What case B leaves in the accumulator: its stores read back. -/
def sout1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) : Vec F S1x1x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- In the last-column case the one store into the output block covers it. -/
theorem cover1_C_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) (y : S1x1x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1x128.size (by sl_kernel_rfl) y
/-- What case C leaves in the output block's staging buffer: its stores read back. -/
def out1_C_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) : Vec F S1x1x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's stores into the accumulator cover it. -/
theorem scover1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) (y : S1x1x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x1x128.size (by sl_kernel_rfl) y

/-- What case C leaves in the accumulator: its stores read back. -/
def sout1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) : Vec F S1x1x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the buffers hold after each point -/

/-- After the body at position `n`: the output block's staging buffer and the accumulator. At the first column tile
    of a row of tiles the accumulator starts afresh; elsewhere it continues from what the point before left. -/
def outsAt1 (c : Dev nD) : (n : ℕ) → n < cfg1.N → Vec F S1x1x128 .f32 × Vec F S1x1x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that are neither this region's staging buffers nor its accumulator (the first region's staging
    buffers), each at some contents: carried along untouched. -/
abbrev others1 (c : Dev nD) : sProp 𝕄 := Pipeline.scopedRestBut (Ix := Unit) (Name := ℕ) (U := UR sig nD τ) (Lvl := ℕ) (Val := Elt F) spec1 c [cc1_scratch0]

/-- What the launch hands the region's body: the accumulator at some contents, the other scoped buffers, the generator register. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [bigSepL, scM1_0, owns_whole]; try rfl

/-- Before position `n`: at the start what the launch hands over; afterwards the accumulator at what the point before left. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ others1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The arrays as the region finds them; after the body each input tile's buffer at its block, the output block's at
    `outsAt1`; the two arrays each read through two windows are held at half shares by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.KernelIdeal.Hand1

end
-- ==== Proof.Region1Body.lean ====
/-
  The second region's body obligation: at every grid point the body, called on the windows' staging buffers and handed the
  accumulator by the invariant, leaves what the proof data say. The point's column tile decides the case.
-/
import proofs.«172921_j68745246539824_1_alg».proof.Proof.Region1

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  by_cases h0 : t.val % 16 = 0
  · by_cases h1 : t.val % 16 = 15
    · exfalso; omega
    · -- the first column tile: the accumulator starts afresh
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- the last column tile: the accumulator is added to and copied out
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- a middle column tile: the accumulator is added to
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives it back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand1

end
-- ==== Proof.Region1Arrays.lean ====
/-
  The second region's arrays among the core's unscoped buffers. Its first two windows and its next two read the SAME two
  arrays (the row tile and the column tile of each projected array), so each of those arrays is held at half a share by
  each of its two windows: at the region's entry the whole-share holding of the buffer is split in two, at its exit the
  two halves, which still hold the same contents, are joined again.
-/
import proofs.«172921_j68745246539824_1_alg».proof.Proof.Region1

set_option maxRecDepth 16384

noncomputable section

namespace Cert.KernelIdeal.Hand1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window, each a whole buffer held at the window's share. -/
theorem arrays1_eq (c : Dev nD) (Fs : (w : Fin cfg1.W) → Buf (Elt F) ((cfg1.win w).arr.view.loc (c.tc : Thread nD τ))) :
    (dat1 V c).arrays Fs = bigSep Finset.univ fun w => (((c.tc : Thread nD τ).loc (Pipeline.arrRef spec1 w)) ↦{(dat1 V c).share w} Fs w : sProp 𝕄) := by
  unfold Dat.arrays
  exact bigSep_congr fun w _ => by rw [(arr_whole1 w).set_eq_univ]

/-- The distinct buffers behind the region's arrays, listed. -/
theorem arrBufs1_eq (c : Dev nD) (W : (b : Ref sig .tc) → Buf (Elt F) ((c.tc : Thread nD τ).loc b)) :
    (Pipeline.arrBufs (Ix := Unit) (Name := ℕ) (U := UR sig nD τ) (Lvl := ℕ) (cfgs (1 : Fin 2)).spec c W : sProp 𝕄)
      = iprop((((c.tc : Thread nD τ).loc main_v2_0) ↦{fullShare} W main_v2_0) ∗ (((c.tc : Thread nD τ).loc main_v2_1) ↦{fullShare} W main_v2_1)
          ∗ (((c.tc : Thread nD τ).loc main_v3) ↦{fullShare} W main_v3)) := by
  unfold Pipeline.arrBufs
  exact bigSep_eq_bigSepL_of_eq [main_v2_0, main_v2_1, main_v3] (by decide) (by decide) _

/-- ENTRY: the core's unscoped buffers at contents `V c` are the region's arrays at the proof data's entry contents
    (each twice-read array split into two half shares) and the unscoped rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c), arrays1_eq, bigSep_W1, arrBufs1_eq]
  refine sep_mono ?_ .rfl
  iintro ⟨Ha, Hb, Hc⟩
  ihave Ha' := (pointsTo_share (PosShare.mem_left_op_right fullShare)).1 $$ Ha
  icases Ha' with ⟨Ha1, Ha2⟩
  ihave Hb' := (pointsTo_share (PosShare.mem_left_op_right fullShare)).1 $$ Hb
  icases Hb' with ⟨Hb1, Hb2⟩
  isplitl [Ha1]; · iexact Ha1
  isplitl [Hb1]; · iexact Hb1
  isplitl [Ha2]; · iexact Ha2
  isplitl [Hb2]; · iexact Hb2
  iexact Hc

/-- EXIT: the region's arrays at contents `Fs` (the two windows of a twice-read array at the same contents) and the
    unscoped rest at `V c` are the core's unscoped buffers at any valuation that has the arrays at `Fs` and agrees
    with `V c` off them. -/
theorem unscopedBufs_of_arrays1 (c : Dev nD) (W' : (b : Ref sig .tc) → Buf (Elt F) ((c.tc : Thread nD τ).loc b))
    (Fs : (w : Fin cfg1.W) → Buf (Elt F) ((cfg1.win w).arr.view.loc (c.tc : Thread nD τ)))
    (hF : ∀ w, Fs w = W' (Pipeline.arrRef spec1 w))
    (hrest : ∀ b, b ∉ Finset.univ.image (Pipeline.arrRef spec1) → W' b = V c b) :
    iprop((dat1 V c).arrays Fs ∗ Pipeline.unscopedRest (Ix := Unit) (Name := ℕ) (U := UR sig nD τ) (Lvl := ℕ) spec1 c (V c))
      ⊢ (unscopedBufs (Ix := Unit) (Name := ℕ) (U := UR sig nD τ) (Lvl := ℕ) c W' : sProp 𝕄) := by
  rw [Pipeline.unscopedBufs_split₀ cfgs 1 winFacts₀1.arr_unscoped c W', arrays1_eq, bigSep_W1, arrBufs1_eq]
  refine sep_mono ?_ (Entails.of_eq ?_)
  · rw [hF 0, hF 1, hF 2, hF 3, hF 4]
    iintro ⟨Ha1, Hb1, Ha2, Hb2, Hc⟩
    isplitl [Ha1 Ha2]
    · iapply (pointsTo_share (PosShare.mem_left_op_right fullShare)).2
      isplitl [Ha1]; · iexact Ha1
      iexact Ha2
    isplitl [Hb1 Hb2]
    · iapply (pointsTo_share (PosShare.mem_left_op_right fullShare)).2
      isplitl [Hb1]; · iexact Hb1
      iexact Hb2
    iexact Hc
  · unfold Pipeline.unscopedRest
    exact (bigSep_congr fun b hb => by rw [hrest b (Finset.mem_sdiff.mp hb).2]).symm

end Cert.KernelIdeal.Hand1

end
-- ==== Proof.MainRun.lean ====
/-
  The run of the whole program: a host stretch (the two bias rows reshaped), the first region (the linear layers), the
  second region (the pairwise Gaussian sums), a host stretch (slice, sum over the row tiles, the three means combined).
  Between two items every unscoped buffer of the core is held whole at a named valuation: the launch memory, then each
  host stretch's operations applied, then each region's result arrays replaced by what its write-backs leave. The result
  of the run is read off the last valuation.
-/
import proofs.«172921_j68745246539824_1_alg».proof.Proof.Region0
import proofs.«172921_j68745246539824_1_alg».proof.Proof.Region1Body
import proofs.«172921_j68745246539824_1_alg».proof.Proof.Region1Arrays
import proofs.«172921_j68745246539824_1_alg».proof.Proof.Gen.KernelIdeal.Regions

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand0 Cert.KernelIdeal.Hand1
open Idealize.ShloMosaic.Pipeline (Seg HostSeg RegionSeg)

variable (m : (ℓ : Loc nD τ sig) → Buf (Elt F) ℓ) (ρ : Dev nD → PrngReg)

/-! ## The buffer contents between items -/

/-- At launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b
/-- After the first region: its two result arrays at what its write-backs leave, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev R2 : (c : Dev nD) → (b : Ref sig .tc) → Buf (Elt F) ((c : Thread nD τ).loc b) := fun c b => W2 m c b
theorem hF0 (c : Dev nD) (w : Fin cfg0.W) : (dat0 (R1 m) c).arrAt w cfg0.N = R2 m c (Pipeline.arrRef spec0 w) :=
  (W2_arr m c w).symm
theorem hrest0 (c : Dev nD) : ∀ b, b ∉ Finset.univ.image (Pipeline.arrRef spec0) → R2 m c b = R1 m c b :=
  fun b hb => W2_of_ne m c b fun w e => hb (Finset.mem_image.mpr ⟨w, Finset.mem_univ _, e⟩)
/-- After the second region: its result array at what its write-backs leave, every other buffer as entered (its four
    input windows read the first region's two results and leave them as they were). -/
def W3 (c : Dev nD) : Valuation τ sig (Elt F) :=
  Function.update (W2 m c) (Proc.devRef .tc main_v3) ((dat1 (R2 m) c).arrAt 4 cfg1.N)
abbrev R3 : (c : Dev nD) → (b : Ref sig .tc) → Buf (Elt F) ((c : Thread nD τ).loc b) := fun c b => W3 m c b
theorem W3_main_v3 (c : Dev nD) : W3 m c (Proc.devRef .tc main_v3) = (dat1 (R2 m) c).arrAt 4 cfg1.N := by
  unfold W3; exact Function.update_self ..
theorem W3_of_ne (c : Dev nD) (b : Ref sig .tc) (hb : b ≠ main_v3) : W3 m c (Proc.devRef .tc b) = W2 m c (Proc.devRef .tc b) := by
  unfold W3; exact Function.update_of_ne (StableHlo.devRef_ne_of_ne hb) ..
theorem hF1 (c : Dev nD) (w : Fin cfg1.W) : (dat1 (R2 m) c).arrAt w cfg1.N = R3 m c (Pipeline.arrRef spec1 w) := by
  match w with
  | ⟨0, _⟩ => exact (((dat1 (R2 m) c).arrAt_in 0 rfl _).trans (A_eq1 (R2 m) c 0)).trans (W3_of_ne m c main_v2_0 (by decide)).symm
  | ⟨1, _⟩ => exact (((dat1 (R2 m) c).arrAt_in 1 rfl _).trans (A_eq1 (R2 m) c 1)).trans (W3_of_ne m c main_v2_1 (by decide)).symm
  | ⟨2, _⟩ => exact (((dat1 (R2 m) c).arrAt_in 2 rfl _).trans (A_eq1 (R2 m) c 2)).trans (W3_of_ne m c main_v2_0 (by decide)).symm
  | ⟨3, _⟩ => exact (((dat1 (R2 m) c).arrAt_in 3 rfl _).trans (A_eq1 (R2 m) c 3)).trans (W3_of_ne m c main_v2_1 (by decide)).symm
  | ⟨4, _⟩ => exact (W3_main_v3 m c).symm
theorem hrest1 (c : Dev nD) : ∀ b, b ∉ Finset.univ.image (Pipeline.arrRef spec1) → R3 m c b = R2 m c b :=
  fun b hb => W3_of_ne m c b fun e => hb (Finset.mem_image.mpr ⟨4, Finset.mem_univ _, e.symm⟩)
/-- After the last host stretch. -/
abbrev W4 : Dev nD → Valuation τ sig (Elt F) := fun c => StableHlo.after hostOps2 (W3 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Ride (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator register. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its arrays come out of the unscoped
    buffers with each twice-read array split into two half shares, and go back joined; the generator register and the
    accumulator's buffer pass through its invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (W2 m c) ∗ Ride c)
  post c := iprop(StableHlo.held (c : Thread nD τ) (Pipeline.ucRefs τ sig) (W3 m c) ∗ Ride c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := arrays1_of_unscopedBufs (R2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (R2 m) c)
    unfold Pipeline.ΦA
    iintro ⟨Hp, -, Hr⟩
    isplitl [Hr]; · iexact Hr
    iexact Hp
  hout c := by
    rw [Pipeline.ownSems0_none]
    refine (hout1 (R2 m) c).trans ?_
    unfold Pipeline.ΦA
    iintro ⟨Hr, Hp⟩
    isplitl [Hp]; · iexact Hp
    isplitr; · iempintro
    iexact Hr
  hexit c := by
    have hjoin := unscopedBufs_of_arrays1 (R2 m) c (R3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of the program terminates, nothing faulting, and every final memory holds every unscoped
    buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tₙ m)
    (hch := ⟨fun _ => .rfl, fun _ => .rfl, fun _ => .rfl, fun _ => .rfl, fun c => show iprop(StableHlo.held (c : Thread nD τ) (Pipeline.ucRefs τ sig) (W4 m c) ∗ Ride c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.HandRun

end
-- ==== Proof.MainFrame.lean ====
/-
  The frame of the whole program: no host operation writes an argument array, the first region reads four of them through
  input windows (and leaves them as they were) and bypasses the other two, the second region touches none; so every
  argument's buffer holds at the end what it held at launch.
-/
import proofs.«172921_j68745246539824_1_alg».proof.Proof.MainRun

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand0 Cert.KernelIdeal.Hand1

variable (m : (ℓ : Loc nD τ sig) → Buf (Elt F) ℓ) (ρ : Dev nD → PrngReg)

/-- A buffer that neither host stretch writes, that is not the second region's result, and that the first region leaves
    as it found it, ends as launched. -/
theorem W4_keeps (c : Dev nD) (r : Ref sig .tc) (h2 : r ∉ hostOps2_W) (h3 : r ≠ main_v3)
    (hw : W2 m c (Proc.devRef .tc r) = W1 m c (Proc.devRef .tc r)) (h0 : r ∉ hostOps0_W) :
    W4 m c (Proc.devRef .tc r) = m ((c : Thread nD τ).loc r) :=
  (StableHlo.after_of_writes_sub hostOps2 _ hostOps2_writes h2).trans <| (W3_of_ne m c r h3).trans <| hw.trans <|
    (StableHlo.after_of_writes_sub hostOps0 _ hostOps0_writes h0).trans rfl

theorem W4_main_arg0 (c : Dev nD) : W4 m c (Proc.devRef .tc main_arg0) = m ((c : Thread nD τ).loc main_arg0) :=
  W4_keeps m c main_arg0 (by decide) (by decide) ((W2_arr m c 0).trans (((dat0 (R1 m) c).arrAt_in 0 rfl _).trans (A_eq0 (R1 m) c 0))) (by decide)
theorem W4_main_arg1 (c : Dev nD) : W4 m c (Proc.devRef .tc main_arg1) = m ((c : Thread nD τ).loc main_arg1) :=
  W4_keeps m c main_arg1 (by decide) (by decide) ((W2_arr m c 1).trans (((dat0 (R1 m) c).arrAt_in 1 rfl _).trans (A_eq0 (R1 m) c 1))) (by decide)
theorem W4_main_arg2 (c : Dev nD) : W4 m c (Proc.devRef .tc main_arg2) = m ((c : Thread nD τ).loc main_arg2) :=
  W4_keeps m c main_arg2 (by decide) (by decide) ((W2_arr m c 2).trans (((dat0 (R1 m) c).arrAt_in 2 rfl _).trans (A_eq0 (R1 m) c 2))) (by decide)
theorem W4_main_arg3 (c : Dev nD) : W4 m c (Proc.devRef .tc main_arg3) = m ((c : Thread nD τ).loc main_arg3) :=
  W4_keeps m c main_arg3 (by decide) (by decide) (W2_of_ne m c main_arg3 (by decide)) (by decide)
theorem W4_main_arg4 (c : Dev nD) : W4 m c (Proc.devRef .tc main_arg4) = m ((c : Thread nD τ).loc main_arg4) :=
  W4_keeps m c main_arg4 (by decide) (by decide) ((W2_arr m c 4).trans (((dat0 (R1 m) c).arrAt_in 4 rfl _).trans (A_eq0 (R1 m) c 4))) (by decide)
theorem W4_main_arg5 (c : Dev nD) : W4 m c (Proc.devRef .tc main_arg5) = m ((c : Thread nD τ).loc main_arg5) :=
  W4_keeps m c main_arg5 (by decide) (by decide) (W2_of_ne m c main_arg5 (by decide)) (by decide)

/-- The program runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.HandRun

end
-- ==== Proof.Region0BodyBits.lean ====
/- The first pallas_call (the two linear layers) as a body: what one run of it leaves in its two output
   buffers, as a function of what its six input buffers hold, and the proof that it does.

   The body reads its eight VMEM buffers whole. Buffers 0 and 1 hold a block of 2048 rows of the text and of the
   time features, buffers 2 and 4 the two 128 x 128 weight matrices, buffers 3 and 5 the two bias rows. It
   computes, for each of the two layers, rows * weightsᵀ + bias (the skeleton's payloads `k0_pay1`, `k0_pay2`),
   and overwrites output buffers 6 and 7 with the two results, each by ONE store through the rectangle that is the
   whole buffer. It also reads each output buffer just before overwriting it; the value read is never used. -/
import proofs.«172921_j68745246539824_1_alg».proof.Proof.Gen.Kernel.Launch
import proofs.«172921_j68745246539824_1_alg».proof.Proof.Gen.Kernel.Skeleton
import proofs.«172921_j68745246539824_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that a rectangle of 2048 rows lies inside its buffer recurses once per coordinate of the long axis
set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through

Every access of the body is through the rectangle "all of the buffer": offset 0 on both axes, the buffer's own
extents, stride 1. There is one per buffer shape. -/

/-- All of a 2048 x 128 buffer (a block of rows, or a block of results). -/
abbrev rRows : Rect S2048x128 := Rect.unit (s := S2048x128) ![0, 0] S2048x128.size inb_S2048x128_S2048x128_0_0
/-- All of a 128 x 128 buffer (a weight matrix). -/
abbrev rWeights : Rect S128x128 := Rect.unit (s := S128x128) ![0, 0] S128x128.size inb_S128x128_S128x128_0_0
/-- All of a 1 x 128 buffer (a bias row). -/
abbrev rBias : Rect S1x128 := Rect.unit (s := S1x128) ![0, 0] S1x128.size inb_S1x128_S1x128_0_0

/-! ## What the body leaves in the two output buffers -/

/-- Output buffer 6 after the body, when buffers 0, 2, 3 read `x0` (a block of text rows), `x2` (the first
    layer's weights) and `x3` (its bias): the contents a single write of the first layer's result through the
    whole-buffer rectangle leaves, whatever was there before. -/
def out0_6 (x0 : Vec F S2048x128 .f32) (x2 : Vec F S128x128 .f32) (x3 : Vec F S1x128 .f32) : Vec F S2048x128 .f32 :=
  View.canon [⟨rRows, k0_pay1 (View.ld x0 rRows) (View.ld x2 rWeights) (View.ld x3 rBias)⟩]

/-- Output buffer 7 after the body, when buffers 1, 4, 5 read `x1` (a block of time rows), `x4` (the second
    layer's weights) and `x5` (its bias): the same for the second layer. -/
def out0_7 (x1 : Vec F S2048x128 .f32) (x4 : Vec F S128x128 .f32) (x5 : Vec F S1x128 .f32) : Vec F S2048x128 .f32 :=
  View.canon [⟨rRows, k0_pay2 (View.ld x1 rRows) (View.ld x4 rWeights) (View.ld x5 rBias)⟩]

/-- One write through the whole-buffer rectangle reaches every entry of a 2048 x 128 buffer: the rectangle's
    extents are the buffer's, so the buffer is one tile of that size, at tile index (0, 0), and the write is
    that tile. Whatever the payload `p`. -/
theorem cover_rows (p : Vec F S2048x128 .f32) (y : S2048x128.Idx) :
    ∃ pc ∈ ([⟨rRows, p⟩] : List (View.Piece (Elt F) S2048x128 .f32)), y ∈ pc.1.set :=
  View.cover_of_tiled [⟨rRows, p⟩] S2048x128.size (by rfl) y

/-! ## The body's triple -/

set_option maxHeartbeats 1000000 in
/-- The body, called at any grid point `i` on eight whole VMEM buffers of which the six inputs read `x0 … x5`
    and the two outputs hold anything, runs without a fault to a state where the inputs read what they read and
    the outputs read `out0_6 x0 x2 x3` and `out0_7 x1 x4 x5`. The function is a sequence of eight loads and two
    stores over the two payloads, run here one operation at a time; what remains at the end is that a buffer read
    after one write that covers it reads what was written. -/
theorem sound_kernel0 (c : Dev nD) (E : Set ℕ) (i : grid0.Coords)
    (a0 : Memref sig .tc .vmem S2048x128 .f32) (h0 : a0.IsWhole) (a1 : Memref sig .tc .vmem S2048x128 .f32) (h1 : a1.IsWhole)
    (a2 : Memref sig .tc .vmem S128x128 .f32) (h2 : a2.IsWhole) (a3 : Memref sig .tc .vmem S1x128 .f32) (h3 : a3.IsWhole)
    (a4 : Memref sig .tc .vmem S128x128 .f32) (h4 : a4.IsWhole) (a5 : Memref sig .tc .vmem S1x128 .f32) (h5 : a5.IsWhole)
    (a6 : Memref sig .tc .vmem S2048x128 .f32) (h6 : a6.IsWhole) (a7 : Memref sig .tc .vmem S2048x128 .f32) (h7 : a7.IsWhole)
    (x0 x1 : Vec F S2048x128 .f32) (x2 : Vec F S128x128 .f32) (x3 : Vec F S1x128 .f32)
    (x4 : Vec F S128x128 .f32) (x5 : Vec F S1x128 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (out0_6 x0 x2 x3)
            ∗ owns (c : Thread nD τ) a7 fullShare (out0_7 x1 x4 x5)) -∗ K ⟨⟩))
      ⊢ wp frame (wpE (defs₀ (F := F)) Variants.none c none) E
          (cc0__linear_kernel i a0 h0 a1 h1 a2 h2 a3 h3 a4 h4 a5 h5 a6 h6 a7 h7) K := by
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_rows _)
  iexists _; isplitr
  swap; · iexact H7
  ipureintro
  exact View.read_writes_eq_canon _ _ _ (cover_rows _)

end Cert.Kernel.Hand0

end
-- ==== Proof.Region0Bits.lean ====
/- The first pallas_call (the two linear layers) as a pipeline of 4 grid points over 8 windows, at ANY contents `V`
   of the TensorCore's buffers when the call is entered: what each window's staging buffer holds before and after
   the body at every point, and the proof that the body turns the one into the other.

   The windows. Windows 0 and 1 walk the text and the time features, 2048 rows per point. Windows 2, 4 are the
   two weight matrices and 3, 5 the two bias rows: their block is the whole array at every point, so it is brought
   in once, at the first point, and stays. Windows 6 and 7 are the two results, 2048 rows per point, written back
   at every point. Before the body at a point every INPUT buffer holds that window's block of the array as the
   call found it (fetched at this point, or left there from an earlier one); after it the inputs are unchanged and
   output buffers 6, 7 hold `out0_6`, `out0_7` of the input blocks. -/
import proofs.«172921_j68745246539824_1_alg».proof.Proof.Region0BodyBits

-- deciding that a rectangle of 2048 rows lies inside its buffer recurses once per coordinate of the long axis
set_option maxRecDepth 16384

noncomputable section

namespace Cert.Kernel.Hand0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered: everything below is stated at this parameter
variable (V : (c : Dev nD) → (b : Ref sig .tc) → Buf (Elt F) ((c : Thread nD τ).loc b))

/-! ## The windows' blocks -/

/-- Window `w`'s block at point `t`: the entries of its array, as the call finds it (`V`), at the rows and
    columns the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the block of text rows): its current staging buffer holds its block at every point.
    For any proof data whose array is `V`'s (`hA`) and whose body leaves the block in place (`hafter`); the window is
    never cut short by the array's edge and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the block of time rows): its current staging buffer holds its block at every point.
    For any proof data whose array is `V`'s (`hA`) and whose body leaves the block in place (`hafter`); the window is
    never cut short by the array's edge and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the first layer's weights): its current staging buffer holds its block at every point, although it is
    brought in at the first point only: the block index never moves, so what was brought in then is still this point's block.
    For any proof data whose array is `V`'s (`hA`) and whose body leaves the block in place (`hafter`); the window is
    never cut short by the array's edge and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 (the first layer's bias row): its current staging buffer holds its block at every point, although it is
    brought in at the first point only: the block index never moves, so what was brought in then is still this point's block.
    For any proof data whose array is `V`'s (`hA`) and whose body leaves the block in place (`hafter`); the window is
    never cut short by the array's edge and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 (the second layer's weights): its current staging buffer holds its block at every point, although it is
    brought in at the first point only: the block index never moves, so what was brought in then is still this point's block.
    For any proof data whose array is `V`'s (`hA`) and whose body leaves the block in place (`hafter`); the window is
    never cut short by the array's edge and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 (the second layer's bias row): its current staging buffer holds its block at every point, although it is
    brought in at the first point only: the block index never moves, so what was brought in then is still this point's block.
    For any proof data whose array is `V`'s (`hA`) and whose body leaves the block in place (`hafter`); the window is
    never cut short by the array's edge and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the call on core `c`. The arrays are as the call finds them (`V`). After the body at point
    `t` each input window's buffer still holds its block, and the two output windows' buffers hold the two layers'
    results on the blocks: `out0_6` of the text rows, the first weights and the first bias; `out0_7` of the time
    rows, the second weights and the second bias. The invariant carried from point to point is that nothing else of
    the core moves (the other scoped buffers and the generator register); every buffer is owned whole and nothing is
    owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`: the invariant, the record of what is owed, and each window's current
    staging buffer owned whole at what the proof data says it holds then, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns: the same with each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point. The six input buffers hold their blocks (`before0_W`), so the body's triple applies with
    the blocks for `x0 … x5`; the invariant and the record of what is owed are not touched by the body and pass
    through; they do not depend on the point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation of the pipeline, at every point: the conjunction over the windows written out one by one is
    `sound_body0`'s pre and post. -/
theorem body_obligation0 (c : Dev nD) : BodyObligation (dat0 (F := F) V c) (defs₀ (F := F)) Variants.none () Set.univ := fun t => by
  rw [bigSep_W0, bigSep_W0]
  exact sound_body0 V c t

end Cert.Kernel.Hand0

end
-- ==== Proof.Region1RunsBits.lean ====
/-
  The second region (the pairwise Gaussian sums over a 16 × 16 grid of tiles): what its body's runs are stated over.
  A grid point t = 16·I + J works on row tile I and column tile J. The body resets its accumulator when J = 0, adds the
  tile's three sums at every point, and copies the accumulator to the output block when J = 15.
-/
import proofs.«172921_j68745246539824_1_alg».proof.Proof.Gen.Kernel.Launch
import proofs.«172921_j68745246539824_1_alg».proof.Proof.Gen.Kernel.Skeleton
import proofs.«172921_j68745246539824_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The buffer contents of the core when the region is entered: a parameter, fixed by the run of the whole program.
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the pipeline fetched it there or the
    block index did not move since the previous point. One statement per input window (0: row tile of the first
    array, 1: row tile of the second, 2 and 3: the column tiles). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, as functions of the grid point -/

/-- "the column tile is the first one" (the accumulator is reset), as the body computes it from the coordinates. -/
abbrev cond1_0 (i : grid1.Coords) : Prop := (Scalar.cmpi .ne (Scalar.extui (Scalar.cmpi .eq (BitVec.ofNat 32 (i 1).val) 0#32)) 0#32) = 1#1
/-- It holds exactly at the points 16·I. -/
theorem hcond1_0 : ∀ t : Fin cfg1.N, cond1_0 (grid1.coords t) ↔ t.val % 16 = 0 :=
  (by decide +kernel : ∀ t : Fin grid1.N, cond1_0 (grid1.coords t) ↔ t.val % 16 = 0)
/-- "the column tile is the last one" (the accumulator is copied out). -/
abbrev cond1_1 (i : grid1.Coords) : Prop := k1_cond2 i = 1#1
/-- It holds exactly at the points 16·I + 15. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last column tile the body stores nothing into the output block, and the pipeline does not write it back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- At the last column tile it does. -/
theorem liveAt1_4 : ∀ t : Fin cfg1.N, cond1_1 (grid1.coords t) → cfg1.idle 4 (grid1.coords t) = false := by decide +kernel

/-! ## The memrefs the body is called with -/

/-- One staging buffer of the output window, through which its contents are stated (the choice does not matter). -/
abbrev VO1_4 : View sig .tc .vmem S1x1x128 .f32 := (Memref.whole cc1_stg4_0 : Memref sig .tc .vmem S1x1x128 .f32).view
abbrev ms1_0 (t : Fin cfg1.N) : Memref sig .tc .vmem S512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x128 .f32 := win1_4.stage (cfg1.slots t 4)
abbrev hs1_4 (t : Fin cfg1.N) : (ms1_4 t).IsWhole := hstage1_4 ((cfg1.slots t 4).cast nbuf1_4)
/-- The accumulator: a whole scoped buffer of the kernel's own, carried from one grid point to the next. -/
abbrev scM1_0 : Memref sig .tc .vmem S1x1x128 .f32 := Memref.whole cc1_scratch0
abbrev VS1_0 : View sig .tc .vmem S1x1x128 .f32 := scM1_0.view

end Cert.Kernel.Hand1

end
-- ==== Proof.Region1RunABits.lean ====
/-
  The body of the second region at the first column tile of a row of tiles: the accumulator is reset, then the tile's sums are added; nothing is stored into the output block.
-/
import proofs.«172921_j68745246539824_1_alg».proof.Proof.Region1RunsBits

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, in this case of its two conditionals: the four input tiles at their contents, it
    runs to a continuation that holds the inputs as they were, the accumulator with the listed stores written, and the
    output block as the case leaves it. The lists of stores are found by running the body. -/
noncomputable def kernelRun1_A (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) :
    Σ' (L4 : List (View.Piece (Elt F) S1x1x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gauss_kernel i arg2 harg2 arg3 harg3 arg4 harg4 arg5 harg5 arg6 harg6 arg7 harg7) K } := by
  refine ⟨[], ?_, fun xi4 E K => ?run⟩
  case run =>
    simp only [cc1__gauss_kernel_eq_skeleton]; unfold cc1__gauss_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand1

end
-- ==== Proof.Region1RunBBits.lean ====
/-
  The body of the second region at a column tile that is neither the first nor the last: the tile's sums are added to the accumulator as the previous point left it; nothing is stored into the output block.
-/
import proofs.«172921_j68745246539824_1_alg».proof.Proof.Region1RunABits

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, in this case of its two conditionals: the four input tiles at their contents, it
    runs to a continuation that holds the inputs as they were, the accumulator with the listed stores written, and the
    output block as the case leaves it. The lists of stores are found by running the body. -/
noncomputable def kernelRun1_B (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) :
    Σ' (L4 : List (View.Piece (Elt F) S1x1x128 .f32)), { LS0 : List (View.Piece (Elt F) S1x1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__gauss_kernel i arg2 harg2 arg3 harg3 arg4 harg4 arg5 harg5 arg6 harg6 arg7 harg7) K } := by
  refine ⟨[], ?_, fun xi4 E K => ?run⟩
  case run =>
    simp only [cc1__gauss_kernel_eq_skeleton]; unfold cc1__gauss_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand1

end
-- ==== Proof.Region1RunCBits.lean ====
/-
  The body of the second region at the last column tile of a row of tiles: the tile's sums are added to the accumulator as the previous point left it, and the accumulator is copied into the output block.
-/
import proofs.«172921_j68745246539824_1_alg».proof.Proof.Region1RunBBits

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole staging memrefs, in this case of its two conditionals: the four input tiles at their contents, it
    runs to a continuation that holds the inputs as they were, the accumulator with the listed stores written, and the
    output block as the case leaves it. The lists of stores are found by running the body. -/
noncomputable def kernelRun1_C (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) :
    Σ' (L4 : List (View.Piece (Elt F) S1x1x128 .f32)), { LS0 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__gauss_kernel i arg2 harg2 arg3 harg3 arg4 harg4 arg5 harg5 arg6 harg6 arg7 harg7) K } := by
  refine ⟨?_, ?_, fun E K => ?run⟩
  case run =>
    simp only [cc1__gauss_kernel_eq_skeleton]; unfold cc1__gauss_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand1

end
-- ==== Proof.Region1Bits.lean ====
/-
  The second region's proof data: what the accumulator and the output block hold after every grid point (by recursion on
  the point: reset at the first column tile, added to at every tile, copied out at the last), the invariant that carries
  the accumulator from point to point, and the body's obligation at every point.
-/
import proofs.«172921_j68745246539824_1_alg».proof.Proof.Region1RunCBits

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What case A leaves in the output block's staging buffer: its stores read back (none: a placeholder nothing consults, the window being idle there). -/
def out1_A_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) : Vec F S1x1x128 .f32 :=
  VO1_4.read (Elt F) (VO1_4.writes (Elt F) VO1_4.junk (kernelRun1_A c i arg2 harg2 arg3 harg3 arg4 harg4 arg5 harg5 arg6 harg6 arg7 harg7 hc0 hc1 x0 x1 x2 x3).1)

/-- Case A's stores into the accumulator cover it. -/
theorem scover1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) (y : S1x1x128.Idx) :
    ∃ pc ∈ (kernelRun1_A c i arg2 harg2 arg3 harg3 arg4 harg4 arg5 harg5 arg6 harg6 arg7 harg7 hc0 hc1 x0 x1 x2 x3).2.1, y ∈ pc.1.set :=
  View.cover_of_tiledL (kernelRun1_A c i arg2 harg2 arg3 harg3 arg4 harg4 arg5 harg5 arg6 harg6 arg7 harg7 hc0 hc1 x0 x1 x2 x3).2.1 S1x1x128.size (by sl_kernel_rfl) y

/-- What case A leaves in the accumulator: its stores read back. -/
def sout1_A_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) : Vec F S1x1x128 .f32 :=
  VS1_0.read (Elt F) (VS1_0.writes (Elt F) VS1_0.junk (kernelRun1_A c i arg2 harg2 arg3 harg3 arg4 harg4 arg5 harg5 arg6 harg6 arg7 harg7 hc0 hc1 x0 x1 x2 x3).2.1)

/-- What case B leaves in the output block's staging buffer: its stores read back (none: a placeholder nothing consults, the window being idle there). -/
def out1_B_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) : Vec F S1x1x128 .f32 :=
  VO1_4.read (Elt F) (VO1_4.writes (Elt F) VO1_4.junk (kernelRun1_B c i arg2 harg2 arg3 harg3 arg4 harg4 arg5 harg5 arg6 harg6 arg7 harg7 hc0 hc1 x0 x1 x2 x3 xs0).1)

/-- Case B's stores into the accumulator cover it. -/
theorem scover1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) (y : S1x1x128.Idx) :
    ∃ pc ∈ (kernelRun1_B c i arg2 harg2 arg3 harg3 arg4 harg4 arg5 harg5 arg6 harg6 arg7 harg7 hc0 hc1 x0 x1 x2 x3 xs0).2.1, y ∈ pc.1.set :=
  View.cover_of_tiledL (kernelRun1_B c i arg2 harg2 arg3 harg3 arg4 harg4 arg5 harg5 arg6 harg6 arg7 harg7 hc0 hc1 x0 x1 x2 x3 xs0).2.1 S1x1x128.size (by sl_kernel_rfl) y

/-- What case B leaves in the accumulator: its stores read back. -/
def sout1_B_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) : Vec F S1x1x128 .f32 :=
  VS1_0.read (Elt F) (VS1_0.writes (Elt F) VS1_0.junk (kernelRun1_B c i arg2 harg2 arg3 harg3 arg4 harg4 arg5 harg5 arg6 harg6 arg7 harg7 hc0 hc1 x0 x1 x2 x3 xs0).2.1)

/-- In the last-column case the one store into the output block covers it. -/
theorem cover1_C_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) (y : S1x1x128.Idx) :
    ∃ pc ∈ (kernelRun1_C c i arg2 harg2 arg3 harg3 arg4 harg4 arg5 harg5 arg6 harg6 arg7 harg7 hc0 hc1 x0 x1 x2 x3 xs0).1, y ∈ pc.1.set :=
  View.cover_of_tiledL (kernelRun1_C c i arg2 harg2 arg3 harg3 arg4 harg4 arg5 harg5 arg6 harg6 arg7 harg7 hc0 hc1 x0 x1 x2 x3 xs0).1 S1x1x128.size (by sl_kernel_rfl) y
/-- What case C leaves in the output block's staging buffer: its stores read back. -/
def out1_C_4 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) : Vec F S1x1x128 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs0).1)

/-- Case C's stores into the accumulator cover it. -/
theorem scover1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) (y : S1x1x128.Idx) :
    ∃ pc ∈ (kernelRun1_C c i arg2 harg2 arg3 harg3 arg4 harg4 arg5 harg5 arg6 harg6 arg7 harg7 hc0 hc1 x0 x1 x2 x3 xs0).2.1, y ∈ pc.1.set :=
  View.cover_of_tiledL (kernelRun1_C c i arg2 harg2 arg3 harg3 arg4 harg4 arg5 harg5 arg6 harg6 arg7 harg7 hc0 hc1 x0 x1 x2 x3 xs0).2.1 S1x1x128.size (by sl_kernel_rfl) y

/-- What case C leaves in the accumulator: its stores read back. -/
def sout1_C_0 (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) : Vec F S1x1x128 .f32 :=
  VS1_0.read (Elt F) (VS1_0.writes (Elt F) VS1_0.junk (kernelRun1_C c i arg2 harg2 arg3 harg3 arg4 harg4 arg5 harg5 arg6 harg6 arg7 harg7 hc0 hc1 x0 x1 x2 x3 xs0).2.1)

/-! ## What the buffers hold after each point -/

/-- After the body at position `n`: the output block's staging buffer and the accumulator. At the first column tile
    of a row of tiles the accumulator starts afresh; elsewhere it continues from what the point before left. -/
def outsAt1 (c : Dev nD) : (n : ℕ) → n < cfg1.N → Vec F S1x1x128 .f32 × Vec F S1x1x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The scoped buffers that are neither this region's staging buffers nor its accumulator (the first region's staging
    buffers), each at some contents: carried along untouched. -/
abbrev others1 (c : Dev nD) : sProp 𝕄 := Pipeline.scopedRestBut (Ix := Unit) (Name := ℕ) (U := UR sig nD τ) (Lvl := ℕ) (Val := Elt F) spec1 c [cc1_scratch0]

/-- What the launch hands the region's body: the accumulator at some contents, the other scoped buffers, the generator register. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA
  rw [Pipeline.scopedRest_split_of_list spec1 c [cc1_scratch0] (by decide) (by decide)]
  simp only [bigSepL, scM1_0, owns_whole]; try rfl

/-- Before position `n`: at the start what the launch hands over; afterwards the accumulator at what the point before left. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2) ∗ others1 (F := F) c) ∗ (∃ r, prngReg c r)) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The proof data -/

/-- The arrays as the region finds them; after the body each input tile's buffer at its block, the output block's at
    `outsAt1`; the two arrays each read through two windows are held at half shares by each. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end Cert.Kernel.Hand1

end
-- ==== Proof.Region1BodyBits.lean ====
/-
  The second region's body obligation: at every grid point the body, called on the windows' staging buffers and handed the
  accumulator by the invariant, leaves what the proof data say. The point's column tile decides the case.
-/
import proofs.«172921_j68745246539824_1_alg».proof.Proof.Region1Bits

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  by_cases h0 : t.val % 16 = 0
  · by_cases h1 : t.val % 16 = 15
    · exfalso; omega
    · -- the first column tile: the accumulator starts afresh
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun e => h0 (by rw [e])
    by_cases h1 : t.val % 16 = 15
    · -- the last column tile: the accumulator is added to and copied out
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · -- a middle column tile: the accumulator is added to
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B_0; (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives it back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨HS0, Hoth⟩, Hg⟩
  isplitl [HS0 Hoth]
  · isplitl [HS0]
    · iexists _; iexact HS0
    iexact Hoth
  iexact Hg

theorem hout1 (c : Dev nD) : (dat1 V c).Φ (Fin.last cfg1.N) ⊢ Pipeline.ΦA spec1 c :=
  Phi_out1 V c _ (by rw [Fin.val_last]; have : cfg1.N = 256 := N_1; omega)

end Cert.Kernel.Hand1

end
-- ==== Proof.Region1ArraysBits.lean ====
/-
  The second region's arrays among the core's unscoped buffers. Its first two windows and its next two read the SAME two
  arrays (the row tile and the column tile of each projected array), so each of those arrays is held at half a share by
  each of its two windows: at the region's entry the whole-share holding of the buffer is split in two, at its exit the
  two halves, which still hold the same contents, are joined again.
-/
import proofs.«172921_j68745246539824_1_alg».proof.Proof.Region1Bits

set_option maxRecDepth 16384

noncomputable section

namespace Cert.Kernel.Hand1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's arrays, window by window, each a whole buffer held at the window's share. -/
theorem arrays1_eq (c : Dev nD) (Fs : (w : Fin cfg1.W) → Buf (Elt F) ((cfg1.win w).arr.view.loc (c.tc : Thread nD τ))) :
    (dat1 V c).arrays Fs = bigSep Finset.univ fun w => (((c.tc : Thread nD τ).loc (Pipeline.arrRef spec1 w)) ↦{(dat1 V c).share w} Fs w : sProp 𝕄) := by
  unfold Dat.arrays
  exact bigSep_congr fun w _ => by rw [(arr_whole1 w).set_eq_univ]

/-- The distinct buffers behind the region's arrays, listed. -/
theorem arrBufs1_eq (c : Dev nD) (W : (b : Ref sig .tc) → Buf (Elt F) ((c.tc : Thread nD τ).loc b)) :
    (Pipeline.arrBufs (Ix := Unit) (Name := ℕ) (U := UR sig nD τ) (Lvl := ℕ) (cfgs (1 : Fin 2)).spec c W : sProp 𝕄)
      = iprop((((c.tc : Thread nD τ).loc main_v2_0) ↦{fullShare} W main_v2_0) ∗ (((c.tc : Thread nD τ).loc main_v2_1) ↦{fullShare} W main_v2_1)
          ∗ (((c.tc : Thread nD τ).loc main_v3) ↦{fullShare} W main_v3)) := by
  unfold Pipeline.arrBufs
  exact bigSep_eq_bigSepL_of_eq [main_v2_0, main_v2_1, main_v3] (by decide) (by decide) _

/-- ENTRY: the core's unscoped buffers at contents `V c` are the region's arrays at the proof data's entry contents
    (each twice-read array split into two half shares) and the unscoped rest. -/
theorem arrays1_of_unscopedBufs (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest (Ix := Unit) (Name := ℕ) (U := UR sig nD τ) (Lvl := ℕ) spec1 c (V c)) := by
  rw [Pipeline.unscopedBufs_split₀ cfgs 1 winFacts₀1.arr_unscoped c (V c), arrays1_eq, bigSep_W1, arrBufs1_eq]
  refine sep_mono ?_ .rfl
  iintro ⟨Ha, Hb, Hc⟩
  ihave Ha' := (pointsTo_share (PosShare.mem_left_op_right fullShare)).1 $$ Ha
  icases Ha' with ⟨Ha1, Ha2⟩
  ihave Hb' := (pointsTo_share (PosShare.mem_left_op_right fullShare)).1 $$ Hb
  icases Hb' with ⟨Hb1, Hb2⟩
  isplitl [Ha1]; · iexact Ha1
  isplitl [Hb1]; · iexact Hb1
  isplitl [Ha2]; · iexact Ha2
  isplitl [Hb2]; · iexact Hb2
  iexact Hc

/-- EXIT: the region's arrays at contents `Fs` (the two windows of a twice-read array at the same contents) and the
    unscoped rest at `V c` are the core's unscoped buffers at any valuation that has the arrays at `Fs` and agrees
    with `V c` off them. -/
theorem unscopedBufs_of_arrays1 (c : Dev nD) (W' : (b : Ref sig .tc) → Buf (Elt F) ((c.tc : Thread nD τ).loc b))
    (Fs : (w : Fin cfg1.W) → Buf (Elt F) ((cfg1.win w).arr.view.loc (c.tc : Thread nD τ)))
    (hF : ∀ w, Fs w = W' (Pipeline.arrRef spec1 w))
    (hrest : ∀ b, b ∉ Finset.univ.image (Pipeline.arrRef spec1) → W' b = V c b) :
    iprop((dat1 V c).arrays Fs ∗ Pipeline.unscopedRest (Ix := Unit) (Name := ℕ) (U := UR sig nD τ) (Lvl := ℕ) spec1 c (V c))
      ⊢ (unscopedBufs (Ix := Unit) (Name := ℕ) (U := UR sig nD τ) (Lvl := ℕ) c W' : sProp 𝕄) := by
  rw [Pipeline.unscopedBufs_split₀ cfgs 1 winFacts₀1.arr_unscoped c W', arrays1_eq, bigSep_W1, arrBufs1_eq]
  refine sep_mono ?_ (Entails.of_eq ?_)
  · rw [hF 0, hF 1, hF 2, hF 3, hF 4]
    iintro ⟨Ha1, Hb1, Ha2, Hb2, Hc⟩
    isplitl [Ha1 Ha2]
    · iapply (pointsTo_share (PosShare.mem_left_op_right fullShare)).2
      isplitl [Ha1]; · iexact Ha1
      iexact Ha2
    isplitl [Hb1 Hb2]
    · iapply (pointsTo_share (PosShare.mem_left_op_right fullShare)).2
      isplitl [Hb1]; · iexact Hb1
      iexact Hb2
    iexact Hc
  · unfold Pipeline.unscopedRest
    exact (bigSep_congr fun b hb => by rw [hrest b (Finset.mem_sdiff.mp hb).2]).symm

end Cert.Kernel.Hand1

end
-- ==== Proof.MainRunBits.lean ====
/-
  The run of the whole program: a host stretch (the two bias rows reshaped), the first region (the linear layers), the
  second region (the pairwise Gaussian sums), a host stretch (slice, sum over the row tiles, the three means combined).
  Between two items every unscoped buffer of the core is held whole at a named valuation: the launch memory, then each
  host stretch's operations applied, then each region's result arrays replaced by what its write-backs leave. The result
  of the run is read off the last valuation.
-/
import proofs.«172921_j68745246539824_1_alg».proof.Proof.Region0Bits
import proofs.«172921_j68745246539824_1_alg».proof.Proof.Region1BodyBits
import proofs.«172921_j68745246539824_1_alg».proof.Proof.Region1ArraysBits
import proofs.«172921_j68745246539824_1_alg».proof.Proof.Gen.Kernel.Regions

set_option maxRecDepth 16384

noncomputable section

namespace Cert.Kernel.HandRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Hand0 Cert.Kernel.Hand1
open Idealize.ShloMosaic.Pipeline (Seg HostSeg RegionSeg)

variable (m : (ℓ : Loc nD τ sig) → Buf (Elt F) ℓ) (ρ : Dev nD → PrngReg)

/-! ## The buffer contents between items -/

/-- At launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev R1 : (c : Dev nD) → (b : Ref sig .tc) → Buf (Elt F) ((c : Thread nD τ).loc b) := fun c b => W1 m c b
/-- After the first region: its two result arrays at what its write-backs leave, every other buffer as entered. -/
def W2 (c : Dev nD) : Valuation τ sig (Elt F) :=
  Pipeline.withArrays spec0 c (W1 m c) fun w => (dat0 (R1 m) c).arrAt w cfg0.N
theorem W2_arr (c : Dev nD) (w : Fin cfg0.W) :
    W2 m c (Proc.devRef .tc (Pipeline.arrRef spec0 w)) = (dat0 (R1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev R2 : (c : Dev nD) → (b : Ref sig .tc) → Buf (Elt F) ((c : Thread nD τ).loc b) := fun c b => W2 m c b
theorem hF0 (c : Dev nD) (w : Fin cfg0.W) : (dat0 (R1 m) c).arrAt w cfg0.N = R2 m c (Pipeline.arrRef spec0 w) :=
  (W2_arr m c w).symm
theorem hrest0 (c : Dev nD) : ∀ b, b ∉ Finset.univ.image (Pipeline.arrRef spec0) → R2 m c b = R1 m c b :=
  fun b hb => W2_of_ne m c b fun w e => hb (Finset.mem_image.mpr ⟨w, Finset.mem_univ _, e⟩)
/-- After the second region: its result array at what its write-backs leave, every other buffer as entered (its four
    input windows read the first region's two results and leave them as they were). -/
def W3 (c : Dev nD) : Valuation τ sig (Elt F) :=
  Function.update (W2 m c) (Proc.devRef .tc main_v3) ((dat1 (R2 m) c).arrAt 4 cfg1.N)
abbrev R3 : (c : Dev nD) → (b : Ref sig .tc) → Buf (Elt F) ((c : Thread nD τ).loc b) := fun c b => W3 m c b
theorem W3_main_v3 (c : Dev nD) : W3 m c (Proc.devRef .tc main_v3) = (dat1 (R2 m) c).arrAt 4 cfg1.N := by
  unfold W3; exact Function.update_self ..
theorem W3_of_ne (c : Dev nD) (b : Ref sig .tc) (hb : b ≠ main_v3) : W3 m c (Proc.devRef .tc b) = W2 m c (Proc.devRef .tc b) := by
  unfold W3; exact Function.update_of_ne (StableHlo.devRef_ne_of_ne hb) ..
theorem hF1 (c : Dev nD) (w : Fin cfg1.W) : (dat1 (R2 m) c).arrAt w cfg1.N = R3 m c (Pipeline.arrRef spec1 w) := by
  match w with
  | ⟨0, _⟩ => exact (((dat1 (R2 m) c).arrAt_in 0 rfl _).trans (A_eq1 (R2 m) c 0)).trans (W3_of_ne m c main_v2_0 (by decide)).symm
  | ⟨1, _⟩ => exact (((dat1 (R2 m) c).arrAt_in 1 rfl _).trans (A_eq1 (R2 m) c 1)).trans (W3_of_ne m c main_v2_1 (by decide)).symm
  | ⟨2, _⟩ => exact (((dat1 (R2 m) c).arrAt_in 2 rfl _).trans (A_eq1 (R2 m) c 2)).trans (W3_of_ne m c main_v2_0 (by decide)).symm
  | ⟨3, _⟩ => exact (((dat1 (R2 m) c).arrAt_in 3 rfl _).trans (A_eq1 (R2 m) c 3)).trans (W3_of_ne m c main_v2_1 (by decide)).symm
  | ⟨4, _⟩ => exact (W3_main_v3 m c).symm
theorem hrest1 (c : Dev nD) : ∀ b, b ∉ Finset.univ.image (Pipeline.arrRef spec1) → R3 m c b = R2 m c b :=
  fun b hb => W3_of_ne m c b fun e => hb (Finset.mem_image.mpr ⟨4, Finset.mem_univ _, e.symm⟩)
/-- After the last host stretch. -/
abbrev W4 : Dev nD → Valuation τ sig (Elt F) := fun c => StableHlo.after hostOps2 (W3 m c)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev Ride (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last valuation, the generator register. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. Its arrays come out of the unscoped
    buffers with each twice-read array split into two half shares, and go back joined; the generator register and the
    accumulator's buffer pass through its invariant. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (R2 m) c).loose
  hwaits := Pipeline.hwaits_of_owed_zero _ _ _ _ L lv 1 fun _ _ => rfl
  pre c := iprop(StableHlo.held (c : Thread nD τ) (Pipeline.ucRefs τ sig) (W2 m c) ∗ Ride c)
  post c := iprop(StableHlo.held (c : Thread nD τ) (Pipeline.ucRefs τ sig) (W3 m c) ∗ Ride c)
  X c := iprop(∃ r, prngReg c r)
  Y c := iprop(∃ r, prngReg c r)
  Z c := Pipeline.unscopedRest (Ix := Unit) (Name := ℕ) (U := UR sig nD τ) (Lvl := ℕ) spec1 c (R2 m c)
  hentry c := by
    rw [Pipeline.ownSems0_none]
    have hsplit := arrays1_of_unscopedBufs (R2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (R2 m) c)
    unfold Pipeline.ΦA
    iintro ⟨Hp, -, Hr⟩
    isplitl [Hr]; · iexact Hr
    iexact Hp
  hout c := by
    rw [Pipeline.ownSems0_none]
    refine (hout1 (R2 m) c).trans ?_
    unfold Pipeline.ΦA
    iintro ⟨Hr, Hp⟩
    isplitl [Hp]; · iexact Hp
    isplitr; · iempintro
    iexact Hr
  hexit c := by
    have hjoin := unscopedBufs_of_arrays1 (R2 m) c (R3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- Every weakly fair execution of the program terminates, nothing faulting, and every final memory holds every unscoped
    buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tₙ m)
    (hch := ⟨fun _ => .rfl, fun _ => .rfl, fun _ => .rfl, fun _ => .rfl, fun c => show iprop(StableHlo.held (c : Thread nD τ) (Pipeline.ucRefs τ sig) (W4 m c) ∗ Ride c)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.HandRun

end
-- ==== Proof.MainFrameBits.lean ====
/-
  The frame of the whole program: no host operation writes an argument array, the first region reads four of them through
  input windows (and leaves them as they were) and bypasses the other two, the second region touches none; so every
  argument's buffer holds at the end what it held at launch.
-/
import proofs.«172921_j68745246539824_1_alg».proof.Proof.MainRunBits

set_option maxRecDepth 16384

noncomputable section

namespace Cert.Kernel.HandRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Hand0 Cert.Kernel.Hand1

variable (m : (ℓ : Loc nD τ sig) → Buf (Elt F) ℓ) (ρ : Dev nD → PrngReg)

/-- A buffer that neither host stretch writes, that is not the second region's result, and that the first region leaves
    as it found it, ends as launched. -/
theorem W4_keeps (c : Dev nD) (r : Ref sig .tc) (h2 : r ∉ hostOps2_W) (h3 : r ≠ main_v3)
    (hw : W2 m c (Proc.devRef .tc r) = W1 m c (Proc.devRef .tc r)) (h0 : r ∉ hostOps0_W) :
    W4 m c (Proc.devRef .tc r) = m ((c : Thread nD τ).loc r) :=
  (StableHlo.after_of_writes_sub hostOps2 _ hostOps2_writes h2).trans <| (W3_of_ne m c r h3).trans <| hw.trans <|
    (StableHlo.after_of_writes_sub hostOps0 _ hostOps0_writes h0).trans rfl

theorem W4_main_arg0 (c : Dev nD) : W4 m c (Proc.devRef .tc main_arg0) = m ((c : Thread nD τ).loc main_arg0) :=
  W4_keeps m c main_arg0 (by decide) (by decide) ((W2_arr m c 0).trans (((dat0 (R1 m) c).arrAt_in 0 rfl _).trans (A_eq0 (R1 m) c 0))) (by decide)
theorem W4_main_arg1 (c : Dev nD) : W4 m c (Proc.devRef .tc main_arg1) = m ((c : Thread nD τ).loc main_arg1) :=
  W4_keeps m c main_arg1 (by decide) (by decide) ((W2_arr m c 1).trans (((dat0 (R1 m) c).arrAt_in 1 rfl _).trans (A_eq0 (R1 m) c 1))) (by decide)
theorem W4_main_arg2 (c : Dev nD) : W4 m c (Proc.devRef .tc main_arg2) = m ((c : Thread nD τ).loc main_arg2) :=
  W4_keeps m c main_arg2 (by decide) (by decide) ((W2_arr m c 2).trans (((dat0 (R1 m) c).arrAt_in 2 rfl _).trans (A_eq0 (R1 m) c 2))) (by decide)
theorem W4_main_arg3 (c : Dev nD) : W4 m c (Proc.devRef .tc main_arg3) = m ((c : Thread nD τ).loc main_arg3) :=
  W4_keeps m c main_arg3 (by decide) (by decide) (W2_of_ne m c main_arg3 (by decide)) (by decide)
theorem W4_main_arg4 (c : Dev nD) : W4 m c (Proc.devRef .tc main_arg4) = m ((c : Thread nD τ).loc main_arg4) :=
  W4_keeps m c main_arg4 (by decide) (by decide) ((W2_arr m c 4).trans (((dat0 (R1 m) c).arrAt_in 4 rfl _).trans (A_eq0 (R1 m) c 4))) (by decide)
theorem W4_main_arg5 (c : Dev nD) : W4 m c (Proc.devRef .tc main_arg5) = m ((c : Thread nD τ).loc main_arg5) :=
  W4_keeps m c main_arg5 (by decide) (by decide) (W2_of_ne m c main_arg5 (by decide)) (by decide)

/-- The program runs to the end, faults nowhere, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.Kernel.HandRun

end
-- ==== Proof.Spec.lean ====
/-
  The mathematics both programs compute, over the extended reals: two linear layers, three Gaussian-kernel double sums
  over all pairs of rows, each divided by the number of pairs, combined as xx + tt − 2·xt.
-/
import Idealize.ShloMosaic.PureOps.Ideal
import Idealize.ShloMosaic.Lib.ValueIdx

noncomputable section

open scoped BigOperators

namespace Cert.Spec

open Idealize.ShloMosaic Idealize.ShloMosaic.ValueIdx

/-- The float literals that occur, kept as their words. -/
abbrev zero : EReal := Ideal.ofBits .f32 0x00000000#32
abbrev two : EReal := Ideal.ofBits .f32 0x40000000#32
abbrev npairs : EReal := Ideal.ofBits .f32 0x4C800000#32

/-- A linear layer at row `i`, output feature `k`: the row of `x` against row `k` of the weight, plus the bias. -/
def lin (x : (⟨2, ![8192, 128]⟩ : Shape).Idx → EReal) (W : (⟨2, ![128, 128]⟩ : Shape).Idx → EReal)
    (b : (⟨1, ![128]⟩ : Shape).Idx → EReal) (i : Fin 8192) (k : Fin 128) : EReal :=
  (∑ l : Fin 128, x (ix2 i l) * W (ix2 k l)) + b (ix1 k)

/-- The squared norm of row `i`. -/
def sqn (a : Fin 8192 → Fin 128 → EReal) (i : Fin 8192) : EReal := ∑ k : Fin 128, a i k * a i k

/-- The inner product of row `i` of `a` with row `j` of `b`. -/
def dotp (a b : Fin 8192 → Fin 128 → EReal) (i j : Fin 8192) : EReal := ∑ k : Fin 128, a i k * b j k

/-- The clamped squared distance `max (|a_i|² + |b_j|² − 2 a_i·b_j) 0`. -/
def dist2 (a b : Fin 8192 → Fin 128 → EReal) (i j : Fin 8192) : EReal :=
  max ((sqn a i + sqn b j) - two * dotp a b i j) zero

/-- The Gaussian kernel of the pair, `exp (−d² / 2)`. -/
def gk (a b : Fin 8192 → Fin 128 → EReal) (i j : Fin 8192) : EReal :=
  Ideal.exp (Ideal.div (-(dist2 a b i j)) two)

/-- The kernel summed over all pairs of rows. -/
def pairSum (a b : Fin 8192 → Fin 128 → EReal) : EReal := ∑ i : Fin 8192, ∑ j : Fin 8192, gk a b i j

/-- The result: the three means combined. -/
def mmd (x_text x_time : (⟨2, ![8192, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : EReal :=
  (Ideal.div (pairSum (lin x_text W1 b1) (lin x_text W1 b1)) npairs
      + Ideal.div (pairSum (lin x_time W2 b2) (lin x_time W2 b2)) npairs)
    - two * Ideal.div (pairSum (lin x_text W1 b1) (lin x_time W2 b2)) npairs

end Cert.Spec

end
-- ==== Proof.RefValueA.lean ====
/-
  The reference, read entry by entry: its two linear layers are `Cert.Spec.lin` of the argument arrays, and each entry
  of its three 8192 × 8192 arrays of Gaussian weights is `Cert.Spec.gk` of the two feature arrays at that pair of rows.
-/
import proofs.«172921_j68745246539824_1_alg».proof.Proof.Gen.ReferenceIdeal.Read
import proofs.«172921_j68745246539824_1_alg».proof.Proof.Spec

noncomputable section

open scoped BigOperators

namespace Cert.RefSide

open Cert.ReferenceIdeal Cert.ReferenceIdeal.Gen Cert.ReferenceIdeal.Read Idealize.ShloMosaic Idealize.ShloMosaic.ValueIdx

/-- The features of an array of rows, coordinate by coordinate. -/
abbrev rows (A : S8192x128.Idx → EReal) : Fin 8192 → Fin 128 → EReal := fun i k => A (ix2 i k)

/-! ## The two linear layers -/

/-- Row `i`, feature `k` of the first layer: the row of `x_text` against row `k` of `W1` (the reference contracts
    with the transposed weight), plus the bias broadcast along the rows. -/
theorem lin_text (x0 : S8192x128.Idx → EReal) (x2 : S128x128.Idx → EReal) (x3 : S128.Idx → EReal) (i : Fin 8192) (k : Fin 128) :
    val_main_v4 (F := Ideal) x0 x2 x3 (ix2 i k) = Cert.Spec.lin x0 x2 x3 i k := by
  have el : ∀ l : Fin 128, lidx_main_v1 (ix2 i k) l = ix2 i l := fun l =>
    funext fun a => Fin.ext (by match a with | ⟨0, _⟩ => rfl | ⟨1, _⟩ => rfl)
  have er : ∀ l : Fin 128, idx_main_v0 (ridx_main_v1 (ix2 i k) l) = ix2 k l := fun l =>
    funext fun a => Fin.ext (by match a with | ⟨0, _⟩ => rfl | ⟨1, _⟩ => rfl)
  have eb : idx_main_v2 (idx_main_v3 (ix2 i k)) = ix1 k :=
    funext fun a => Fin.ext (by match a with | ⟨0, _⟩ => rfl)
  rw [val_main_v4_apply, val_main_v1_apply, val_main_v3_apply, val_main_v2_apply, eb]
  simp only [val_main_v0_apply, el, er, Ideal.addf_def]
  rfl

/-- The second layer likewise, of `x_time`, `W2` and `b2`. -/
theorem lin_time (x1 : S8192x128.Idx → EReal) (x4 : S128x128.Idx → EReal) (x5 : S128.Idx → EReal) (i : Fin 8192) (k : Fin 128) :
    val_main_v9 (F := Ideal) x1 x4 x5 (ix2 i k) = Cert.Spec.lin x1 x4 x5 i k := by
  have el : ∀ l : Fin 128, lidx_main_v6 (ix2 i k) l = ix2 i l := fun l =>
    funext fun a => Fin.ext (by match a with | ⟨0, _⟩ => rfl | ⟨1, _⟩ => rfl)
  have er : ∀ l : Fin 128, idx_main_v5 (ridx_main_v6 (ix2 i k) l) = ix2 k l := fun l =>
    funext fun a => Fin.ext (by match a with | ⟨0, _⟩ => rfl | ⟨1, _⟩ => rfl)
  have eb : idx_main_v7 (idx_main_v8 (ix2 i k)) = ix1 k :=
    funext fun a => Fin.ext (by match a with | ⟨0, _⟩ => rfl)
  rw [val_main_v9_apply, val_main_v6_apply, val_main_v8_apply, val_main_v7_apply, eb]
  simp only [val_main_v5_apply, el, er, Ideal.addf_def]
  rfl

theorem rows_text (x0 : S8192x128.Idx → EReal) (x2 : S128x128.Idx → EReal) (x3 : S128.Idx → EReal) :
    rows (val_main_v4 (F := Ideal) x0 x2 x3) = Cert.Spec.lin x0 x2 x3 :=
  funext fun i => funext fun k => lin_text x0 x2 x3 i k

theorem rows_time (x1 : S8192x128.Idx → EReal) (x4 : S128x128.Idx → EReal) (x5 : S128.Idx → EReal) :
    rows (val_main_v9 (F := Ideal) x1 x4 x5) = Cert.Spec.lin x1 x4 x5 :=
  funext fun i => funext fun k => lin_time x1 x4 x5 i k

/-! ## One entry of a Gaussian array -/

/-- What every one of the three blocks computes at the pair of rows `(a, b)`, from the two feature arrays: the squared
    norms are sums started at the literal zero, which adds nothing. -/
theorem gk_read (A B : S8192x128.Idx → EReal) (a b : Fin 8192) :
    Ideal.exp (Ideal.div (-(max (((Cert.Spec.zero + ∑ k : Fin 128, A (ix2 a k) * A (ix2 a k))
        + (Cert.Spec.zero + ∑ k : Fin 128, B (ix2 b k) * B (ix2 b k)))
        - Cert.Spec.two * ∑ k : Fin 128, A (ix2 a k) * B (ix2 b k)) Cert.Spec.zero)) Cert.Spec.two)
      = Cert.Spec.gk (rows A) (rows B) a b := by
  unfold Cert.Spec.gk Cert.Spec.dist2 Cert.Spec.sqn Cert.Spec.dotp
  rw [show (Cert.Spec.zero + ∑ k : Fin 128, A (ix2 a k) * A (ix2 a k)) = ∑ k : Fin 128, A (ix2 a k) * A (ix2 a k) by
        rw [Cert.Spec.zero, Ideal.ofBits_zero_f32, zero_add],
      show (Cert.Spec.zero + ∑ k : Fin 128, B (ix2 b k) * B (ix2 b k)) = ∑ k : Fin 128, B (ix2 b k) * B (ix2 b k) by
        rw [Cert.Spec.zero, Ideal.ofBits_zero_f32, zero_add]]

end Cert.RefSide

end
-- ==== Proof.RefValueB.lean ====
/-
  The first of the reference's three blocks (text against text): the entry at the pair of rows `(a, b)` of its array of
  Gaussian weights, and the block's result, the sum over all pairs divided by the number of pairs.
-/
import proofs.«172921_j68745246539824_1_alg».proof.Proof.RefValueA

noncomputable section

open scoped BigOperators

namespace Cert.RefSide

open Cert.ReferenceIdeal Cert.ReferenceIdeal.Gen Cert.ReferenceIdeal.Read Idealize.ShloMosaic Idealize.ShloMosaic.ValueIdx

/-- Entry `(a, b)` of the text-text block: the column of squared norms broadcast along the rows plus the row of squared
    norms broadcast along the columns, minus twice the product with the transpose, clamped at zero, negated, halved,
    exponentiated. Every operand is read back to the first layer's array at rows `a` and `b`. -/
theorem xx_entry (x0 : S8192x128.Idx → EReal) (x2 : S128x128.Idx → EReal) (x3 : S128.Idx → EReal) (a b : Fin 8192) :
    val_main_v29 (F := Ideal) x0 x2 x3 (ix2 a b)
      = Cert.Spec.gk (Cert.Spec.lin x0 x2 x3) (Cert.Spec.lin x0 x2 x3) a b := by
  have e1 : ∀ k : Fin 128, idx_main_v11 (idx_main_v14 (idx_main_v16 (ix2 a b))) k = ix2 a k := fun k =>
    funext fun d => Fin.ext (by match d with | ⟨0, _⟩ => rfl | ⟨1, _⟩ => rfl)
  have e2 : ∀ k : Fin 128, idx_main_v13 (idx_main_v15 (idx_main_v17 (ix2 a b))) k = ix2 b k := fun k =>
    funext fun d => Fin.ext (by match d with | ⟨0, _⟩ => rfl | ⟨1, _⟩ => rfl)
  have e3 : ∀ k : Fin 128, lidx_main_v20 (ix2 a b) k = ix2 a k := fun k =>
    funext fun d => Fin.ext (by match d with | ⟨0, _⟩ => rfl | ⟨1, _⟩ => rfl)
  have e4 : ∀ k : Fin 128, idx_main_v19 (ridx_main_v20 (ix2 a b) k) = ix2 b k := fun k =>
    funext fun d => Fin.ext (by match d with | ⟨0, _⟩ => rfl | ⟨1, _⟩ => rfl)
  rw [← rows_text, val_main_v29_apply, val_main_v28_apply, val_main_v26_apply, val_main_v25_apply, val_main_v23_apply,
    val_main_v18_apply, val_main_v16_apply, val_main_v14_apply, val_main_v11_apply, val_main_v17_apply, val_main_v15_apply,
    val_main_v13_apply, val_main_v22_apply, val_main_v21_apply, val_main_v20_apply, val_main_v24_apply, val_main_v27_apply,
    val_main_cst_apply, val_main_cst_0_apply, val_main_cst_1_apply, val_main_cst_2_apply, val_main_cst_3_apply]
  simp only [val_main_v10_apply, val_main_v12_apply, val_main_v19_apply, e1, e2, e3, e4, Ideal.ofBits_def, Ideal.addf_def,
    Ideal.subf_def, Ideal.mulf_def, Ideal.maximumf_def, Ideal.hostNegf_def, Ideal.negf_def, Ideal.hostDivf_def,
    Ideal.hostUnary_exp_def]
  exact gk_read _ _ a b

/-- The text-text block's result: the sum over all pairs of rows, started at the literal zero, over the number of pairs. -/
theorem xx_mean (x0 : S8192x128.Idx → EReal) (x2 : S128x128.Idx → EReal) (x3 : S128.Idx → EReal) (i : S_.Idx) :
    val_main_v31 (F := Ideal) x0 x2 x3 i
      = Ideal.div (Cert.Spec.pairSum (Cert.Spec.lin x0 x2 x3) (Cert.Spec.lin x0 x2 x3)) Cert.Spec.npairs := by
  rw [val_main_v31_apply, val_main_v30_apply, val_main_cst_4_apply, val_main_cst_5_apply, sum_idx2]
  simp only [xx_entry, Ideal.ofBits_def, Ideal.hostDivf_def]
  rw [Ideal.ofBits_zero_f32, zero_add]
  rfl

end Cert.RefSide

end
-- ==== Proof.RefValueC.lean ====
/-
  The second of the reference's three blocks (time against time): the entry at the pair of rows `(a, b)` of its array of
  Gaussian weights, and the block's result, the sum over all pairs divided by the number of pairs.
-/
import proofs.«172921_j68745246539824_1_alg».proof.Proof.RefValueA

noncomputable section

open scoped BigOperators

namespace Cert.RefSide

open Cert.ReferenceIdeal Cert.ReferenceIdeal.Gen Cert.ReferenceIdeal.Read Idealize.ShloMosaic Idealize.ShloMosaic.ValueIdx

/-- Entry `(a, b)` of the time-time block: squared norms of rows `a` and `b` of the second layer's array, minus twice
    their inner product, clamped at zero, negated, halved, exponentiated. -/
theorem tt_entry (x1 : S8192x128.Idx → EReal) (x4 : S128x128.Idx → EReal) (x5 : S128.Idx → EReal) (a b : Fin 8192) :
    val_main_v51 (F := Ideal) x1 x4 x5 (ix2 a b)
      = Cert.Spec.gk (Cert.Spec.lin x1 x4 x5) (Cert.Spec.lin x1 x4 x5) a b := by
  have e1 : ∀ k : Fin 128, idx_main_v33 (idx_main_v36 (idx_main_v38 (ix2 a b))) k = ix2 a k := fun k =>
    funext fun d => Fin.ext (by match d with | ⟨0, _⟩ => rfl | ⟨1, _⟩ => rfl)
  have e2 : ∀ k : Fin 128, idx_main_v35 (idx_main_v37 (idx_main_v39 (ix2 a b))) k = ix2 b k := fun k =>
    funext fun d => Fin.ext (by match d with | ⟨0, _⟩ => rfl | ⟨1, _⟩ => rfl)
  have e3 : ∀ k : Fin 128, lidx_main_v42 (ix2 a b) k = ix2 a k := fun k =>
    funext fun d => Fin.ext (by match d with | ⟨0, _⟩ => rfl | ⟨1, _⟩ => rfl)
  have e4 : ∀ k : Fin 128, idx_main_v41 (ridx_main_v42 (ix2 a b) k) = ix2 b k := fun k =>
    funext fun d => Fin.ext (by match d with | ⟨0, _⟩ => rfl | ⟨1, _⟩ => rfl)
  rw [← rows_time x1 x4 x5, val_main_v51_apply, val_main_v50_apply, val_main_v48_apply, val_main_v47_apply, val_main_v45_apply,
    val_main_v40_apply, val_main_v38_apply, val_main_v36_apply, val_main_v33_apply, val_main_v39_apply, val_main_v37_apply,
    val_main_v35_apply, val_main_v44_apply, val_main_v43_apply, val_main_v42_apply, val_main_v46_apply, val_main_v49_apply,
    val_main_cst_6_apply, val_main_cst_7_apply, val_main_cst_8_apply, val_main_cst_9_apply, val_main_cst_10_apply]
  simp only [val_main_v32_apply, val_main_v34_apply, val_main_v41_apply, e1, e2, e3, e4, Ideal.ofBits_def, Ideal.addf_def,
    Ideal.subf_def, Ideal.mulf_def, Ideal.maximumf_def, Ideal.hostNegf_def, Ideal.negf_def, Ideal.hostDivf_def,
    Ideal.hostUnary_exp_def]
  exact gk_read _ _ a b

/-- The time-time block's result: the sum over all pairs of rows, started at the literal zero, over the number of pairs. -/
theorem tt_mean (x1 : S8192x128.Idx → EReal) (x4 : S128x128.Idx → EReal) (x5 : S128.Idx → EReal) (i : S_.Idx) :
    val_main_v53 (F := Ideal) x1 x4 x5 i
      = Ideal.div (Cert.Spec.pairSum (Cert.Spec.lin x1 x4 x5) (Cert.Spec.lin x1 x4 x5)) Cert.Spec.npairs := by
  rw [val_main_v53_apply, val_main_v52_apply, val_main_cst_11_apply, val_main_cst_12_apply, sum_idx2]
  simp only [tt_entry, Ideal.ofBits_def, Ideal.hostDivf_def]
  rw [Ideal.ofBits_zero_f32, zero_add]
  rfl

end Cert.RefSide

end
-- ==== Proof.RefValueD.lean ====
/-
  The third of the reference's three blocks (text against time): the entry at the pair of rows `(a, b)` of its array of
  Gaussian weights, and the block's result, the sum over all pairs divided by the number of pairs.
-/
import proofs.«172921_j68745246539824_1_alg».proof.Proof.RefValueA

noncomputable section

open scoped BigOperators

namespace Cert.RefSide

open Cert.ReferenceIdeal Cert.ReferenceIdeal.Gen Cert.ReferenceIdeal.Read Idealize.ShloMosaic Idealize.ShloMosaic.ValueIdx

/-- Entry `(a, b)` of the text-time block: the squared norm of row `a` of the first layer's array plus that of row `b`
    of the second layer's, minus twice their inner product, clamped at zero, negated, halved, exponentiated. -/
theorem xt_entry (x0 x1 : S8192x128.Idx → EReal) (x2 : S128x128.Idx → EReal) (x3 : S128.Idx → EReal)
    (x4 : S128x128.Idx → EReal) (x5 : S128.Idx → EReal) (a b : Fin 8192) :
    val_main_v74 (F := Ideal) x0 x1 x2 x3 x4 x5 (ix2 a b)
      = Cert.Spec.gk (Cert.Spec.lin x0 x2 x3) (Cert.Spec.lin x1 x4 x5) a b := by
  have e1 : ∀ k : Fin 128, idx_main_v56 (idx_main_v59 (idx_main_v61 (ix2 a b))) k = ix2 a k := fun k =>
    funext fun d => Fin.ext (by match d with | ⟨0, _⟩ => rfl | ⟨1, _⟩ => rfl)
  have e2 : ∀ k : Fin 128, idx_main_v58 (idx_main_v60 (idx_main_v62 (ix2 a b))) k = ix2 b k := fun k =>
    funext fun d => Fin.ext (by match d with | ⟨0, _⟩ => rfl | ⟨1, _⟩ => rfl)
  have e3 : ∀ k : Fin 128, lidx_main_v65 (ix2 a b) k = ix2 a k := fun k =>
    funext fun d => Fin.ext (by match d with | ⟨0, _⟩ => rfl | ⟨1, _⟩ => rfl)
  have e4 : ∀ k : Fin 128, idx_main_v64 (ridx_main_v65 (ix2 a b) k) = ix2 b k := fun k =>
    funext fun d => Fin.ext (by match d with | ⟨0, _⟩ => rfl | ⟨1, _⟩ => rfl)
  rw [← rows_text x0 x2 x3, ← rows_time x1 x4 x5, val_main_v74_apply, val_main_v73_apply, val_main_v71_apply, val_main_v70_apply,
    val_main_v68_apply, val_main_v63_apply, val_main_v61_apply, val_main_v59_apply, val_main_v56_apply, val_main_v62_apply,
    val_main_v60_apply, val_main_v58_apply, val_main_v67_apply, val_main_v66_apply, val_main_v65_apply, val_main_v69_apply,
    val_main_v72_apply, val_main_cst_13_apply, val_main_cst_14_apply, val_main_cst_15_apply, val_main_cst_16_apply,
    val_main_cst_17_apply]
  simp only [val_main_v55_apply, val_main_v57_apply, val_main_v64_apply, e1, e2, e3, e4, Ideal.ofBits_def, Ideal.addf_def,
    Ideal.subf_def, Ideal.mulf_def, Ideal.maximumf_def, Ideal.hostNegf_def, Ideal.negf_def, Ideal.hostDivf_def,
    Ideal.hostUnary_exp_def]
  exact gk_read _ _ a b

/-- The text-time block's result: the sum over all pairs of rows, started at the literal zero, over the number of pairs. -/
theorem xt_mean (x0 x1 : S8192x128.Idx → EReal) (x2 : S128x128.Idx → EReal) (x3 : S128.Idx → EReal)
    (x4 : S128x128.Idx → EReal) (x5 : S128.Idx → EReal) (i : S_.Idx) :
    val_main_v76 (F := Ideal) x0 x1 x2 x3 x4 x5 i
      = Ideal.div (Cert.Spec.pairSum (Cert.Spec.lin x0 x2 x3) (Cert.Spec.lin x1 x4 x5)) Cert.Spec.npairs := by
  rw [val_main_v76_apply, val_main_v75_apply, val_main_cst_18_apply, val_main_cst_19_apply, sum_idx2]
  simp only [xt_entry, Ideal.ofBits_def, Ideal.hostDivf_def]
  rw [Ideal.ofBits_zero_f32, zero_add]
  rfl

end Cert.RefSide

end
-- ==== Proof.RefValue.lean ====
/-
  The reference computes `Cert.Spec.mmd` of its six argument arrays: its result is the text-text mean plus the time-time
  mean minus twice the text-time mean, each mean read block by block.
-/
import proofs.«172921_j68745246539824_1_alg».proof.Defs
import proofs.«172921_j68745246539824_1_alg».proof.Proof.Gen.ReferenceIdeal.Run
import proofs.«172921_j68745246539824_1_alg».proof.Proof.Gen.ReferenceIdeal.Read
import proofs.«172921_j68745246539824_1_alg».proof.Proof.Spec
import proofs.«172921_j68745246539824_1_alg».proof.Proof.RefValueB
import proofs.«172921_j68745246539824_1_alg».proof.Proof.RefValueC
import proofs.«172921_j68745246539824_1_alg».proof.Proof.RefValueD

noncomputable section

open scoped BigOperators

namespace Cert.RefSide

open Cert.ReferenceIdeal Cert.ReferenceIdeal.Gen Cert.ReferenceIdeal.Read Idealize.ShloMosaic Idealize.ShloMosaic.TcCoe
  Idealize.SL.Sem Idealize.ShloMosaic.ValueIdx

/-- The reference's last stage, as a function of the six argument arrays, is the specification at every (the one) index:
    the sum of the first two means minus the literal two times the third. -/
theorem val_is_mmd (x0 x1 : S8192x128.Idx → EReal) (x2 : S128x128.Idx → EReal) (x3 : S128.Idx → EReal)
    (x4 : S128x128.Idx → EReal) (x5 : S128.Idx → EReal) :
    val_main_v78 (F := Ideal) x0 x1 x2 x3 x4 x5 = fun _ => Cert.Spec.mmd x0 x1 x2 x3 x4 x5 := by
  funext i
  rw [val_main_v78_apply, val_main_v54_apply, val_main_v77_apply, val_main_cst_20_apply, xx_mean, tt_mean, xt_mean]
  rfl

/-- The reference's run ends with its result buffer holding the specification of the six argument buffers. -/
theorem res_is_mmd (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v78 (F := Ideal) m c
      = fun _ => Cert.Spec.mmd
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) :=
  (val_main_v78_eq (F := Ideal) m c).trans (val_is_mmd _ _ _ _ _ _)

end Cert.RefSide

end
-- ==== Proof.Region1Pieces.lean ====
/-
  The second region's body, case by case, as ONE value: whatever the case (first, middle or last column tile of a row
  of tiles), the accumulator ends at the same function `body` of the point's four tiles and of what the accumulator
  held before — the zero vector at the first column tile, where it is reset first —, and at the last column tile the
  output block receives that same value. Each statement reads back the stores the case's run made: one store covers
  the whole accumulator (two at the first column tile, the later one deciding), and every load reads a whole buffer.
-/
import proofs.«172921_j68745246539824_1_alg».proof.Proof.Region1
import Idealize.ShloMosaic.Lib.Pipeline.Value
import Idealize.ShloMosaic.Lib.Tactic

set_option maxRecDepth 16384

noncomputable section

namespace Cert.KernelIdeal.Hand1V

open Cert.KernelIdeal Cert.KernelIdeal.Gen Cert.KernelIdeal.Hand1
open Idealize.ShloMosaic Idealize.ShloMosaic.TcCoe Idealize.ShloMosaic.Tactic
open Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What one grid point makes of the accumulator `s`: the three tile sums of its four tiles added on lanes 0, 1, 2. -/
def body (x0 x1 x2 x3 : Vec F S512x128 .f32) (s : Vec F S1x1x128 .f32) : Vec F S1x1x128 .f32 :=
  Gen.k1_pay1 (Gen.k1_pay17 (Gen.k1_pay12 x0 x2) (Gen.k1_pay15 x0 x2) Gen.k1_pay16)
    (Gen.k1_pay18 (Gen.k1_pay8 x1) (Gen.k1_pay9 x3) (Gen.k1_pay13 x1 x3))
    (Gen.k1_pay19 (Gen.k1_pay7 x0) (Gen.k1_pay9 x3) (Gen.k1_pay14 x0 x3)) s

/-! ## What each case of the body leaves, as one value -/

/-- At a middle column tile the accumulator ends at `body` of the four tiles and what it held. -/
theorem sout1_B_0_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : ¬cond1_1 i)
    (x0 x1 x2 x3 : Vec F S512x128 .f32) (xs0 : Vec F S1x1x128 .f32) :
    sout1_B_0 c i arg2 harg2 arg3 harg3 arg4 harg4 arg5 harg5 arg6 harg6 arg7 harg7 hc0 hc1 x0 x1 x2 x3 xs0 = body x0 x1 x2 x3 xs0 := by
  unfold sout1_B_0
  rw [View.read_writes_eq_canon _ _ _ (scover1_B_0 c i arg2 harg2 arg3 harg3 arg4 harg4 arg5 harg5 arg6 harg6 arg7 harg7 hc0 hc1 x0 x1 x2 x3 xs0)]
  unfold kernelRun1_B
  dsimp only
  sl_unfold_words
  rw [View.canon_unit_zero hz3]
  simp only [View.readAt_eq_ld, harg2.read_unread, harg3.read_unread, harg4.read_unread, harg5.read_unread, harg7.read_unread,
    View.ld_unit_zero (S := S512x128) hz2, View.ld_unit_zero (S := S1x1x128) hz3]
  rfl

/-- At the first column tile the accumulator is reset first: it ends at `body` of the four tiles and the zero vector. -/
theorem sout1_A_0_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : cond1_0 i) (hc1 : ¬cond1_1 i)
    (x0 x1 x2 x3 : Vec F S512x128 .f32) :
    sout1_A_0 c i arg2 harg2 arg3 harg3 arg4 harg4 arg5 harg5 arg6 harg6 arg7 harg7 hc0 hc1 x0 x1 x2 x3 = body x0 x1 x2 x3 Gen.k1_pay2 := by
  unfold sout1_A_0
  rw [View.read_writes_eq_canon _ _ _ (scover1_A_0 c i arg2 harg2 arg3 harg3 arg4 harg4 arg5 harg5 arg6 harg6 arg7 harg7 hc0 hc1 x0 x1 x2 x3)]
  unfold kernelRun1_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread, harg7.read_unread,
    View.ld_unit_zero (S := S512x128) hz2, View.ld_unit_zero (S := S1x1x128) hz3]
  rfl

/-- At the last column tile the accumulator ends at `body` of the four tiles and what it held … -/
theorem sout1_C_0_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) :
    sout1_C_0 c i arg2 harg2 arg3 harg3 arg4 harg4 arg5 harg5 arg6 harg6 arg7 harg7 hc0 hc1 x0 x1 x2 x3 xs0 = body x0 x1 x2 x3 xs0 := by
  unfold sout1_C_0
  rw [View.read_writes_eq_canon _ _ _ (scover1_C_0 c i arg2 harg2 arg3 harg3 arg4 harg4 arg5 harg5 arg6 harg6 arg7 harg7 hc0 hc1 x0 x1 x2 x3 xs0)]
  unfold kernelRun1_C
  dsimp only
  sl_unfold_words
  rw [View.canon_unit_zero hz3]
  simp only [View.readAt_eq_ld, harg2.read_unread, harg3.read_unread, harg4.read_unread, harg5.read_unread, harg7.read_unread,
    View.ld_unit_zero (S := S512x128) hz2, View.ld_unit_zero (S := S1x1x128) hz3]
  rfl

/-- … and the output block receives the accumulator's new contents. -/
theorem out1_C_4_eq (c : Dev nD) (i : grid1.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1x128 .f32) (harg6 : arg6.IsWhole) (arg7 : Memref sig .tc .vmem S1x1x128 .f32) (harg7 : arg7.IsWhole) (hc0 : ¬cond1_0 i) (hc1 : cond1_1 i)
    (x0 x1 x2 x3 : Vec F S512x128 .f32) (xs0 : Vec F S1x1x128 .f32) :
    out1_C_4 c i arg2 harg2 arg3 harg3 arg4 harg4 arg5 harg5 arg6 harg6 arg7 harg7 hc0 hc1 x0 x1 x2 x3 xs0 = body x0 x1 x2 x3 xs0 := by
  unfold out1_C_4
  rw [View.read_writes_eq_canon _ _ _ (cover1_C_4 c i arg2 harg2 arg3 harg3 arg4 harg4 arg5 harg5 arg6 harg6 arg7 harg7 hc0 hc1 x0 x1 x2 x3 xs0)]
  unfold kernelRun1_C
  dsimp only
  sl_unfold_words
  rw [View.canon_unit_zero hz3, View.readCov_unit_zero (S := S1x1x128) _ hz3]
  simp only [View.readAt_eq_ld, harg2.read_unread, harg3.read_unread, harg4.read_unread, harg5.read_unread, harg7.read_unread,
    View.ld_unit_zero (S := S512x128) hz2, View.ld_unit_zero (S := S1x1x128) hz3]
  rfl

end Cert.KernelIdeal.Hand1V

end
-- ==== Proof.LibKeepdims.lean ====
/-
  Column ("keepdims") layouts read at an index given by coordinates, and sums over axes read as sums over coordinates,
  at the extended reals: a vector `[a]` viewed as a column `[a, 1]`; a column repeated along the lanes, `[a, 1]` to
  `[a, b]`; the sum over the lanes of an `[a, b]` array as the sum over the second coordinate; the sum over every
  element of a `[1, n, 1]` array as the sum over its middle coordinate; and the one element of a `[1]` vector viewed
  as `[1, 1, 1]`. (A column transposed to a row, `[a, 1]` to `[1, a]`, and a row repeated over the rows, `[1, b]` to
  `[a, b]`, are the library's `transpose_ix2_apply` and `broadcastTo_1b_ab_apply`; `[a, 1]` viewed `[1, a, 1]` is its
  `shapeCast_ab_1ab_apply`.)
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Keepdims

open Idealize.ShloMosaic Idealize.ShloMosaic.ValueIdx

variable {α : Type}

/-- An `[a]` vector viewed as the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along the lanes to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one element of a `[1]` vector viewed as `[1, 1, 1]`. -/
theorem extractAt_shapeCast_1_111 (v : (⟨1, ![1]⟩ : Shape).Idx → α) (h : (⟨1, ![1]⟩ : Shape).ShapeCasts ⟨3, ![1, 1, 1]⟩)
    (hpos : ∀ a, (![0, 0, 0] : Fin 3 → Nat) a < (⟨3, ![1, 1, 1]⟩ : Shape).size a) :
    extractAt ![0, 0, 0] (shapeCast ⟨3, ![1, 1, 1]⟩ v h) hpos = v (ix1 (0 : Fin 1)) := by
  unfold extractAt
  exact shapeCast_apply v h _ _ (by rw [Shape.rowMajor_val_one, Shape.rowMajor_val_three]; rfl)

/-- The index set of a `[1, n, 1]` array is its middle coordinate's range … -/
def idxEquiv1n1 {n : ℕ} : (⟨3, ![1, n, 1]⟩ : Shape).Idx ≃ Fin n where
  toFun i := i 1
  invFun r := ix3 (0 : Fin 1) r (0 : Fin 1)
  left_inv i := by
    funext c
    match c with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over that coordinate. -/
theorem sum_idx_1n1 {M : Type*} [AddCommMonoid M] {n : ℕ} (f : (⟨3, ![1, n, 1]⟩ : Shape).Idx → M) :
    ∑ i, f i = ∑ r : Fin n, f (ix3 (0 : Fin 1) r (0 : Fin 1)) := by
  rw [← Equiv.sum_comp (idxEquiv1n1 (n := n)).symm f]
  rfl

/-- The sum over the lanes of an `[a, b]` array of extended reals, at row `r`: the sum over the second coordinate. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  show (∑ k : Fin b, src (h.lift (ix1 r) k)) = _
  refine Finset.sum_congr rfl fun k _ => congrArg src (funext fun c => Fin.ext ?_)
  match c with
  | ⟨0, _⟩ => rfl
  | ⟨1, _⟩ => rfl

/-- The sum over both trailing axes of a `[1, n, 1]` array of extended reals into `[1]`: the sum over the middle
    coordinate. -/
theorem sumAll_1n1_apply {n : ℕ} (src : FVec Ideal ⟨3, ![1, n, 1]⟩ .f32) (h : (⟨3, ![1, n, 1]⟩ : Shape).Reduces [1, 2] ⟨1, ![1]⟩)
    (hφ : FKind.Formats .f32) (hacc : (0x00000000#32 : BitVec 32) = FKind.add.neutral .f32 hφ) (j : (⟨1, ![1]⟩ : Shape).Idx) :
    multiReduction (F := Ideal) .add [1, 2] ⟨1, ![1]⟩ src 0x00000000#32 h hφ hacc j
      = ∑ r : Fin n, src (ix3 (0 : Fin 1) r (0 : Fin 1)) :=
  (Ideal.multiReduction_add_total src 0x00000000#32 h (fun b => by match b with | ⟨0, _⟩ => rfl) hφ hacc j).trans
    (sum_idx_1n1 src)

end Cert.Keepdims

end
-- ==== Proof.PayGaussA.lean ====
/-
  The building blocks of the second kernel body, read at one element of a 512 × 512 tile: the squared row norms of a
  512 × 128 tile (kept as a column, and transposed to a row), the sum `|a_r|² + |b_s|²` spread over the tile, the three
  matrices of inner products `a_r · b_s` (a tile times a transposed tile, accumulated from zero), and the reduction of a
  512 × 512 tile to one number: the sum over the lanes followed by the sum over the rows.
-/
import proofs.«172921_j68745246539824_1_alg».proof.Proof.Gen.KernelIdeal.Skeleton
import proofs.«172921_j68745246539824_1_alg».proof.Proof.Spec
import proofs.«172921_j68745246539824_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Keepdims Idealize.ShloMosaic Idealize.ShloMosaic.ValueIdx

/-- The left operand's index at output `j` and contraction index `c`: row `j 0` … -/
theorem dotGram_lhs0 (j : S512x512.Idx) (c : dot_S512x128_S128x512_S512x512_1_0_0_1_n_n.contr.Idx) : (dot_S512x128_S128x512_S512x512_1_0_0_1_n_n.lhsIdx j c 0).val = (j 0).val := by
  unfold DotDims.lhsIdx
  rw [dif_neg (show ¬(0 : Fin S512x128.rank) ∈ dot_S512x128_S128x512_S512x512_1_0_0_1_n_n.lhsBatch by decide), dif_pos (show (0 : Fin S512x128.rank) ∈ dot_S512x128_S128x512_S512x512_1_0_0_1_n_n.lhsNonContracting by decide)]
  rfl
/-- … column the contraction coordinate. -/
theorem dotGram_lhs1 (j : S512x512.Idx) (c : dot_S512x128_S128x512_S512x512_1_0_0_1_n_n.contr.Idx) : (dot_S512x128_S128x512_S512x512_1_0_0_1_n_n.lhsIdx j c 1).val = (c ⟨0, by decide⟩).val :=
  dot_S512x128_S128x512_S512x512_1_0_0_1_n_n.lhsIdx_val_of_single rfl j c
/-- The right operand's index: row the contraction coordinate … -/
theorem dotGram_rhs0 (j : S512x512.Idx) (c : dot_S512x128_S128x512_S512x512_1_0_0_1_n_n.contr.Idx) : (dot_S512x128_S128x512_S512x512_1_0_0_1_n_n.rhsIdx j c 0).val = (c ⟨0, by decide⟩).val :=
  dot_S512x128_S128x512_S512x512_1_0_0_1_n_n.rhsIdx_val_of_single rfl j c
/-- … column `j 1`. -/
theorem dotGram_rhs1 (j : S512x512.Idx) (c : dot_S512x128_S128x512_S512x512_1_0_0_1_n_n.contr.Idx) : (dot_S512x128_S128x512_S512x512_1_0_0_1_n_n.rhsIdx j c 1).val = (j 1).val := by
  unfold DotDims.rhsIdx
  rw [dif_neg (show ¬(1 : Fin S128x512.rank) ∈ dot_S512x128_S128x512_S512x512_1_0_0_1_n_n.rhsBatch by decide), dif_pos (show (1 : Fin S128x512.rank) ∈ dot_S512x128_S128x512_S512x512_1_0_0_1_n_n.rhsNonContracting by decide)]
  rfl

/-- A `512 × 128` block times a `128 × 512` one, accumulated into zero, at row `p`, column `q`: the sum over the
    contracted coordinate of the products. -/
theorem dotGram_apply {φ₁ φ₂ : FTy} (lhs : FVec Ideal S512x128 φ₁) (rhs : FVec Ideal S128x512 φ₂) (p : Fin 512) (q : Fin 512) :
    matmul dot_S512x128_S128x512_S512x512_1_0_0_1_n_n none lhs rhs (constant (F := Ideal) S512x512 .f32 0x00000000#32) (ix2 p q)
      = ∑ l : Fin 128, lhs (ix2 p l) * rhs (ix2 l q) := by
  simp only [matmul]
  rw [Ideal.matmul_constant_zero_apply, ← Equiv.sum_comp (contrEquiv1 dot_S512x128_S128x512_S512x512_1_0_0_1_n_n 128 rfl rfl).symm]
  refine Finset.sum_congr rfl fun k _ => ?_
  have hk := contrEquiv1_symm_val dot_S512x128_S128x512_S512x512_1_0_0_1_n_n 128 rfl rfl k
  have el : dot_S512x128_S128x512_S512x512_1_0_0_1_n_n.lhsIdx (ix2 p q) ((contrEquiv1 dot_S512x128_S128x512_S512x512_1_0_0_1_n_n 128 rfl rfl).symm k) = ix2 p k :=
    funext fun a => Fin.ext (by
      match a with
      | ⟨0, _⟩ => exact dotGram_lhs0 _ _
      | ⟨1, _⟩ => exact (dotGram_lhs1 _ _).trans hk)
  have er : dot_S512x128_S128x512_S512x512_1_0_0_1_n_n.rhsIdx (ix2 p q) ((contrEquiv1 dot_S512x128_S128x512_S512x512_1_0_0_1_n_n 128 rfl rfl).symm k) = ix2 k q :=
    funext fun a => Fin.ext (by
      match a with
      | ⟨0, _⟩ => exact (dotGram_rhs0 _ _).trans hk
      | ⟨1, _⟩ => exact dotGram_rhs1 _ _)
  rw [el, er]

/-! ## Squared row norms, as a column and as a row -/

/-- The column of squared row norms of the row tile of the first array: at row `r`, the sum of the squares along the row. -/
theorem sqnCol7_apply (v3 : Vec Ideal S512x128 .f32) (r : Fin 512) (u : Fin 1) :
    Gen.k1_pay7 (F := Ideal) v3 (ix2 r u) = ∑ k : Fin 128, v3 (ix2 r k) * v3 (ix2 r k) := by
  unfold Gen.k1_pay7 Gen.k1_pay3
  refine (shapeCast_a_a1_apply _ _ r u).trans ?_
  refine (laneSum_apply _ _ _ _ r).trans ?_
  refine Finset.sum_congr rfl fun k _ => ?_
  rw [mulf_apply, shapeCast_self]

/-- The same column for the row tile of the second array. -/
theorem sqnCol8_apply (v5 : Vec Ideal S512x128 .f32) (r : Fin 512) (u : Fin 1) :
    Gen.k1_pay8 (F := Ideal) v5 (ix2 r u) = ∑ k : Fin 128, v5 (ix2 r k) * v5 (ix2 r k) := by
  unfold Gen.k1_pay8 Gen.k1_pay4
  refine (shapeCast_a_a1_apply _ _ r u).trans ?_
  refine (laneSum_apply _ _ _ _ r).trans ?_
  refine Finset.sum_congr rfl fun k _ => ?_
  rw [mulf_apply, shapeCast_self]

/-- The row of squared row norms of the column tile of the second array: at lane `s`, the squared norm of its row `s`. -/
theorem sqnRow9_apply (v9 : Vec Ideal S512x128 .f32) (u : Fin 1) (s : Fin 512) :
    Gen.k1_pay9 (F := Ideal) v9 (ix2 u s) = ∑ k : Fin 128, v9 (ix2 s k) * v9 (ix2 s k) := by
  unfold Gen.k1_pay9 Gen.k1_pay6
  refine (transpose_ix2_apply _ _ u s).trans ?_
  refine (shapeCast_a_a1_apply _ _ s u).trans ?_
  refine (laneSum_apply _ _ _ _ s).trans ?_
  refine Finset.sum_congr rfl fun k _ => ?_
  rw [mulf_apply, shapeCast_self]

/-- The sum `|a_r|² + |b_s|²` of the first pair of tiles, at `(r, s)`. -/
theorem sqnSum15_apply (v3 v7 : Vec Ideal S512x128 .f32) (r s : Fin 512) :
    Gen.k1_pay15 (F := Ideal) v3 v7 (ix2 r s)
      = (∑ k : Fin 128, v3 (ix2 r k) * v3 (ix2 r k)) + (∑ k : Fin 128, v7 (ix2 s k) * v7 (ix2 s k)) := by
  unfold Gen.k1_pay15 Gen.k1_pay5
  refine (addf_apply _ _ _).trans (congrArg₂ (· + ·) ?_ ?_)
  · exact (broadcastTo_a1_ab_apply _ _ r s).trans (sqnCol7_apply v3 r 0)
  · refine (broadcastTo_1b_ab_apply _ _ r s).trans ?_
    refine (transpose_ix2_apply _ _ 0 s).trans ?_
    refine (shapeCast_a_a1_apply _ _ s 0).trans ?_
    refine (laneSum_apply _ _ _ _ s).trans ?_
    refine Finset.sum_congr rfl fun k _ => ?_
    rw [mulf_apply, shapeCast_self]

/-! ## The three matrices of inner products -/

/-- Row `r` of the first row tile against row `s` of the first column tile. -/
theorem gram12_apply (v3 v7 : Vec Ideal S512x128 .f32) (r s : Fin 512) :
    Gen.k1_pay12 (F := Ideal) v3 v7 (ix2 r s) = ∑ k : Fin 128, v3 (ix2 r k) * v7 (ix2 s k) := by
  unfold Gen.k1_pay12 Gen.k1_pay10 Gen.k1_pay5 Gen.k1_pay3
  refine (dotGram_apply _ _ r s).trans ?_
  refine Finset.sum_congr rfl fun k _ => ?_
  rw [transpose_ix2_apply, truncf_apply, truncf_apply, shapeCast_self, shapeCast_self]

/-- Row `r` of the second row tile against row `s` of the second column tile. -/
theorem gram13_apply (v5 v9 : Vec Ideal S512x128 .f32) (r s : Fin 512) :
    Gen.k1_pay13 (F := Ideal) v5 v9 (ix2 r s) = ∑ k : Fin 128, v5 (ix2 r k) * v9 (ix2 s k) := by
  unfold Gen.k1_pay13 Gen.k1_pay11 Gen.k1_pay6 Gen.k1_pay4
  refine (dotGram_apply _ _ r s).trans ?_
  refine Finset.sum_congr rfl fun k _ => ?_
  rw [transpose_ix2_apply, truncf_apply, truncf_apply, shapeCast_self, shapeCast_self]

/-- Row `r` of the first row tile against row `s` of the second column tile. -/
theorem gram14_apply (v3 v9 : Vec Ideal S512x128 .f32) (r s : Fin 512) :
    Gen.k1_pay14 (F := Ideal) v3 v9 (ix2 r s) = ∑ k : Fin 128, v3 (ix2 r k) * v9 (ix2 s k) := by
  unfold Gen.k1_pay14 Gen.k1_pay11 Gen.k1_pay10 Gen.k1_pay6 Gen.k1_pay3
  refine (dotGram_apply _ _ r s).trans ?_
  refine Finset.sum_congr rfl fun k _ => ?_
  rw [transpose_ix2_apply, truncf_apply, truncf_apply, shapeCast_self, shapeCast_self]

/-! ## A tile summed to one number -/

/-- The sum over the lanes, viewed as a column, viewed `[1, 512, 1]`, summed over its two trailing axes, viewed
    `[1, 1, 1]`, and its one element taken: the double sum over the tile. -/
theorem tileReduce_apply (w : FVec Ideal S512x512 .f32) :
    extractAt ![0, 0, 0]
        (shapeCast S1x1x1
          (multiReduction (F := Ideal) .add [1, 2] S1
            (shapeCast S1x512x1
              (shapeCast S512x1 (multiReduction (F := Ideal) .add [1] S512 w 0x00000000#32 reduces_S512x512_S512 (.inl rfl) rfl)
                shapeCasts_S512_S512x1)
              shapeCasts_S512x1_S1x512x1)
            0x00000000#32 reduces_S1x512x1_S1 (.inl rfl) rfl)
          shapeCasts_S1_S1x1x1)
        inpos_S1x1x1_p0_0_0
      = ∑ r : Fin 512, ∑ s : Fin 512, w (ix2 r s) := by
  refine (extractAt_shapeCast_1_111 _ _ _).trans ?_
  refine (sumAll_1n1_apply _ _ _ _ _).trans ?_
  refine Finset.sum_congr rfl fun r _ => ?_
  refine (shapeCast_ab_1ab_apply _ _ 0 r 0).trans ?_
  refine (shapeCast_a_a1_apply _ _ r 0).trans ?_
  exact laneSum_apply w _ _ _ r

end Cert.KernelIdeal.Pay

end
-- ==== Proof.PayGaussB.lean ====
/-
  The three tile sums of the second kernel body. Each is the sum, over the 512 × 512 pairs of a row of the row tile `a`
  and a row of the column tile `b`, of the Gaussian kernel `exp (−½ · max (|a_r|² + |b_s|² − 2 a_r·b_s, 0))`: for the
  two tiles of the first array, for the two tiles of the second, and for the row tile of the first against the column
  tile of the second. The first takes the sum of the squared norms ready-made; the other two spread a column and a row
  of squared norms over the tile themselves.
-/
import proofs.«172921_j68745246539824_1_alg».proof.Proof.Gen.KernelIdeal.Skeleton
import proofs.«172921_j68745246539824_1_alg».proof.Proof.Spec
import proofs.«172921_j68745246539824_1_alg».proof.Proof.LibKeepdims
import proofs.«172921_j68745246539824_1_alg».proof.Proof.PayGaussA
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Keepdims Idealize.ShloMosaic Idealize.ShloMosaic.ValueIdx

/-- The sum over a tile of the Gaussian kernel `exp (−½ · max (|a_r|² + |b_s|² − 2 a_r·b_s, 0))` of row `r` of the row
    tile `a` and row `s` of the column tile `b`. -/
def tileSum (a b : (⟨2, ![512, 128]⟩ : Shape).Idx → EReal) : EReal :=
  ∑ r : Fin 512, ∑ s : Fin 512,
    Ideal.exp (Ideal.ofBits .f32 0xBF000000#32
      * max (((∑ k : Fin 128, a (ix2 r k) * a (ix2 r k)) + (∑ k : Fin 128, b (ix2 s k) * b (ix2 s k)))
          - Cert.Spec.two * (∑ k : Fin 128, a (ix2 r k) * b (ix2 s k))) Cert.Spec.zero)

/-! ## The three tile sums over abstract norms and inner products -/

/-- The first tile sum, over an abstract matrix `v30` of inner products and an abstract matrix `v37` of summed norms. -/
theorem body17_eq (v30 v37 : FVec Ideal S512x512 .f32) :
    Gen.k1_pay17 (F := Ideal) v30 v37 Gen.k1_pay16
      = ∑ r : Fin 512, ∑ s : Fin 512,
          Ideal.exp (Ideal.ofBits .f32 0xBF000000#32 * max (v37 (ix2 r s) - Cert.Spec.two * v30 (ix2 r s)) Cert.Spec.zero) := by
  unfold Gen.k1_pay17 Gen.k1_pay16
  exact tileReduce_apply _

/-- The second tile sum, over an abstract column `v16` and row `v24` of squared norms and matrix `v32` of inner products. -/
theorem body18_eq (v16 : FVec Ideal S512x1 .f32) (v24 : FVec Ideal S1x512 .f32) (v32 : FVec Ideal S512x512 .f32) :
    Gen.k1_pay18 (F := Ideal) v16 v24 v32
      = ∑ r : Fin 512, ∑ s : Fin 512,
          Ideal.exp (Ideal.ofBits .f32 0xBF000000#32
            * max ((v16 (ix2 r (0 : Fin 1)) + v24 (ix2 (0 : Fin 1) s)) - Cert.Spec.two * v32 (ix2 r s)) Cert.Spec.zero) := by
  unfold Gen.k1_pay18
  refine (tileReduce_apply _).trans ?_
  refine Finset.sum_congr rfl fun r _ => Finset.sum_congr rfl fun s _ => ?_
  show Ideal.exp (Ideal.ofBits .f32 0xBF000000#32
      * max ((broadcastTo S512x512 v16 broadcasts_S512x1_S512x512 (ix2 r s) + broadcastTo S512x512 v24 broadcasts_S1x512_S512x512 (ix2 r s))
          - Cert.Spec.two * v32 (ix2 r s)) Cert.Spec.zero) = _
  rw [broadcastTo_a1_ab_apply, broadcastTo_1b_ab_apply]

/-- The third tile sum likewise; the body keeps it as a `[1, 1, 1]` vector, whose one element this is. -/
theorem body19_eq (v13 : FVec Ideal S512x1 .f32) (v24 : FVec Ideal S1x512 .f32) (v34 : FVec Ideal S512x512 .f32) :
    extractAt ![0, 0, 0] (Gen.k1_pay19 (F := Ideal) v13 v24 v34) inpos_S1x1x1_p0_0_0
      = ∑ r : Fin 512, ∑ s : Fin 512,
          Ideal.exp (Ideal.ofBits .f32 0xBF000000#32
            * max ((v13 (ix2 r (0 : Fin 1)) + v24 (ix2 (0 : Fin 1) s)) - Cert.Spec.two * v34 (ix2 r s)) Cert.Spec.zero) := by
  unfold Gen.k1_pay19
  refine (tileReduce_apply _).trans ?_
  refine Finset.sum_congr rfl fun r _ => Finset.sum_congr rfl fun s _ => ?_
  show Ideal.exp (Ideal.ofBits .f32 0xBF000000#32
      * max ((broadcastTo S512x512 v13 broadcasts_S512x1_S512x512 (ix2 r s) + broadcastTo S512x512 v24 broadcasts_S1x512_S512x512 (ix2 r s))
          - Cert.Spec.two * v34 (ix2 r s)) Cert.Spec.zero) = _
  rw [broadcastTo_a1_ab_apply, broadcastTo_1b_ab_apply]

/-! ## The three tile sums as the body composes them -/

/-- The first tile sum of the body: the Gaussian kernel summed over the row tile and the column tile of the first array. -/
theorem tile_xx (v3 v7 : Vec Ideal S512x128 .f32) :
    Gen.k1_pay17 (F := Ideal) (Gen.k1_pay12 v3 v7) (Gen.k1_pay15 v3 v7) Gen.k1_pay16 = tileSum v3 v7 := by
  rw [body17_eq]
  unfold tileSum
  refine Finset.sum_congr rfl fun r _ => Finset.sum_congr rfl fun s _ => ?_
  rw [gram12_apply, sqnSum15_apply]

/-- The second: over the row tile and the column tile of the second array. -/
theorem tile_tt (v5 v9 : Vec Ideal S512x128 .f32) :
    Gen.k1_pay18 (F := Ideal) (Gen.k1_pay8 v5) (Gen.k1_pay9 v9) (Gen.k1_pay13 v5 v9) = tileSum v5 v9 := by
  rw [body18_eq]
  unfold tileSum
  refine Finset.sum_congr rfl fun r _ => Finset.sum_congr rfl fun s _ => ?_
  rw [gram13_apply, sqnCol8_apply, sqnRow9_apply]

/-- The third: over the row tile of the first array and the column tile of the second. -/
theorem tile_xt (v3 v9 : Vec Ideal S512x128 .f32) :
    extractAt ![0, 0, 0] (Gen.k1_pay19 (F := Ideal) (Gen.k1_pay7 v3) (Gen.k1_pay9 v9) (Gen.k1_pay14 v3 v9)) inpos_S1x1x1_p0_0_0
      = tileSum v3 v9 := by
  rw [body19_eq]
  unfold tileSum
  refine Finset.sum_congr rfl fun r _ => Finset.sum_congr rfl fun s _ => ?_
  rw [gram14_apply, sqnCol7_apply, sqnRow9_apply]

end Cert.KernelIdeal.Pay

end
-- ==== Proof.PayGaussC.lean ====
/-
  The accumulator of the second kernel body, lane by lane: a grid point adds its first tile sum on lane 0, its second on
  lane 1, its third on lane 2, and zero on every other lane (each lane selected by comparing the lane number with 0, 1
  and 2); the reset accumulator is zero on every lane.
-/
import proofs.«172921_j68745246539824_1_alg».proof.Proof.Gen.KernelIdeal.Skeleton
import proofs.«172921_j68745246539824_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The accumulator's update and its reset -/

/-- A select on "lane `l` is lane `k`", both below 128, is the `if` on the lanes. -/
theorem select_lane_eq {α : Type} (l k : Nat) (hl : l < 128) (hk : k < 128) (A B : α) :
    Scalar.select (IntOp.cmpi .eq (BitVec.ofNat 32 l) (BitVec.ofNat 32 k)) A B = if l = k then A else B := by
  have hiff : BitVec.ofNat 32 l = BitVec.ofNat 32 k → l = k := by
    intro e
    have h := congrArg BitVec.toNat e
    rw [BitVec.toNat_ofNat, BitVec.toNat_ofNat, Nat.mod_eq_of_lt (by omega), Nat.mod_eq_of_lt (by omega)] at h
    exact h
  unfold Scalar.select IntOp.cmpi
  by_cases h : l = k
  · subst h; simp
  · have hb : (BitVec.ofNat 32 l == BitVec.ofNat 32 k) = false := beq_eq_false_iff_ne.mpr fun e => h (hiff e)
    rw [if_neg h]
    show (if BitVec.ofBool (BitVec.ofNat 32 l == BitVec.ofNat 32 k) = 1#1 then A else B) = B
    rw [hb, if_neg (by decide)]

/-- The accumulator after a grid point, at lane `l`: what it held plus the first tile sum on lane 0, the second on lane 1,
    the third on lane 2, and nothing on the other lanes. -/
theorem acc_apply (s0 s1 : EReal) (v84 : FVec Ideal S1x1x1 .f32) (v104 : Vec Ideal S1x1x128 .f32) (l : Fin 128) :
    Gen.k1_pay1 (F := Ideal) s0 s1 v84 v104 (ix3 (0 : Fin 1) (0 : Fin 1) l)
      = v104 (ix3 (0 : Fin 1) (0 : Fin 1) l)
        + (if l.val = 0 then s0 else if l.val = 1 then s1
            else if l.val = 2 then extractAt ![0, 0, 0] v84 inpos_S1x1x1_p0_0_0 else 0) := by
  unfold Gen.k1_pay1
  simp only [shapeCast_self]
  have hi : iota .tc S1x1x128 32 [2] iota_S1x1x128_d2_w32 (ix3 (0 : Fin 1) (0 : Fin 1) l) = BitVec.ofNat 32 l.val :=
    iota_single_apply .tc S1x1x128 32 2 iota_S1x1x128_d2_w32 _
  show v104 (ix3 (0 : Fin 1) (0 : Fin 1) l)
      + ((Scalar.select (IntOp.cmpi .eq (iota .tc S1x1x128 32 [2] iota_S1x1x128_d2_w32 (ix3 (0 : Fin 1) (0 : Fin 1) l)) (BitVec.ofNat 32 0)) s0 (Ideal.ofBits .f32 0x00000000#32)
          + Scalar.select (IntOp.cmpi .eq (iota .tc S1x1x128 32 [2] iota_S1x1x128_d2_w32 (ix3 (0 : Fin 1) (0 : Fin 1) l)) (BitVec.ofNat 32 1)) s1 (Ideal.ofBits .f32 0x00000000#32))
        + Scalar.select (IntOp.cmpi .eq (iota .tc S1x1x128 32 [2] iota_S1x1x128_d2_w32 (ix3 (0 : Fin 1) (0 : Fin 1) l)) (BitVec.ofNat 32 2))
            (extractAt ![0, 0, 0] v84 inpos_S1x1x1_p0_0_0) (Ideal.ofBits .f32 0x00000000#32)) = _
  rw [hi, select_lane_eq _ 0 l.isLt (by decide), select_lane_eq _ 1 l.isLt (by decide), select_lane_eq _ 2 l.isLt (by decide),
    Ideal.ofBits_zero_f32]
  congr 1
  by_cases h0 : l.val = 0
  · simp [h0]
  · by_cases h1 : l.val = 1
    · simp [h1]
    · by_cases h2 : l.val = 2
      · simp [h2]
      · simp [h0, h1, h2]

/-- The reset accumulator is zero on every lane. -/
theorem reset_apply (j : S1x1x128.Idx) : Gen.k1_pay2 (F := Ideal) j = 0 := by
  unfold Gen.k1_pay2
  simp only [shapeCast_self]
  exact Ideal.ofBits_zero_f32

end Cert.KernelIdeal.Pay

end
-- ==== Proof.Tiles.lean ====
/-
  Row tiles: the 8192 rows of a projected array cut into 16 tiles of 512 rows.
-/
import Idealize.ShloMosaic.PureOps.Ideal
import Idealize.ShloMosaic.Lib.ValueIdx

noncomputable section

namespace Cert.Tiles

open Idealize.ShloMosaic Idealize.ShloMosaic.ValueIdx

/-- Row `r` of tile `I` is row `512·I + r` of the array. -/
def row (I : Fin 16) (r : Fin 512) : Fin 8192 := ⟨512 * I.val + r.val, by omega⟩

/-- Tile `I` of an array of 8192 rows, as an array of 512 rows. -/
def tile (A : (⟨2, ![8192, 128]⟩ : Shape).Idx → EReal) (I : Fin 16) : (⟨2, ![512, 128]⟩ : Shape).Idx → EReal :=
  fun y => A (ix2 (row I ⟨(y 0).val, idx2_lt0 y⟩) ⟨(y 1).val, idx2_lt1 y⟩)

theorem tile_apply (A : (⟨2, ![8192, 128]⟩ : Shape).Idx → EReal) (I : Fin 16) (r : Fin 512) (k : Fin 128) :
    tile A I (ix2 r k) = A (ix2 (row I r) k) := rfl

/-- The rows of an array as a function of the row and the column. -/
abbrev rows (A : (⟨2, ![8192, 128]⟩ : Shape).Idx → EReal) : Fin 8192 → Fin 128 → EReal := fun i k => A (ix2 i k)

end Cert.Tiles

end
-- ==== Proof.Region1Value.lean ====
/-
  The second region's accumulator, read at the extended reals. At grid point t = 16·I + J the four input blocks are
  row tile I and column tile J of the two projected arrays; the body adds, on lanes 0, 1, 2 of the accumulator, the
  three Gaussian tile sums of those tiles, starting from zero at J = 0. So after point 16·I + J the accumulator holds
  on lanes 0, 1, 2 the partial sums over the column tiles 0 … J (by induction on J), and at J = 15, when it is copied
  to the output block, the sums over all sixteen column tiles.
-/
import proofs.«172921_j68745246539824_1_alg».proof.Proof.Region1Pieces
import proofs.«172921_j68745246539824_1_alg».proof.Proof.PayGaussB
import proofs.«172921_j68745246539824_1_alg».proof.Proof.PayGaussC
import proofs.«172921_j68745246539824_1_alg».proof.Proof.Tiles
import Idealize.ShloMosaic.Lib.Pipeline.Value
import Idealize.ShloMosaic.Lib.ValueIdx

set_option maxRecDepth 16384

noncomputable section

open scoped BigOperators

namespace Cert.KernelIdeal.Hand1V

open Cert.KernelIdeal Cert.KernelIdeal.Gen Cert.KernelIdeal.Hand1 Cert.KernelIdeal.Pay Cert.Tiles
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The block index maps, decided once over the grid -/

/-- At point `t = 16·I + J` the two row-tile windows are at block `(I, 0)` … -/
theorem idx1_0 : ∀ t : Fin cfg1.N, win1_0.index t (0 : Fin 2) = t.val / 16 ∧ win1_0.index t (1 : Fin 2) = 0 :=
  (by decide +kernel : ∀ t : Fin grid1.N, win1_0.index t (0 : Fin 2) = t.val / 16 ∧ win1_0.index t (1 : Fin 2) = 0)
theorem idx1_1 : ∀ t : Fin cfg1.N, win1_1.index t (0 : Fin 2) = t.val / 16 ∧ win1_1.index t (1 : Fin 2) = 0 :=
  (by decide +kernel : ∀ t : Fin grid1.N, win1_1.index t (0 : Fin 2) = t.val / 16 ∧ win1_1.index t (1 : Fin 2) = 0)
/-- … the two column-tile windows at block `(J, 0)` … -/
theorem idx1_2 : ∀ t : Fin cfg1.N, win1_2.index t (0 : Fin 2) = t.val % 16 ∧ win1_2.index t (1 : Fin 2) = 0 :=
  (by decide +kernel : ∀ t : Fin grid1.N, win1_2.index t (0 : Fin 2) = t.val % 16 ∧ win1_2.index t (1 : Fin 2) = 0)
theorem idx1_3 : ∀ t : Fin cfg1.N, win1_3.index t (0 : Fin 2) = t.val % 16 ∧ win1_3.index t (1 : Fin 2) = 0 :=
  (by decide +kernel : ∀ t : Fin grid1.N, win1_3.index t (0 : Fin 2) = t.val % 16 ∧ win1_3.index t (1 : Fin 2) = 0)
/-- … and the output window at block `(I, 0, 0)`. -/
theorem idx1_4 : ∀ t : Fin cfg1.N, win1_4.index t (0 : Fin 3) = t.val / 16 ∧ win1_4.index t (1 : Fin 3) = 0 ∧ win1_4.index t (2 : Fin 3) = 0 :=
  (by decide +kernel : ∀ t : Fin grid1.N, win1_4.index t (0 : Fin 3) = t.val / 16 ∧ win1_4.index t (1 : Fin 3) = 0 ∧ win1_4.index t (2 : Fin 3) = 0)

/-- The row tile of a point … -/
abbrev rowT (t : Fin cfg1.N) : Fin 16 := ⟨t.val / 16, by have h : t.val < grid1.N := t.isLt; rw [N_1] at h; omega⟩
/-- … and its column tile. -/
abbrev colT (t : Fin cfg1.N) : Fin 16 := ⟨t.val % 16, Nat.mod_lt _ (by decide)⟩

/-! ## The four input blocks of a point are tiles of the two arrays -/

theorem iblk1_0_eq (c : Dev nD) (t : Fin cfg1.N) :
    (iblk1 V c 0 t : Vec Ideal S512x128 .f32) = tile (V c main_v2_0) (rowT t) := by
  funext y
  obtain ⟨r, k, rfl⟩ : ∃ (r : Fin 512) (k : Fin 128), y = ix2 r k := ⟨y 0, y 1, eq_ix2 y⟩
  rw [tile_apply]
  unfold iblk1
  rw [View.read_apply]
  show V c main_v2_0 _ = V c main_v2_0 _
  congr 1
  funext a
  apply Fin.ext
  match a with
  | ⟨0, _⟩ => show win1_0.index t (0 : Fin 2) * 512 + 1 * r.val = 512 * (t.val / 16) + r.val; rw [(idx1_0 t).1]; omega
  | ⟨1, _⟩ => show win1_0.index t (1 : Fin 2) * 128 + 1 * k.val = k.val; rw [(idx1_0 t).2]; omega

/-- The second window's block is the row tile of the second array. -/
theorem iblk1_1_eq (c : Dev nD) (t : Fin cfg1.N) :
    (iblk1 V c 1 t : Vec Ideal S512x128 .f32) = tile (V c main_v2_1) (rowT t) := by
  funext y
  obtain ⟨r, k, rfl⟩ : ∃ (r : Fin 512) (k : Fin 128), y = ix2 r k := ⟨y 0, y 1, eq_ix2 y⟩
  rw [tile_apply]
  unfold iblk1
  rw [View.read_apply]
  show V c main_v2_1 _ = V c main_v2_1 _
  congr 1
  funext a
  apply Fin.ext
  match a with
  | ⟨0, _⟩ => show win1_1.index t (0 : Fin 2) * 512 + 1 * r.val = 512 * (t.val / 16) + r.val; rw [(idx1_1 t).1]; omega
  | ⟨1, _⟩ => show win1_1.index t (1 : Fin 2) * 128 + 1 * k.val = k.val; rw [(idx1_1 t).2]; omega

/-- The third window's block is the column tile of the first array. -/
theorem iblk1_2_eq (c : Dev nD) (t : Fin cfg1.N) :
    (iblk1 V c 2 t : Vec Ideal S512x128 .f32) = tile (V c main_v2_0) (colT t) := by
  funext y
  obtain ⟨r, k, rfl⟩ : ∃ (r : Fin 512) (k : Fin 128), y = ix2 r k := ⟨y 0, y 1, eq_ix2 y⟩
  rw [tile_apply]
  unfold iblk1
  rw [View.read_apply]
  show V c main_v2_0 _ = V c main_v2_0 _
  congr 1
  funext a
  apply Fin.ext
  match a with
  | ⟨0, _⟩ => show win1_2.index t (0 : Fin 2) * 512 + 1 * r.val = 512 * (t.val % 16) + r.val; rw [(idx1_2 t).1]; omega
  | ⟨1, _⟩ => show win1_2.index t (1 : Fin 2) * 128 + 1 * k.val = k.val; rw [(idx1_2 t).2]; omega

/-- The fourth window's block is the column tile of the second array. -/
theorem iblk1_3_eq (c : Dev nD) (t : Fin cfg1.N) :
    (iblk1 V c 3 t : Vec Ideal S512x128 .f32) = tile (V c main_v2_1) (colT t) := by
  funext y
  obtain ⟨r, k, rfl⟩ : ∃ (r : Fin 512) (k : Fin 128), y = ix2 r k := ⟨y 0, y 1, eq_ix2 y⟩
  rw [tile_apply]
  unfold iblk1
  rw [View.read_apply]
  show V c main_v2_1 _ = V c main_v2_1 _
  congr 1
  funext a
  apply Fin.ext
  match a with
  | ⟨0, _⟩ => show win1_3.index t (0 : Fin 2) * 512 + 1 * r.val = 512 * (t.val % 16) + r.val; rw [(idx1_3 t).1]; omega
  | ⟨1, _⟩ => show win1_3.index t (1 : Fin 2) * 128 + 1 * k.val = k.val; rw [(idx1_3 t).2]; omega

/-! ## The accumulator after each point -/

/-- What a point adds to the accumulator `s`, lane by lane: its three tile sums on lanes 0, 1, 2. -/
theorem body_apply (x0 x1 x2 x3 : Vec Ideal S512x128 .f32) (s : Vec Ideal S1x1x128 .f32) (l : Fin 128) :
    body (F := Ideal) x0 x1 x2 x3 s (ix3 (0 : Fin 1) (0 : Fin 1) l)
      = s (ix3 (0 : Fin 1) (0 : Fin 1) l)
        + (if l.val = 0 then tileSum x0 x2 else if l.val = 1 then tileSum x1 x3 else if l.val = 2 then tileSum x0 x3 else 0) := by
  unfold body
  rw [acc_apply, tile_xx, tile_tt, tile_xt]

/-- At the first column tile of a row of tiles the accumulator is `body` of the point's tiles and the zero vector … -/
theorem acc_first (c : Dev nD) (t : Fin cfg1.N) (h0 : t.val % 16 = 0) :
    (outsAt1 V c t.val t.isLt).2 = body (F := Ideal) (iblk1 V c 0 t) (iblk1 V c 1 t) (iblk1 V c 2 t) (iblk1 V c 3 t) (Gen.k1_pay2 (F := Ideal)) := by
  have h1 : ¬t.val % 16 = 15 := by omega
  rw [outsAt1_A V c t h0 h1]
  dsimp only
  exact sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)

/-- … and at every other point `body` of the point's tiles and what the point before left. -/
theorem acc_next (c : Dev nD) (t : Fin cfg1.N) (h0 : ¬t.val % 16 = 0) :
    (outsAt1 V c t.val t.isLt).2
      = body (F := Ideal) (iblk1 V c 0 t) (iblk1 V c 1 t) (iblk1 V c 2 t) (iblk1 V c 3 t) (outsAt1 V c (t.val - 1) (Nat.lt_of_le_of_lt (Nat.sub_le _ _) t.isLt)).2 := by
  by_cases h1 : t.val % 16 = 15
  · rw [outsAt1_C V c t h0 h1]
    dsimp only
    exact sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2
  · rw [outsAt1_B V c t h0 h1]
    dsimp only
    exact sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2

/-- At the last column tile the output block receives the same value. -/
theorem out_last_body (c : Dev nD) (t : Fin cfg1.N) (h1 : t.val % 16 = 15) :
    (outsAt1 V c t.val t.isLt).1
      = body (F := Ideal) (iblk1 V c 0 t) (iblk1 V c 1 t) (iblk1 V c 2 t) (iblk1 V c 3 t) (outsAt1 V c (t.val - 1) (Nat.lt_of_le_of_lt (Nat.sub_le _ _) t.isLt)).2 := by
  have h0 : ¬t.val % 16 = 0 := by omega
  rw [outsAt1_C V c t h0 h1]
  dsimp only
  exact out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2

/-! ## The accumulator's lanes in closed form -/

/-- The tile sum of row tile `I` of `A` against column tile `J` of `B` (zero beyond the sixteenth). -/
def tsum (A B : (⟨2, ![8192, 128]⟩ : Shape).Idx → EReal) (I : Fin 16) (J : ℕ) : EReal :=
  if h : J < 16 then tileSum (tile A I) (tile B ⟨J, h⟩) else 0

theorem tsum_of_lt (A B : (⟨2, ![8192, 128]⟩ : Shape).Idx → EReal) (I : Fin 16) (J : ℕ) (h : J < 16) :
    tsum A B I J = tileSum (tile A I) (tile B ⟨J, h⟩) := dif_pos h

theorem tsum_fin (A B : (⟨2, ![8192, 128]⟩ : Shape).Idx → EReal) (I J : Fin 16) : tsum A B I J.val = tileSum (tile A I) (tile B J) :=
  dif_pos J.isLt

/-- The accumulator's lane `l` after the first `n` column tiles of row tile `I`: the partial sums of the three kinds of
    tile sums on lanes 0, 1, 2, zero elsewhere. -/
def lanes (A B : (⟨2, ![8192, 128]⟩ : Shape).Idx → EReal) (I : Fin 16) (n : ℕ) (l : Fin 128) : EReal :=
  if l.val = 0 then ∑ J ∈ Finset.range n, tsum A A I J
  else if l.val = 1 then ∑ J ∈ Finset.range n, tsum B B I J
  else if l.val = 2 then ∑ J ∈ Finset.range n, tsum A B I J
  else 0

theorem lanes_zero (A B : (⟨2, ![8192, 128]⟩ : Shape).Idx → EReal) (I : Fin 16) (l : Fin 128) : lanes A B I 0 l = 0 := by
  unfold lanes
  simp only [Finset.range_zero, Finset.sum_empty, ite_self]

theorem lanes_succ (A B : (⟨2, ![8192, 128]⟩ : Shape).Idx → EReal) (I : Fin 16) (n : ℕ) (l : Fin 128) :
    lanes A B I (n + 1) l
      = lanes A B I n l + (if l.val = 0 then tsum A A I n else if l.val = 1 then tsum B B I n else if l.val = 2 then tsum A B I n else 0) := by
  unfold lanes
  by_cases h0 : l.val = 0
  · rw [if_pos h0, if_pos h0, if_pos h0, Finset.sum_range_succ]
  · rw [if_neg h0, if_neg h0, if_neg h0]
    by_cases h1 : l.val = 1
    · rw [if_pos h1, if_pos h1, if_pos h1, Finset.sum_range_succ]
    · rw [if_neg h1, if_neg h1, if_neg h1]
      by_cases h2 : l.val = 2
      · rw [if_pos h2, if_pos h2, if_pos h2, Finset.sum_range_succ]
      · rw [if_neg h2, if_neg h2, if_neg h2, add_zero]

/-- After all sixteen column tiles: the three sums over the column tiles. -/
theorem lanes_all (A B : (⟨2, ![8192, 128]⟩ : Shape).Idx → EReal) (I : Fin 16) (l : Fin 128) :
    lanes A B I 16 l
      = if l.val = 0 then ∑ J : Fin 16, tileSum (tile A I) (tile A J)
        else if l.val = 1 then ∑ J : Fin 16, tileSum (tile B I) (tile B J)
        else if l.val = 2 then ∑ J : Fin 16, tileSum (tile A I) (tile B J)
        else 0 := by
  unfold lanes
  simp only [Finset.sum_range, tsum_fin]

theorem lt_N (I J : ℕ) (hI : I < 16) (hJ : J < 16) : 16 * I + J < cfg1.N := by
  show _ < grid1.N
  rw [N_1]; omega

/-- THE ACCUMULATOR after point `16·I + J`, lane by lane: the partial sums over the column tiles `0 … J`. -/
theorem acc_lanes (c : Dev nD) (I : ℕ) (hI : I < 16) (l : Fin 128) : ∀ (J : ℕ) (hJ : J < 16),
    (outsAt1 V c (16 * I + J) (lt_N I J hI hJ)).2 (ix3 (0 : Fin 1) (0 : Fin 1) l)
      = lanes (V c main_v2_0) (V c main_v2_1) ⟨I, hI⟩ (J + 1) l
  | 0, hJ => by
    have hr : rowT ⟨16 * I + 0, lt_N I 0 hI hJ⟩ = ⟨I, hI⟩ := Fin.ext (by show (16 * I + 0) / 16 = I; omega)
    have hc : colT ⟨16 * I + 0, lt_N I 0 hI hJ⟩ = (⟨0, hJ⟩ : Fin 16) := Fin.ext (by show (16 * I + 0) % 16 = 0; omega)
    refine (congrFun (acc_first V c ⟨16 * I + 0, lt_N I 0 hI hJ⟩ (by show (16 * I + 0) % 16 = 0; omega)) _).trans ?_
    rw [body_apply, reset_apply, iblk1_0_eq, iblk1_1_eq, iblk1_2_eq, iblk1_3_eq, hr, hc, lanes_succ, lanes_zero]
    simp only [tsum_of_lt _ _ _ _ hJ]
  | J + 1, hJ => by
    have hJ' : J < 16 := by omega
    have hr : rowT ⟨16 * I + (J + 1), lt_N I (J + 1) hI hJ⟩ = ⟨I, hI⟩ := Fin.ext (by show (16 * I + (J + 1)) / 16 = I; omega)
    have hc : colT ⟨16 * I + (J + 1), lt_N I (J + 1) hI hJ⟩ = (⟨J + 1, hJ⟩ : Fin 16) := Fin.ext (by show (16 * I + (J + 1)) % 16 = J + 1; omega)
    have e : ∀ (m : ℕ) (hm : m < cfg1.N), m = 16 * I + J →
        (outsAt1 V c m hm).2 = (outsAt1 V c (16 * I + J) (lt_N I J hI hJ')).2 := by
      intro m hm h; subst h; rfl
    refine (congrFun (acc_next V c ⟨16 * I + (J + 1), lt_N I (J + 1) hI hJ⟩ (by show ¬(16 * I + (J + 1)) % 16 = 0; omega)) _).trans ?_
    rw [body_apply, e _ _ (by show 16 * I + (J + 1) - 1 = 16 * I + J; omega), acc_lanes c I hI l J hJ',
      iblk1_0_eq, iblk1_1_eq, iblk1_2_eq, iblk1_3_eq, hr, hc, lanes_succ (n := J + 1)]
    simp only [tsum_of_lt _ _ _ _ hJ]

/-! ## What the output block receives at the last column tile -/

/-- The result at row tile `j 0`, lane `j 2`: on lanes 0, 1, 2 the three sums over all sixteen column tiles of the tile
    sums of that row tile; zero on the other lanes. -/
def Gfin (c : Dev nD) : S16x1x128.Idx → EReal := fun j =>
  if (j 2).val = 0 then ∑ J : Fin 16, tileSum (tile (V c main_v2_0) ⟨(j 0).val, (j 0).isLt⟩) (tile (V c main_v2_0) J)
  else if (j 2).val = 1 then ∑ J : Fin 16, tileSum (tile (V c main_v2_1) ⟨(j 0).val, (j 0).isLt⟩) (tile (V c main_v2_1) J)
  else if (j 2).val = 2 then ∑ J : Fin 16, tileSum (tile (V c main_v2_0) ⟨(j 0).val, (j 0).isLt⟩) (tile (V c main_v2_1) J)
  else 0

/-- At the last column tile of row tile `I` the output block holds, lane by lane, the result at `I`. -/
theorem out_last (c : Dev nD) (t : Fin cfg1.N) (h15 : t.val % 16 = 15) (l : Fin 128) :
    (outsAt1 V c t.val t.isLt).1 (ix3 (0 : Fin 1) (0 : Fin 1) l) = Gfin V c (ix3 (rowT t) (0 : Fin 1) l) := by
  have ht : t.val < 256 := by have h : t.val < grid1.N := t.isLt; rw [N_1] at h; exact h
  have hI : t.val / 16 < 16 := by omega
  have e : ∀ (m : ℕ) (hm : m < cfg1.N), m = 16 * (t.val / 16) + 15 →
      (outsAt1 V c m hm).2 = (outsAt1 V c (16 * (t.val / 16) + 15) (lt_N (t.val / 16) 15 hI (by decide))).2 := by
    intro m hm h; subst h; rfl
  rw [out_last_body V c t h15, ← acc_next V c t (by omega), e t.val t.isLt (by omega),
    acc_lanes V c (t.val / 16) hI l 15 (by decide)]
  exact lanes_all _ _ _ l

end Cert.KernelIdeal.Hand1V

end
-- ==== Proof.Region1Final.lean ====
/- From what the second pallas_call writes back to what its result array holds afterwards.

   The grid is 16 x 16: point t = 16·I + J handles row tile I against column tile J. The result window's block at point
   t is row I = t / 16 of the [16, 1, 128] result array (one row of 128 lanes), and it is written back only at the last
   point of each row of the grid, J = 15. So if what the body leaves for the window at every such point is row t / 16 of
   ONE array `G`, then after the call the result array is `G`: the sixteen rows written back are all of the array. -/
import proofs.«172921_j68745246539824_1_alg».proof.Proof.Region1
import Idealize.ShloMosaic.Lib.Pipeline.Value
import Idealize.ShloMosaic.Lib.ValueIdx

noncomputable section

namespace Cert.KernelIdeal.Hand1F

open Cert.KernelIdeal Cert.KernelIdeal.Gen Cert.KernelIdeal.Hand1
open Idealize.ShloMosaic Idealize.ShloMosaic.TcCoe Idealize.ShloMosaic.ValueIdx Idealize.SL.Sem
open Idealize.ShloMosaic.Pipeline (Dat)

-- the TensorCore's buffer contents when the call is entered
variable (V : (c : Dev nD) → (b : Ref sig .tc) → Buf (Elt Ideal) ((c : Thread nD τ).loc b))

/-- The result window's block index, decided over the 256 grid points: row t / 16, and 0 on the two other axes. -/
theorem block_index4 : ∀ t : Fin cfg1.N, win1_4.index t (0 : Fin 3) = t.val / 16 ∧ win1_4.index t (1 : Fin 3) = 0
    ∧ win1_4.index t (2 : Fin 3) = 0 :=
  (by decide +kernel : ∀ t : Fin grid1.N, _)

/-- A block `X` whose lane `l` is entry (t / 16, 0, l) of `G`, for every lane, is the result window's block at point
    `t` of `G`: the block has one row, which sits at row t / 16 of the array. -/
theorem block_of_array (G : S16x1x128.Idx → EReal) (t : Fin cfg1.N) (X : Vec Ideal S1x1x128 .f32)
    (hX : ∀ l : Fin 128, X (ix3 (0 : Fin 1) (0 : Fin 1) l)
      = G (ix3 (⟨t.val / 16, by have := t.isLt; have : cfg1.N = 256 := Gen.N_1; omega⟩ : Fin 16) (0 : Fin 1) l)) :
    (cfg1.win 4).cut (grid1.coords t) X = ((cfg1.win 4).blk t).view.read (Elt Ideal) G := by
  obtain ⟨b0, b1, b2⟩ := block_index4 t
  funext j
  show X j = G (((cfg1.win 4).blk t).view.emb j)
  obtain ⟨p, q, l, rfl⟩ : ∃ (p : Fin 1) (q : Fin 1) (l : Fin 128), j = ix3 p q l := ⟨j 0, j 1, j 2, eq_ix3 j⟩
  obtain rfl : p = 0 := Subsingleton.elim _ _
  obtain rfl : q = 0 := Subsingleton.elim _ _
  refine (hX l).trans (congrArg G ?_)
  funext a; apply Fin.ext
  match a with
  | ⟨0, _⟩ => show t.val / 16 = win1_4.index t (0 : Fin 3) * 1 + 1 * 0; omega
  | ⟨1, _⟩ => show 0 = win1_4.index t (1 : Fin 3) * 1 + 1 * 0; omega
  | ⟨2, _⟩ => show l.val = win1_4.index t (2 : Fin 3) * 128 + 1 * l.val; omega

/-- An index of the result array is in point `t`'s block iff each coordinate is in the block's range on its axis. -/
theorem mem_blk4 (t : Fin cfg1.N) (i : S16x1x128.Idx) :
    i ∈ ((cfg1.win 4).blk t).view.set ↔ ∀ a : Fin 3, win1_4.index t a * S1x1x128.size a ≤ (i a).val ∧ (i a).val < win1_4.index t a * S1x1x128.size a + S1x1x128.size a := by
  show i ∈ ((View.whole main_v3).slice (win1_4.rect t)).set ↔ _
  rw [View.set_slice_whole, Rect.mem_set_unit]
  exact Iff.rfl

/-- Every index of the result array is in the block of a point that writes back: row I is the block of point
    16·I + 15, the last point of row I of the grid. -/
theorem cover4 (i : S16x1x128.Idx) : ∃ t : Fin cfg1.N, (cfg1.win 4).flush t = true ∧ i ∈ ((cfg1.win 4).blk t).view.set := by
  have hN : cfg1.N = 256 := N_1
  have hi0 : (i 0).val < 16 := (i 0).isLt
  have hi1 : (i 1).val < 1 := (i 1).isLt
  have hi2 : (i 2).val < 128 := (i 2).isLt
  obtain ⟨t, ht⟩ : ∃ t : Fin cfg1.N, t.val = 16 * (i 0).val + 15 := ⟨⟨16 * (i 0).val + 15, by omega⟩, rfl⟩
  obtain ⟨b0, b1, b2⟩ := block_index4 t
  refine ⟨t, (flush1_4 t).mpr (by omega), ?_⟩
  rw [mem_blk4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1 ≤ (i 1).val ∧ (i 1).val < win1_4.index t (1 : Fin 3) * 1 + 1; omega
  | ⟨2, _⟩ => show win1_4.index t (2 : Fin 3) * 128 ≤ (i 2).val ∧ (i 2).val < win1_4.index t (2 : Fin 3) * 128 + 128; omega

/-- THE RESULT ARRAY after the call is `G`, as soon as at every point that writes back (the last point of each row of
    the grid) what the body leaves for the result window is row t / 16 of `G`, lane by lane. What the body leaves is
    never opened here: it enters only through the hypothesis. -/
theorem final1_of (c : Dev nD) (G : S16x1x128.Idx → EReal)
    (hlast : ∀ (t : Fin cfg1.N) (h15 : t.val % 16 = 15) (l : Fin 128),
      (outsAt1 V c t.val t.isLt).1 (ix3 (0 : Fin 1) (0 : Fin 1) l)
        = G (ix3 (⟨t.val / 16, by have := t.isLt; have : cfg1.N = 256 := Gen.N_1; omega⟩ : Fin 16) (0 : Fin 1) l)) :
    (dat1 (F := Ideal) V c).arrAt 4 cfg1.N = G :=
  (dat1 (F := Ideal) V c).arrAt_eq_of_cover 4 G
    (fun t hf => by
      show (cfg1.win 4).cut (grid1.coords t) ((dat1 (F := Ideal) V c).after 4 t) = _
      rw [after1_4]
      exact block_of_array G t _ (hlast t ((flush1_4 t).mp hf)))
    cover4

end Cert.KernelIdeal.Hand1F

end
-- ==== Proof.Region1Result.lean ====
/-
  The second region's result array: the array-level statement (what every write-back point leaves is a row of one
  array, and the sixteen rows written back are the whole array) applied to the accumulator's closed form at the last
  column tile of each row of tiles.
-/
import proofs.«172921_j68745246539824_1_alg».proof.Proof.Region1Value
import proofs.«172921_j68745246539824_1_alg».proof.Proof.Region1Final
import proofs.«172921_j68745246539824_1_alg».proof.Proof.PayGaussB
import proofs.«172921_j68745246539824_1_alg».proof.Proof.PayGaussC
import proofs.«172921_j68745246539824_1_alg».proof.Proof.Tiles
import Idealize.ShloMosaic.Lib.Pipeline.Value
import Idealize.ShloMosaic.Lib.ValueIdx

set_option maxRecDepth 16384

noncomputable section

open scoped BigOperators

namespace Cert.KernelIdeal.Hand1V

open Cert.KernelIdeal Cert.KernelIdeal.Gen Cert.KernelIdeal.Hand1 Cert.KernelIdeal.Pay Cert.Tiles
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- THE SECOND REGION'S RESULT ARRAY after the call: at row tile `I`, on lanes 0, 1, 2, the sums over all sixteen column
    tiles `J` of the three Gaussian tile sums of row tile `I` against column tile `J` (first array against itself,
    second against itself, first against second), and zero on the other lanes. -/
theorem final1 (c : Dev nD) (I : Fin 16) (l : Fin 128) :
    (dat1 (F := Ideal) V c).arrAt 4 cfg1.N (ix3 I (0 : Fin 1) l)
      = if l.val = 0 then ∑ J : Fin 16, tileSum (tile (V c main_v2_0) I) (tile (V c main_v2_0) J)
        else if l.val = 1 then ∑ J : Fin 16, tileSum (tile (V c main_v2_1) I) (tile (V c main_v2_1) J)
        else if l.val = 2 then ∑ J : Fin 16, tileSum (tile (V c main_v2_0) I) (tile (V c main_v2_1) J)
        else 0 := by
  rw [Cert.KernelIdeal.Hand1F.final1_of V c (Gfin V c) (fun t h15 l => out_last V c t h15 l)]
  rfl

end Cert.KernelIdeal.Hand1V

end
-- ==== Proof.KernelHost.lean ====
/-
  The last host stretch of the kernel's program, read at the extended reals: lanes 0, 1, 2 of the second call's
  `[16, 1, 128]` result are summed over the 16 row tiles, each sum is divided by the number of pairs, and the three means
  are combined as xx + tt − 2·xt.
-/
import proofs.«172921_j68745246539824_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import proofs.«172921_j68745246539824_1_alg».proof.Proof.Spec

noncomputable section

open scoped BigOperators

namespace Cert.KernelIdeal.Host

open Cert.KernelIdeal Cert.KernelIdeal.Gen Idealize.ShloMosaic Idealize.ShloMosaic.TcCoe Idealize.SL.Sem
  Idealize.ShloMosaic.StableHlo Idealize.ShloMosaic.ValueIdx

/-! ## The pieces of the tail, over a variable array -/

/-- Column `k` of a `[16, 3]` array summed over its 16 rows, the sum started at the literal zero. -/
theorem reduce_rows (x : S16x3.Idx → EReal) (k : Fin 3) :
    Host.reduceAdd (F := Ideal) (φ := .f32) x (constant (F := Ideal) S_ .f32 0x00000000#32) reducesTo_S16x3_S3_d0 h_S_ (ix1 k)
      = ∑ I : Fin 16, x (ix2 I k) := by
  simp only [Host.reduceAdd, Ideal.hostReduceAdd_def]
  rw [Ideal.hostReduceAdd_single reducesTo_S16x3_S3_d0 (by decide)]
  refine (congrArg (· + _) (show constant (F := Ideal) S_ .f32 0x00000000#32 (Shape.Idx.first h_S_) = 0 from
    Ideal.ofBits_zero_f32)).trans ?_
  rw [zero_add]
  refine Finset.sum_congr rfl fun I _ => ?_
  exact congrArg x (funext fun a => Fin.ext (by match a with | ⟨0, _⟩ => rfl | ⟨1, _⟩ => rfl))

/-- Entry `(I, k)` of the `[16, 3]` array cut out of the first three lanes of a `[16, 1, 128]` array is its entry
    `(I, 0, k)`. -/
theorem lanes_apply (y : S16x1x128.Idx → EReal) (I : Fin 16) (k : Fin 3) :
    shapeCast S16x3 (extractStridedSlice S16x1x3 ![0, 0, 0] y slices_S16x1x128_S16x1x3_0_0_0) shapeCasts_S16x1x3_S16x3 (ix2 I k)
      = y (ix3 I (0 : Fin 1) (⟨k.val, by omega⟩ : Fin 128)) := by
  refine (shapeCast_apply _ shapeCasts_S16x1x3_S16x3 (ix2 I k) (ix3 I (0 : Fin 1) k) ?_).trans ?_
  · rw [Shape.rowMajor_val_three, Shape.rowMajor_val_two]
    show (I.val * 1 + 0) * 3 + k.val = I.val * 3 + k.val
    omega
  · exact extractStridedSlice_apply _ y _ (ix3 I (0 : Fin 1) k) (ix3 I (0 : Fin 1) (⟨k.val, by omega⟩ : Fin 128))
      (fun a => match a with
        | ⟨0, _⟩ => by show I.val = 0 + I.val; omega
        | ⟨1, _⟩ => by show 0 = 0 + 0; rfl
        | ⟨2, _⟩ => by show k.val = 0 + k.val; omega)

/-- The one-element array cut out of a `[3]` array at position `k`, recast to a scalar, is the array's entry `k`. -/
theorem pick_apply (v : S3.Idx → EReal) (k : Fin 3) (h : S3.Slices ![k.val] S1) (i : S_.Idx) :
    shapeCast S_ (extractStridedSlice S1 ![k.val] v h) shapeCasts_S1_S_ i = v (ix1 k) := by
  refine (shapeCast_apply _ shapeCasts_S1_S_ i (ix1 (0 : Fin 1)) ?_).trans ?_
  · rw [Shape.rowMajor_val_one]
    have h1 : (S_.rowMajor i).val < S_.numel := (S_.rowMajor i).isLt
    have h2 : S_.numel = 1 := by decide
    show 0 = (S_.rowMajor i).val
    omega
  · exact extractStridedSlice_apply _ v h (ix1 (0 : Fin 1)) (ix1 k)
      (fun a => match a with
        | ⟨0, _⟩ => by show k.val = k.val + 0; omega)

/-- Lane `k` of the tail's sum: the `[16, 1, 128]` array's lane `k` summed over the 16 row tiles. -/
theorem lane_sum (y : S16x1x128.Idx → EReal) (k : Fin 3) (h : S3.Slices ![k.val] S1) (i : S_.Idx) :
    shapeCast S_ (extractStridedSlice S1 ![k.val]
        (Host.reduceAdd (F := Ideal) (φ := .f32)
          (fun j => shapeCast S16x3 (extractStridedSlice S16x1x3 ![0, 0, 0] y slices_S16x1x128_S16x1x3_0_0_0) shapeCasts_S16x1x3_S16x3 j)
          (constant (F := Ideal) S_ .f32 0x00000000#32) reducesTo_S16x3_S3_d0 h_S_) h) shapeCasts_S1_S_ i
      = ∑ I : Fin 16, y (ix3 I (0 : Fin 1) (⟨k.val, by omega⟩ : Fin 128)) := by
  rw [pick_apply, reduce_rows]
  exact Finset.sum_congr rfl fun I _ => lanes_apply y I k

theorem lane0 (y : S16x1x128.Idx → EReal) (i : S_.Idx) :
    shapeCast S_ (extractStridedSlice S1 ![0]
        (Host.reduceAdd (F := Ideal) (φ := .f32)
          (fun j => shapeCast S16x3 (extractStridedSlice S16x1x3 ![0, 0, 0] y slices_S16x1x128_S16x1x3_0_0_0) shapeCasts_S16x1x3_S16x3 j)
          (constant (F := Ideal) S_ .f32 0x00000000#32) reducesTo_S16x3_S3_d0 h_S_) slices_S3_S1_0) shapeCasts_S1_S_ i
      = ∑ I : Fin 16, y (ix3 I (0 : Fin 1) (0 : Fin 128)) :=
  lane_sum y 0 slices_S3_S1_0 i

theorem lane1 (y : S16x1x128.Idx → EReal) (i : S_.Idx) :
    shapeCast S_ (extractStridedSlice S1 ![1]
        (Host.reduceAdd (F := Ideal) (φ := .f32)
          (fun j => shapeCast S16x3 (extractStridedSlice S16x1x3 ![0, 0, 0] y slices_S16x1x128_S16x1x3_0_0_0) shapeCasts_S16x1x3_S16x3 j)
          (constant (F := Ideal) S_ .f32 0x00000000#32) reducesTo_S16x3_S3_d0 h_S_) slices_S3_S1_1) shapeCasts_S1_S_ i
      = ∑ I : Fin 16, y (ix3 I (0 : Fin 1) (1 : Fin 128)) :=
  lane_sum y 1 slices_S3_S1_1 i

theorem lane2 (y : S16x1x128.Idx → EReal) (i : S_.Idx) :
    shapeCast S_ (extractStridedSlice S1 ![2]
        (Host.reduceAdd (F := Ideal) (φ := .f32)
          (fun j => shapeCast S16x3 (extractStridedSlice S16x1x3 ![0, 0, 0] y slices_S16x1x128_S16x1x3_0_0_0) shapeCasts_S16x1x3_S16x3 j)
          (constant (F := Ideal) S_ .f32 0x00000000#32) reducesTo_S16x3_S3_d0 h_S_) slices_S3_S1_2) shapeCasts_S1_S_ i
      = ∑ I : Fin 16, y (ix3 I (0 : Fin 1) (2 : Fin 128)) :=
  lane_sum y 2 slices_S3_S1_2 i

/-- The host's quotient of two scalars, at their one index. -/
theorem hostDivf_apply (a b : S_.Idx → EReal) (i : S_.Idx) :
    Host.divf (F := Ideal) (φ := .f32) a b i = Ideal.div (a i) (b i) := rfl

/-! ## The tail -/

/-- After the second call the program's result is the combination of the three means of the call's `[16, 1, 128]` result:
    lanes 0, 1, 2 summed over the 16 row tiles, each over the number of pairs. -/
theorem tail_value (W : Valuation τ sig (Elt Ideal)) :
    (StableHlo.after (hostOps2 (F := Ideal)) W (Proc.devRef .tc main_v18) : S_.Idx → EReal)
      = fun _ =>
        (Ideal.div (∑ I : Fin 16, (W (Proc.devRef .tc main_v3) : S16x1x128.Idx → EReal) (ix3 I (0 : Fin 1) (0 : Fin 128))) Cert.Spec.npairs
          + Ideal.div (∑ I : Fin 16, (W (Proc.devRef .tc main_v3) : S16x1x128.Idx → EReal) (ix3 I (0 : Fin 1) (1 : Fin 128))) Cert.Spec.npairs)
        - Cert.Spec.two
          * Ideal.div (∑ I : Fin 16, (W (Proc.devRef .tc main_v3) : S16x1x128.Idx → EReal) (ix3 I (0 : Fin 1) (2 : Fin 128))) Cert.Spec.npairs := by
  after_results_simp
  funext i
  rw [subf_apply, addf_apply, mulf_apply, hostDivf_apply, hostDivf_apply, hostDivf_apply, constant_apply, constant_apply]
  exact congrArg₂ (· - ·)
    (congrArg₂ (· + ·) (congrArg (Ideal.div · Cert.Spec.npairs) (lane0 (W (Proc.devRef .tc main_v3)) i))
      (congrArg (Ideal.div · Cert.Spec.npairs) (lane1 (W (Proc.devRef .tc main_v3)) i)))
    (congrArg (Cert.Spec.two * Ideal.div · Cert.Spec.npairs) (lane2 (W (Proc.devRef .tc main_v3)) i))

end Cert.KernelIdeal.Host

end
-- ==== Proof.Region0Out.lean ====
/- The two output buffers of the first pallas_call after its body ARE the two linear layers' results on the input
   buffers: the body reads every input buffer whole and overwrites every output buffer whole, so the rectangles
   drop out of `out0_6` and `out0_7`. -/
import proofs.«172921_j68745246539824_1_alg».proof.Proof.Region0Body
import Idealize.ShloMosaic.Lib.Pipeline.Value

-- deciding that a rectangle of 2048 rows lies inside its buffer recurses once per coordinate of the long axis
set_option maxRecDepth 16384

noncomputable section

namespace Cert.KernelIdeal.Hand0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of every access of the body: zero on both axes. -/
theorem zero_offsets : (![0, 0] : Fin 2 → Nat) = fun _ => 0 := funext fun a => by fin_cases a <;> rfl

/-- Output buffer 6 after the body is the first layer on the three input buffers: a read through the rectangle that
    is all of a buffer reads the buffer, and one write through the rectangle that is all of a buffer leaves what was
    written. -/
theorem out0_6_eq (x0 : Vec F S2048x128 .f32) (x2 : Vec F S128x128 .f32) (x3 : Vec F S1x128 .f32) :
    out0_6 x0 x2 x3 = k0_pay1 x0 x2 x3 := by
  unfold out0_6
  rw [View.canon_unit_zero zero_offsets]
  simp only [View.ld_unit_zero (S := S2048x128) zero_offsets, View.ld_unit_zero (S := S128x128) zero_offsets,
    View.ld_unit_zero (S := S1x128) zero_offsets]

/-- Output buffer 7 after the body is the second layer on the three input buffers, for the same reason. -/
theorem out0_7_eq (x1 : Vec F S2048x128 .f32) (x4 : Vec F S128x128 .f32) (x5 : Vec F S1x128 .f32) :
    out0_7 x1 x4 x5 = k0_pay2 x1 x4 x5 := by
  unfold out0_7
  rw [View.canon_unit_zero zero_offsets]
  simp only [View.ld_unit_zero (S := S2048x128) zero_offsets, View.ld_unit_zero (S := S128x128) zero_offsets,
    View.ld_unit_zero (S := S1x128) zero_offsets]

end Cert.KernelIdeal.Hand0

end
-- ==== Proof.PayLinear.lean ====
/-
  The two linear layers of the first kernel body, read at one element. Each body value is the product of a block of
  2048 input rows with the transposed weight matrix, accumulated from zero, plus the bias row repeated over the rows; a
  change of float format is the identity on the extended reals. At row `p` and output feature `q` this is the inner
  product of input row `p` with weight row `q`, plus the bias at `q`.
-/
import proofs.«172921_j68745246539824_1_alg».proof.Proof.Gen.KernelIdeal.Skeleton
import proofs.«172921_j68745246539824_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The left operand's index at output `j` and contraction index `c`: row `j 0` … -/
theorem dotLinear_lhs0 (j : S2048x128.Idx) (c : dot_S2048x128_S128x128_S2048x128_1_0_0_1_n_n.contr.Idx) : (dot_S2048x128_S128x128_S2048x128_1_0_0_1_n_n.lhsIdx j c 0).val = (j 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- … column the contraction coordinate. -/
theorem dotLinear_lhs1 (j : S2048x128.Idx) (c : dot_S2048x128_S128x128_S2048x128_1_0_0_1_n_n.contr.Idx) : (dot_S2048x128_S128x128_S2048x128_1_0_0_1_n_n.lhsIdx j c 1).val = (c ⟨0, by decide⟩).val :=
  dot_S2048x128_S128x128_S2048x128_1_0_0_1_n_n.lhsIdx_val_of_single rfl j c
/-- The right operand's index: row the contraction coordinate … -/
theorem dotLinear_rhs0 (j : S2048x128.Idx) (c : dot_S2048x128_S128x128_S2048x128_1_0_0_1_n_n.contr.Idx) : (dot_S2048x128_S128x128_S2048x128_1_0_0_1_n_n.rhsIdx j c 0).val = (c ⟨0, by decide⟩).val :=
  dot_S2048x128_S128x128_S2048x128_1_0_0_1_n_n.rhsIdx_val_of_single rfl j c
/-- … column `j 1`. -/
theorem dotLinear_rhs1 (j : S2048x128.Idx) (c : dot_S2048x128_S128x128_S2048x128_1_0_0_1_n_n.contr.Idx) : (dot_S2048x128_S128x128_S2048x128_1_0_0_1_n_n.rhsIdx j c 1).val = (j 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- A `2048 × 128` block times a `128 × 128` one, accumulated into zero, at row `p`, column `q`: the sum over the
    contracted coordinate of the products. -/
theorem dotLinear_apply {φ₁ φ₂ : FTy} (lhs : FVec Ideal S2048x128 φ₁) (rhs : FVec Ideal S128x128 φ₂) (p : Fin 2048) (q : Fin 128) :
    matmul dot_S2048x128_S128x128_S2048x128_1_0_0_1_n_n none lhs rhs (constant (F := Ideal) S2048x128 .f32 0x00000000#32) (ix2 p q)
      = ∑ l : Fin 128, lhs (ix2 p l) * rhs (ix2 l q) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k :=
    funext fun a => Fin.ext (by
      match a with
      | ⟨0, _⟩ => exact dotLinear_lhs0 _ _
      | ⟨1, _⟩ => exact (dotLinear_lhs1 _ _).trans hk)
  have er : dot_S2048x128_S128x128_S2048x128_1_0_0_1_n_n.rhsIdx (ix2 p q) ((contrEquiv1 dot_S2048x128_S128x128_S2048x128_1_0_0_1_n_n 128 rfl rfl).symm k) = ix2 k q :=
    funext fun a => Fin.ext (by
      match a with
      | ⟨0, _⟩ => exact (dotLinear_rhs0 _ _).trans hk
      | ⟨1, _⟩ => exact dotLinear_rhs1 _ _)
  rw [el, er]

/-- The first linear layer at row `p`, feature `q`: input row `p` against weight row `q`, plus the bias at `q`. -/
theorem pay1_apply (v0 : Vec Ideal S2048x128 .f32) (v4 : Vec Ideal S128x128 .f32) (v10 : Vec Ideal S1x128 .f32) (p : Fin 2048) (q : Fin 128) :
    Gen.k0_pay1 (F := Ideal) v0 v4 v10 (ix2 p q) = (∑ l : Fin 128, v0 (ix2 p l) * v4 (ix2 q l)) + v10 (ix2 (0 : Fin 1) q) := by
  unfold Gen.k0_pay1
  simp only [addf_apply]
  rw [dotLinear_apply, broadcastTo_1b_ab_apply, shapeCast_self]
  refine congrArg (· + v10 (ix2 (0 : Fin 1) q)) (Finset.sum_congr rfl fun l _ => ?_)
  rw [transpose_ix2_apply, truncf_apply, truncf_apply]

/-- The second linear layer likewise. -/
theorem pay2_apply (v2 : Vec Ideal S2048x128 .f32) (v6 : Vec Ideal S128x128 .f32) (v16 : Vec Ideal S1x128 .f32) (p : Fin 2048) (q : Fin 128) :
    Gen.k0_pay2 (F := Ideal) v2 v6 v16 (ix2 p q) = (∑ l : Fin 128, v2 (ix2 p l) * v6 (ix2 q l)) + v16 (ix2 (0 : Fin 1) q) := by
  unfold Gen.k0_pay2
  simp only [addf_apply]
  rw [dotLinear_apply, broadcastTo_1b_ab_apply, shapeCast_self]
  refine congrArg (· + v16 (ix2 (0 : Fin 1) q)) (Finset.sum_congr rfl fun l _ => ?_)
  rw [transpose_ix2_apply, truncf_apply, truncf_apply]

end Cert.KernelIdeal.Pay

end
-- ==== Proof.Region0Value.lean ====
/- What the first pallas_call leaves in its two result arrays, at the extended reals: each is ONE function of the whole
   argument arrays — a linear layer, row by row — whatever the grid does.

   At grid point `t` the body sees rows 2048·t … 2048·t + 2047 of the text and of the time features, all of both
   weight matrices and both bias rows, and writes back rows 2048·t … 2048·t + 2047 of the two results. Row `p` of a
   block is row 2048·t + p of the array, and entry (row, feature) of a linear layer depends on that row of the features
   only; so what point `t` writes back is the restriction to its rows of the layer applied to the whole array. The
   four points' row ranges cover all 8192 rows, so after the call each result array is the layer of the whole array. -/
import proofs.«172921_j68745246539824_1_alg».proof.Proof.Region0
import proofs.«172921_j68745246539824_1_alg».proof.Proof.Region0Out
import proofs.«172921_j68745246539824_1_alg».proof.Proof.PayLinear

noncomputable section

open scoped BigOperators

namespace Cert.KernelIdeal.Hand0V

open Cert.KernelIdeal Cert.KernelIdeal.Gen Cert.KernelIdeal.Hand0 Cert.KernelIdeal.Pay
open Idealize.ShloMosaic Idealize.ShloMosaic.TcCoe Idealize.ShloMosaic.ValueIdx Idealize.SL.Sem
open Idealize.ShloMosaic.Pipeline (Dat)

-- the TensorCore's buffer contents when the call is entered
variable (V : (c : Dev nD) → (b : Ref sig .tc) → Buf (Elt Ideal) ((c : Thread nD τ).loc b))

/-! ## A linear layer of whole arrays, and of one block -/

/-- The layer of a whole feature array `x` (8192 rows), a weight matrix `W` and a bias row `b`: at row `i 0` and
    output feature `i 1`, that row of `x` against that row of `W`, plus the bias at that feature. -/
def layer (x : S8192x128.Idx → EReal) (W : S128x128.Idx → EReal) (b : S1x128.Idx → EReal) : S8192x128.Idx → EReal :=
  fun i => (∑ l : Fin 128, x (ix2 (i 0) l) * W (ix2 (i 1) l)) + b (ix2 (0 : Fin 1) (i 1))

/-- The first layer's body value on a block of 2048 rows, at any index of the block: row `j 0` of the block against
    row `j 1` of the weights, plus the bias at `j 1`. -/
theorem pay1_at (x0 : Vec Ideal S2048x128 .f32) (x2 : Vec Ideal S128x128 .f32) (x3 : Vec Ideal S1x128 .f32) (j : S2048x128.Idx) :
    k0_pay1 (F := Ideal) x0 x2 x3 j = (∑ l : Fin 128, x0 (ix2 (j 0) l) * x2 (ix2 (j 1) l)) + x3 (ix2 (0 : Fin 1) (j 1)) := by
  obtain ⟨p, q, rfl⟩ : ∃ (p : Fin 2048) (q : Fin 128), j = ix2 p q := ⟨j 0, j 1, eq_ix2 j⟩
  exact pay1_apply x0 x2 x3 p q

/-- The second layer's likewise. -/
theorem pay2_at (x1 : Vec Ideal S2048x128 .f32) (x4 : Vec Ideal S128x128 .f32) (x5 : Vec Ideal S1x128 .f32) (j : S2048x128.Idx) :
    k0_pay2 (F := Ideal) x1 x4 x5 j = (∑ l : Fin 128, x1 (ix2 (j 0) l) * x4 (ix2 (j 1) l)) + x5 (ix2 (0 : Fin 1) (j 1)) := by
  obtain ⟨p, q, rfl⟩ : ∃ (p : Fin 2048) (q : Fin 128), j = ix2 p q := ⟨j 0, j 1, eq_ix2 j⟩
  exact pay2_apply x1 x4 x5 p q

/-- A block entry of the first layer is an entry of the layer of whole arrays `x`, `W`, `b`, as soon as the block's row
    `j 0` is the array's row `i 0`, the weight block's row `j 1` is the weight array's row `i 1`, and the bias block's
    entry `j 1` is the bias array's entry `i 1`. -/
theorem k0_pay1_block (x : S8192x128.Idx → EReal) (W : S128x128.Idx → EReal) (b : S1x128.Idx → EReal)
    (x0 : Vec Ideal S2048x128 .f32) (x2 : Vec Ideal S128x128 .f32) (x3 : Vec Ideal S1x128 .f32)
    (j : S2048x128.Idx) (i : S8192x128.Idx)
    (hx : ∀ l : Fin 128, x0 (ix2 (j 0) l) = x (ix2 (i 0) l))
    (hW : ∀ l : Fin 128, x2 (ix2 (j 1) l) = W (ix2 (i 1) l))
    (hb : x3 (ix2 (0 : Fin 1) (j 1)) = b (ix2 (0 : Fin 1) (i 1))) :
    k0_pay1 (F := Ideal) x0 x2 x3 j = layer x W b i := by
  rw [pay1_at]; unfold layer; rw [hb]
  exact congrArg (· + b (ix2 (0 : Fin 1) (i 1))) (Finset.sum_congr rfl fun l _ => by rw [hx l, hW l])

/-- The same for the second layer. -/
theorem k0_pay2_block (x : S8192x128.Idx → EReal) (W : S128x128.Idx → EReal) (b : S1x128.Idx → EReal)
    (x1 : Vec Ideal S2048x128 .f32) (x4 : Vec Ideal S128x128 .f32) (x5 : Vec Ideal S1x128 .f32)
    (j : S2048x128.Idx) (i : S8192x128.Idx)
    (hx : ∀ l : Fin 128, x1 (ix2 (j 0) l) = x (ix2 (i 0) l))
    (hW : ∀ l : Fin 128, x4 (ix2 (j 1) l) = W (ix2 (i 1) l))
    (hb : x5 (ix2 (0 : Fin 1) (j 1)) = b (ix2 (0 : Fin 1) (i 1))) :
    k0_pay2 (F := Ideal) x1 x4 x5 j = layer x W b i := by
  rw [pay2_at]; unfold layer; rw [hb]
  exact congrArg (· + b (ix2 (0 : Fin 1) (i 1))) (Finset.sum_congr rfl fun l _ => by rw [hx l, hW l])

/-! ## Where the windows' blocks sit -/

/-- The index maps, decided over the four grid points: the feature windows 0, 1 and the result windows 6, 7 are at
    block (t, 0); the weight and bias windows 2 … 5 are at block (0, 0) throughout. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Every one of the four row ranges is some point's, for either result window. -/
theorem points_onto : ∀ q : Fin 4, ∃ t : Fin cfg0.N, win0_6.index t (0 : Fin 2) = q.val ∧ win0_6.index t (1 : Fin 2) = 0
    ∧ win0_7.index t (0 : Fin 2) = q.val ∧ win0_7.index t (1 : Fin 2) = 0 :=
  (by decide +kernel : ∀ q : Fin 4, ∃ t : Fin grid0.N, _)

/-! ## What a point writes back is its rows of the layer of the whole arrays -/

/-- Result window 6 (the text features' layer): what point `t` writes back is block `t` of the layer of the whole
    feature array, the weights and the bias as the call finds them. Row `p` of the feature block is row 2048·t + p of
    the array, which is the row of the result block's entry in the result array; the weights' and the bias's blocks are
    the arrays themselves. -/
theorem flushed6_eq (c : Dev nD) (t : Fin cfg0.N) :
    (dat0 (F := Ideal) V c).flushed 6 t
      = ((cfg0.win 6).blk t).view.read (Elt Ideal) (layer (V c main_arg0) (V c main_arg2) (V c main_v0)) := by
  show (cfg0.win 6).cut (grid0.coords t) ((dat0 (F := Ideal) V c).after 6 t) = _
  rw [after0_6, out0_6_eq]
  obtain ⟨a00, a01, a10, a11, a20, a21, a30, a31, a40, a41, a50, a51, a60, a61, a70, a71⟩ := block_indices t
  funext j
  show k0_pay1 (F := Ideal) (iblk0 V c 0 t) (iblk0 V c 2 t) (iblk0 V c 3 t) j
    = layer (V c main_arg0) (V c main_arg2) (V c main_v0) (((cfg0.win 6).blk t).view.emb j)
  have hj0 : (j 0).val < 2048 := (j 0).isLt
  have hj1 : (j 1).val < 128 := (j 1).isLt
  have ex : ∀ l : Fin 128, ((cfg0.win 0).blk t).view.emb (ix2 (j 0) l) = ix2 ((((cfg0.win 6).blk t).view.emb j) 0) l := by
    intro l; funext a; apply Fin.ext
    match a with
    | ⟨0, _⟩ => show win0_0.index t (0 : Fin 2) * 2048 + 1 * (j 0).val = win0_6.index t (0 : Fin 2) * 2048 + 1 * (j 0).val; omega
    | ⟨1, _⟩ => show win0_0.index t (1 : Fin 2) * 128 + 1 * l.val = l.val; omega
  have eW : ∀ l : Fin 128, ((cfg0.win 2).blk t).view.emb (ix2 (j 1) l) = ix2 ((((cfg0.win 6).blk t).view.emb j) 1) l := by
    intro l; funext a; apply Fin.ext
    match a with
    | ⟨0, _⟩ => show win0_2.index t (0 : Fin 2) * 128 + 1 * (j 1).val = win0_6.index t (1 : Fin 2) * 128 + 1 * (j 1).val; omega
    | ⟨1, _⟩ => show win0_2.index t (1 : Fin 2) * 128 + 1 * l.val = l.val; omega
  have eb : ((cfg0.win 3).blk t).view.emb (ix2 (0 : Fin 1) (j 1)) = ix2 (0 : Fin 1) ((((cfg0.win 6).blk t).view.emb j) 1) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_6.index t (1 : Fin 2) * 128 + 1 * (j 1).val; omega
  refine k0_pay1_block _ _ _ _ _ _ j _ (fun l => ?_) (fun l => ?_) ?_
  · exact congrArg (V c main_arg0) (ex l)
  · exact congrArg (V c main_arg2) (eW l)
  · exact congrArg (V c main_v0) eb

/-- Result window 7 (the time features' layer): what point `t` writes back is block `t` of the layer of the whole
    feature array, the weights and the bias as the call finds them. Row `p` of the feature block is row 2048·t + p of
    the array, which is the row of the result block's entry in the result array; the weights' and the bias's blocks are
    the arrays themselves. -/
theorem flushed7_eq (c : Dev nD) (t : Fin cfg0.N) :
    (dat0 (F := Ideal) V c).flushed 7 t
      = ((cfg0.win 7).blk t).view.read (Elt Ideal) (layer (V c main_arg1) (V c main_arg4) (V c main_v1)) := by
  show (cfg0.win 7).cut (grid0.coords t) ((dat0 (F := Ideal) V c).after 7 t) = _
  rw [after0_7, out0_7_eq]
  obtain ⟨a00, a01, a10, a11, a20, a21, a30, a31, a40, a41, a50, a51, a60, a61, a70, a71⟩ := block_indices t
  funext j
  show k0_pay2 (F := Ideal) (iblk0 V c 1 t) (iblk0 V c 4 t) (iblk0 V c 5 t) j
    = layer (V c main_arg1) (V c main_arg4) (V c main_v1) (((cfg0.win 7).blk t).view.emb j)
  have hj0 : (j 0).val < 2048 := (j 0).isLt
  have hj1 : (j 1).val < 128 := (j 1).isLt
  have ex : ∀ l : Fin 128, ((cfg0.win 1).blk t).view.emb (ix2 (j 0) l) = ix2 ((((cfg0.win 7).blk t).view.emb j) 0) l := by
    intro l; funext a; apply Fin.ext
    match a with
    | ⟨0, _⟩ => show win0_1.index t (0 : Fin 2) * 2048 + 1 * (j 0).val = win0_7.index t (0 : Fin 2) * 2048 + 1 * (j 0).val; omega
    | ⟨1, _⟩ => show win0_1.index t (1 : Fin 2) * 128 + 1 * l.val = l.val; omega
  have eW : ∀ l : Fin 128, ((cfg0.win 4).blk t).view.emb (ix2 (j 1) l) = ix2 ((((cfg0.win 7).blk t).view.emb j) 1) l := by
    intro l; funext a; apply Fin.ext
    match a with
    | ⟨0, _⟩ => show win0_4.index t (0 : Fin 2) * 128 + 1 * (j 1).val = win0_7.index t (1 : Fin 2) * 128 + 1 * (j 1).val; omega
    | ⟨1, _⟩ => show win0_4.index t (1 : Fin 2) * 128 + 1 * l.val = l.val; omega
  have eb : ((cfg0.win 5).blk t).view.emb (ix2 (0 : Fin 1) (j 1)) = ix2 (0 : Fin 1) ((((cfg0.win 7).blk t).view.emb j) 1) := by
    funext a; apply Fin.ext
    match a with
    | ⟨0, _⟩ => show win0_5.index t (0 : Fin 2) * 1 + 1 * 0 = 0; omega
    | ⟨1, _⟩ => show win0_5.index t (1 : Fin 2) * 128 + 1 * (j 1).val = win0_7.index t (1 : Fin 2) * 128 + 1 * (j 1).val; omega
  refine k0_pay2_block _ _ _ _ _ _ j _ (fun l => ?_) (fun l => ?_) ?_
  · exact congrArg (V c main_arg1) (ex l)
  · exact congrArg (V c main_arg4) (eW l)
  · exact congrArg (V c main_v1) eb

/-! ## The four points' blocks cover the result arrays -/

/-- An index of result array 6 is in point `t`'s block iff each coordinate is in the block's range on its axis. -/
theorem mem_blk6 (t : Fin cfg0.N) (i : S8192x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v2_0).slice (win0_6.rect t)).set ↔ _
  rw [View.set_slice_whole, Rect.mem_set_unit]
  exact Iff.rfl

/-- Every index of result array 6 is in the block of a point that writes back: row `r` is in the range of point
    `r / 2048`, and a block has all 128 columns. -/
theorem cover6 (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  obtain ⟨t, q60, q61, q70, q71⟩ := points_onto ⟨(i 0).val / 2048, by omega⟩
  have q60' : win0_6.index t (0 : Fin 2) = (i 0).val / 2048 := q60
  have q70' : win0_7.index t (0 : Fin 2) = (i 0).val / 2048 := q70
  refine ⟨t, flush0_6 t, ?_⟩
  rw [mem_blk6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 128 ≤ (i 1).val ∧ (i 1).val < win0_6.index t (1 : Fin 2) * 128 + 128; omega

/-- Result array 6 after the call is the layer of the whole arrays. -/
theorem array6 (c : Dev nD) : (dat0 (F := Ideal) V c).arrAt 6 cfg0.N = layer (V c main_arg0) (V c main_arg2) (V c main_v0) :=
  (dat0 (F := Ideal) V c).arrAt_eq_of_cover 6 _ (fun t _ => flushed6_eq V c t) cover6

/-- An index of result array 7 is in point `t`'s block iff each coordinate is in the block's range on its axis. -/
theorem mem_blk7 (t : Fin cfg0.N) (i : S8192x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v2_1).slice (win0_7.rect t)).set ↔ _
  rw [View.set_slice_whole, Rect.mem_set_unit]
  exact Iff.rfl

/-- Every index of result array 7 is in the block of a point that writes back: row `r` is in the range of point
    `r / 2048`, and a block has all 128 columns. -/
theorem cover7 (i : S8192x128.Idx) : ∃ t : Fin cfg0.N, (cfg0.win 7).flush t = true ∧ i ∈ ((cfg0.win 7).blk t).view.set := by
  have hi0 : (i 0).val < 8192 := (i 0).isLt
  have hi1 : (i 1).val < 128 := (i 1).isLt
  obtain ⟨t, q60, q61, q70, q71⟩ := points_onto ⟨(i 0).val / 2048, by omega⟩
  have q60' : win0_6.index t (0 : Fin 2) = (i 0).val / 2048 := q60
  have q70' : win0_7.index t (0 : Fin 2) = (i 0).val / 2048 := q70
  refine ⟨t, flush0_7 t, ?_⟩
  rw [mem_blk7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- Result array 7 after the call is the layer of the whole arrays. -/
theorem array7 (c : Dev nD) : (dat0 (F := Ideal) V c).arrAt 7 cfg0.N = layer (V c main_arg1) (V c main_arg4) (V c main_v1) :=
  (dat0 (F := Ideal) V c).arrAt_eq_of_cover 7 _ (fun t _ => flushed7_eq V c t) cover7

/-! ## The two result arrays, entry by entry -/

/-- The first result array at row `i`, feature `k`: row `i` of the text features against row `k` of the first weights,
    plus the first bias at `k`. -/
theorem final0_6 (c : Dev nD) (i : Fin 8192) (k : Fin 128) :
    (dat0 (F := Ideal) V c).arrAt 6 cfg0.N (ix2 i k) = layer (V c main_arg0) (V c main_arg2) (V c main_v0) (ix2 i k) :=
  congrFun (array6 V c) (ix2 i k)

/-- The second result array at row `i`, feature `k`: row `i` of the time features against row `k` of the second
    weights, plus the second bias at `k`. -/
theorem final0_7 (c : Dev nD) (i : Fin 8192) (k : Fin 128) :
    (dat0 (F := Ideal) V c).arrAt 7 cfg0.N (ix2 i k) = layer (V c main_arg1) (V c main_arg4) (V c main_v1) (ix2 i k) :=
  congrFun (array7 V c) (ix2 i k)

/-- The layer at an index given by its coordinates. -/
theorem layer_ix2 (x : S8192x128.Idx → EReal) (W : S128x128.Idx → EReal) (b : S1x128.Idx → EReal) (i : Fin 8192) (k : Fin 128) :
    layer x W b (ix2 i k) = (∑ l : Fin 128, x (ix2 i l) * W (ix2 k l)) + b (ix2 (0 : Fin 1) k) := rfl

/-- The first result array entry by entry, with the three arrays named: for any `x`, `W`, `b` that ARE the text
    features, the first weights and the first (reshaped) bias as the call finds them. -/
theorem final0_6_of (c : Dev nD) (x : S8192x128.Idx → EReal) (W : S128x128.Idx → EReal) (b : S1x128.Idx → EReal)
    (hx : V c main_arg0 = x) (hW : V c main_arg2 = W) (hb : V c main_v0 = b) (i : Fin 8192) (k : Fin 128) :
    (dat0 (F := Ideal) V c).arrAt 6 cfg0.N (ix2 i k) = (∑ l : Fin 128, x (ix2 i l) * W (ix2 k l)) + b (ix2 (0 : Fin 1) k) := by
  subst hx hW hb
  exact final0_6 V c i k

/-- The second result array likewise, from the time features, the second weights and the second (reshaped) bias. -/
theorem final0_7_of (c : Dev nD) (x : S8192x128.Idx → EReal) (W : S128x128.Idx → EReal) (b : S1x128.Idx → EReal)
    (hx : V c main_arg1 = x) (hW : V c main_arg4 = W) (hb : V c main_v1 = b) (i : Fin 8192) (k : Fin 128) :
    (dat0 (F := Ideal) V c).arrAt 7 cfg0.N (ix2 i k) = (∑ l : Fin 128, x (ix2 i l) * W (ix2 k l)) + b (ix2 (0 : Fin 1) k) := by
  subst hx hW hb
  exact final0_7 V c i k

end Cert.KernelIdeal.Hand0V

end
-- ==== Proof.KernelHostPre.lean ====
/- The first host stretch: the two bias vectors, of 128 entries each, are reshaped to one row of 128 before the first
   pallas_call. A reshape keeps the row-major order of the entries, so entry (0, k) of the row is entry k of the vector;
   nothing else is written. -/
import proofs.«172921_j68745246539824_1_alg».proof.Proof.Gen.KernelIdeal.Regions
import Idealize.ShloMosaic.Lib.ValueIdx
import Idealize.ShloMosaic.Lib.Pipeline.Value

noncomputable section

namespace Cert.KernelIdeal.Host

open Cert.KernelIdeal Cert.KernelIdeal.Gen
open Idealize.ShloMosaic Idealize.ShloMosaic.TcCoe Idealize.ShloMosaic.ValueIdx Idealize.SL.Sem

-- the TensorCore's buffer contents before the stretch
variable (W : Valuation τ sig (Elt Ideal))

/-- Entry (0, k) of a row that is a reshaped vector is entry k of the vector: both are at row-major position k. -/
theorem row_of_vector (v : S128.Idx → EReal) (k : Fin 128) :
    shapeCast S1x128 v shapeCasts_S128_S1x128 (ix2 (0 : Fin 1) k) = v (ix1 k) :=
  shapeCast_apply v shapeCasts_S128_S1x128 (ix2 (0 : Fin 1) k) (ix1 k) (by
    rw [Shape.rowMajor_val_one, Shape.rowMajor_val_two]
    show k.val = 0 * 128 + k.val
    omega)

/-- After the stretch the first bias row holds the first bias vector, entry by entry. -/
theorem pre_v0 (k : Fin 128) :
    StableHlo.after (hostOps0 (F := Ideal)) W (Proc.devRef .tc main_v0) (ix2 (0 : Fin 1) k) = W (Proc.devRef .tc main_arg3) (ix1 k) := by
  have e : StableHlo.after (hostOps0 (F := Ideal)) W (Proc.devRef .tc main_v0)
      = shapeCast S1x128 (W (Proc.devRef .tc main_arg3)) shapeCasts_S128_S1x128 := by
    after_results; rfl
  rw [e]
  exact row_of_vector _ k

/-- After the stretch the second bias row holds the second bias vector, entry by entry. -/
theorem pre_v1 (k : Fin 128) :
    StableHlo.after (hostOps0 (F := Ideal)) W (Proc.devRef .tc main_v1) (ix2 (0 : Fin 1) k) = W (Proc.devRef .tc main_arg5) (ix1 k) := by
  have e : StableHlo.after (hostOps0 (F := Ideal)) W (Proc.devRef .tc main_v1)
      = shapeCast S1x128 (W (Proc.devRef .tc main_arg5)) shapeCasts_S128_S1x128 := by
    after_results; rfl
  rw [e]
  exact row_of_vector _ k

/-- The stretch writes the two bias rows and nothing else: every other buffer holds what it held. -/
theorem pre_keeps (b : Ref sig .tc) (hb : b ∉ Gen.hostOps0_W) :
    StableHlo.after (hostOps0 (F := Ideal)) W (Proc.devRef .tc b) = W (Proc.devRef .tc b) :=
  StableHlo.after_of_writes_sub hostOps0 _ hostOps0_writes hb

end Cert.KernelIdeal.Host

end
-- ==== Proof.KernelValue0.lean ====
/- The first pallas_call's two result arrays, read in the buffer contents after it, as functions of the launch memory:
   each is a linear layer of the arguments. The first host stretch leaves the features and the weights as launched and
   makes each bias row out of its bias vector; the call's write-backs then leave, in each result array, the layer of
   what the call found. -/
import proofs.«172921_j68745246539824_1_alg».proof.Proof.MainRun
import proofs.«172921_j68745246539824_1_alg».proof.Proof.Region0Value
import proofs.«172921_j68745246539824_1_alg».proof.Proof.KernelHostPre
import proofs.«172921_j68745246539824_1_alg».proof.Proof.Spec

noncomputable section

open scoped BigOperators

namespace Cert.KernelIdeal.HandValue

open Cert.KernelIdeal Cert.KernelIdeal.Gen Cert.KernelIdeal.Hand0 Cert.KernelIdeal.Hand0V Cert.KernelIdeal.HandRun Cert.KernelIdeal.Host
open Idealize.ShloMosaic Idealize.ShloMosaic.TcCoe Idealize.ShloMosaic.ValueIdx Idealize.SL.Sem

-- the launch memory
variable (m : (ℓ : Loc nD τ sig) → Buf (Elt Ideal) ℓ)

/-- A buffer the first host stretch does not write enters the first pallas_call as launched. -/
theorem entry_as_launched (c : Dev nD) (b : Ref sig .tc) (hb : b ∉ Gen.hostOps0_W) :
    R1 m c b = m ((c.tc : Thread nD τ).loc b) :=
  (pre_keeps (W0 m c) b hb).trans rfl

/-- A layer with a bias ROW `r` is the specification's layer with the bias VECTOR `v`, when the row's entry (0, k)
    is the vector's entry k. -/
theorem lin_of_row (x : S8192x128.Idx → EReal) (W : S128x128.Idx → EReal) (r : S1x128.Idx → EReal) (v : S128.Idx → EReal)
    (i : Fin 8192) (k : Fin 128) (h : r (ix2 (0 : Fin 1) k) = v (ix1 k)) :
    (∑ l : Fin 128, x (ix2 i l) * W (ix2 k l)) + r (ix2 (0 : Fin 1) k) = Cert.Spec.lin x W v i k := by
  unfold Cert.Spec.lin
  rw [h]

/-- After the first pallas_call its first result array holds, at row `i` and feature `k`, the first linear layer of
    the launched text features, first weights and first bias. -/
theorem proj_xt (c : Dev nD) (i : Fin 8192) (k : Fin 128) :
    W2 m c (Proc.devRef .tc main_v2_0) (ix2 i k)
      = Cert.Spec.lin (m ((c.tc : Thread nD τ).loc main_arg0)) (m ((c.tc : Thread nD τ).loc main_arg2))
          (m ((c.tc : Thread nD τ).loc main_arg3)) i k := by
  refine (congrFun (W2_arr m c 6) (ix2 i k)).trans ?_
  refine (final0_6_of (R1 m) c _ _ _ (entry_as_launched m c main_arg0 (by decide)) (entry_as_launched m c main_arg2 (by decide)) rfl i k).trans ?_
  exact lin_of_row _ _ _ _ i k (pre_v0 (W0 m c) k)

/-- After the first pallas_call its second result array holds, at row `i` and feature `k`, the second linear layer of
    the launched time features, second weights and second bias. -/
theorem proj_ti (c : Dev nD) (i : Fin 8192) (k : Fin 128) :
    W2 m c (Proc.devRef .tc main_v2_1) (ix2 i k)
      = Cert.Spec.lin (m ((c.tc : Thread nD τ).loc main_arg1)) (m ((c.tc : Thread nD τ).loc main_arg4))
          (m ((c.tc : Thread nD τ).loc main_arg5)) i k := by
  refine (congrFun (W2_arr m c 7) (ix2 i k)).trans ?_
  refine (final0_7_of (R1 m) c _ _ _ (entry_as_launched m c main_arg1 (by decide)) (entry_as_launched m c main_arg4 (by decide)) rfl i k).trans ?_
  exact lin_of_row _ _ _ _ i k (pre_v1 (W0 m c) k)

end Cert.KernelIdeal.HandValue

end
-- ==== Proof.SumTiles.lean ====
/-
  Two facts of pure algebra: a sum over 8192 rows cut into 16 tiles of 512 rows (and the double sum over all pairs of rows
  into 16 × 16 tiles), and the scaling by the literal −0.5 against negating and dividing by the literal 2.
-/
import Mathlib.Algebra.BigOperators.Fin
import Mathlib.Data.Fintype.BigOperators
import Idealize.ShloMosaic.PureOps.Ideal
import proofs.«172921_j68745246539824_1_alg».proof.Proof.Spec

noncomputable section

open scoped BigOperators

namespace Cert.SumTiles

open Idealize.ShloMosaic

/-! ## Sums by tiles -/

/-- Row `r` of tile `I`: row `512 · I + r` of the array. -/
def row (I : Fin 16) (r : Fin 512) : Fin 8192 := ⟨512 * I.val + r.val, by omega⟩

/-- The 8192 rows are the 16 tiles of 512 rows each: a row's tile is its quotient by 512, its place in the tile the
    remainder. -/
def tileEquiv : Fin 16 × Fin 512 ≃ Fin 8192 where
  toFun p := row p.1 p.2
  invFun i := (⟨i.val / 512, by have := i.isLt; omega⟩, ⟨i.val % 512, Nat.mod_lt _ (by decide)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv i := by
    refine Fin.ext ?_
    show 512 * (i.val / 512) + i.val % 512 = i.val
    omega

/-- A sum over the rows is the sum over the tiles of the sums over each tile's rows. -/
theorem sum_rows {M : Type*} [AddCommMonoid M] (f : Fin 8192 → M) :
    ∑ i : Fin 8192, f i = ∑ I : Fin 16, ∑ r : Fin 512, f (row I r) := by
  rw [← Equiv.sum_comp tileEquiv f, Fintype.sum_prod_type]
  rfl

/-- A sum over all pairs of rows: cut both sums into tiles, then bring the two tile sums to the front. -/
theorem sum_rows2 {M : Type*} [AddCommMonoid M] (f : Fin 8192 → Fin 8192 → M) :
    ∑ i : Fin 8192, ∑ j : Fin 8192, f i j
      = ∑ I : Fin 16, ∑ J : Fin 16, ∑ r : Fin 512, ∑ s : Fin 512, f (row I r) (row J s) := by
  calc ∑ i : Fin 8192, ∑ j : Fin 8192, f i j
      = ∑ I : Fin 16, ∑ r : Fin 512, ∑ j : Fin 8192, f (row I r) j := sum_rows (fun i => ∑ j : Fin 8192, f i j)
    _ = ∑ I : Fin 16, ∑ r : Fin 512, ∑ J : Fin 16, ∑ s : Fin 512, f (row I r) (row J s) :=
        Finset.sum_congr rfl fun I _ => Finset.sum_congr rfl fun r _ => sum_rows (fun j => f (row I r) j)
    _ = ∑ I : Fin 16, ∑ J : Fin 16, ∑ r : Fin 512, ∑ s : Fin 512, f (row I r) (row J s) :=
        Finset.sum_congr rfl fun I _ => Finset.sum_comm

/-- a sum over 8192 rows, cut into 16 tiles of 512 -/
theorem sum_tiles {M : Type*} [AddCommMonoid M] (f : Fin 8192 → M) :
    ∑ i : Fin 8192, f i = ∑ I : Fin 16, ∑ r : Fin 512, f ⟨512 * I.val + r.val, by omega⟩ :=
  sum_rows f

/-- the double sum over all pairs of rows, cut into 16 × 16 tiles of 512 × 512 pairs -/
theorem sum_tiles2 {M : Type*} [AddCommMonoid M] (f : Fin 8192 → Fin 8192 → M) :
    ∑ i : Fin 8192, ∑ j : Fin 8192, f i j
      = ∑ I : Fin 16, ∑ J : Fin 16, ∑ r : Fin 512, ∑ s : Fin 512,
          f ⟨512 * I.val + r.val, by omega⟩ ⟨512 * J.val + s.val, by omega⟩ :=
  sum_rows2 f

/-! ## The literals -/

/-- The word `0xBF000000` denotes −1/2. -/
theorem neg_half_lit : Ideal.ofBits .f32 0xBF000000#32 = ((-(1 / 2) : ℝ) : EReal) := by
  simp [Ideal.ofBits, Ideal.ieee, -EReal.coe_mul]; norm_num

/-- The word `0x40000000` denotes 2. -/
theorem two_lit : Cert.Spec.two = ((2 : ℝ) : EReal) := by
  simp [Cert.Spec.two, Ideal.ofBits, Ideal.ieee, -EReal.coe_mul]; norm_num

/-- The word `0x4C800000` denotes 2^26 = 67108864, the number of pairs of rows. -/
theorem div_npairs : Cert.Spec.npairs = ((67108864 : ℝ) : EReal) := by
  simp [Cert.Spec.npairs, Ideal.ofBits, Ideal.ieee, -EReal.coe_mul]; norm_num

/-- the kernel scales by the literal −0.5 where the reference negates and divides by 2: dividing by the real 2 is
    multiplying by 1/2, at the infinities too, and the sign moves across the product. -/
theorem neg_half (x : EReal) (hx : 0 ≤ x) : Ideal.ofBits .f32 0xBF000000#32 * x = Ideal.div (-x) Cert.Spec.two := by
  rw [neg_half_lit, two_lit, Ideal.div_coe (by norm_num : (2 : ℝ) ≠ 0), EReal.coe_neg, EReal.neg_mul, EReal.neg_mul, mul_comm]

end Cert.SumTiles

end
-- ==== Proof.Bridge.lean ====
/-
  From the kernel's tiled sums to the specification: the Gaussian kernel summed tile by tile over the 16 × 16 tiles of
  512 × 512 pairs of rows is the sum over all pairs of rows (the tiles partition the pairs, and scaling a nonnegative
  distance by −1/2 is negating it and halving it), and the three means so obtained combine to the specified result.
-/
import proofs.«172921_j68745246539824_1_alg».proof.Proof.Spec
import proofs.«172921_j68745246539824_1_alg».proof.Proof.Tiles
import proofs.«172921_j68745246539824_1_alg».proof.Proof.SumTiles
import proofs.«172921_j68745246539824_1_alg».proof.Proof.PayGaussB
import Idealize.ShloMosaic.PureOps.Ideal.Laws

noncomputable section

open scoped BigOperators

namespace Cert.Bridge

open Idealize.ShloMosaic Idealize.ShloMosaic.ValueIdx Cert.Tiles Cert.KernelIdeal.Pay

/-- The double sum over all pairs of rows, tile by tile, with the tiles' rows named as the tiles name them. -/
theorem sum_pairs {M : Type*} [AddCommMonoid M] (f : Fin 8192 → Fin 8192 → M) :
    ∑ i : Fin 8192, ∑ j : Fin 8192, f i j
      = ∑ I : Fin 16, ∑ J : Fin 16, ∑ r : Fin 512, ∑ s : Fin 512, f (Cert.Tiles.row I r) (Cert.Tiles.row J s) :=
  Cert.SumTiles.sum_rows2 f

/-- The clamped squared distance is not negative. -/
theorem zero_le_clamp (d : EReal) : 0 ≤ max d Cert.Spec.zero :=
  le_max_of_le_right (le_of_eq Ideal.ofBits_zero_f32.symm)

/-- One pair of rows: the tiles' entry (the clamped distance scaled by −1/2, exponentiated) is the specification's
    Gaussian kernel at the two rows the tile coordinates name. -/
theorem pair_eq (A B : (⟨2, ![8192, 128]⟩ : Shape).Idx → EReal) (I J : Fin 16) (r s : Fin 512) :
    Ideal.exp (Ideal.ofBits .f32 0xBF000000#32
        * max (((∑ k : Fin 128, tile A I (ix2 r k) * tile A I (ix2 r k)) + (∑ k : Fin 128, tile B J (ix2 s k) * tile B J (ix2 s k)))
            - Cert.Spec.two * (∑ k : Fin 128, tile A I (ix2 r k) * tile B J (ix2 s k))) Cert.Spec.zero)
      = Cert.Spec.gk (rows A) (rows B) (Cert.Tiles.row I r) (Cert.Tiles.row J s) := by
  rw [Cert.SumTiles.neg_half _ (zero_le_clamp _)]
  simp only [tile_apply]
  rfl

/-- The tile sums over the 16 × 16 tiles add up to the sum over all pairs of rows. -/
theorem tiles_pairSum (A B : (⟨2, ![8192, 128]⟩ : Shape).Idx → EReal) :
    ∑ I : Fin 16, ∑ J : Fin 16, Cert.KernelIdeal.Pay.tileSum (Cert.Tiles.tile A I) (Cert.Tiles.tile B J)
      = Cert.Spec.pairSum (Cert.Tiles.rows A) (Cert.Tiles.rows B) := by
  unfold Cert.Spec.pairSum
  rw [sum_pairs (fun i j => Cert.Spec.gk (rows A) (rows B) i j)]
  refine Finset.sum_congr rfl fun I _ => Finset.sum_congr rfl fun J _ => ?_
  unfold Cert.KernelIdeal.Pay.tileSum
  exact Finset.sum_congr rfl fun r _ => Finset.sum_congr rfl fun s _ => pair_eq A B I J r s

/-- The three tiled sums of two arrays that are the two linear layers, each over the number of pairs, combine to the
    specified result. -/
theorem mmd_of_sums (x0 x1 : (⟨2, ![8192, 128]⟩ : Shape).Idx → EReal) (x2 : (⟨2, ![128, 128]⟩ : Shape).Idx → EReal)
    (x3 : (⟨1, ![128]⟩ : Shape).Idx → EReal) (x4 : (⟨2, ![128, 128]⟩ : Shape).Idx → EReal)
    (x5 : (⟨1, ![128]⟩ : Shape).Idx → EReal) (A B : (⟨2, ![8192, 128]⟩ : Shape).Idx → EReal)
    (hA : ∀ i k, A (ix2 i k) = Cert.Spec.lin x0 x2 x3 i k) (hB : ∀ i k, B (ix2 i k) = Cert.Spec.lin x1 x4 x5 i k)
    (sxx stt sxt : EReal)
    (hxx : sxx = ∑ I : Fin 16, ∑ J : Fin 16, tileSum (tile A I) (tile A J))
    (htt : stt = ∑ I : Fin 16, ∑ J : Fin 16, tileSum (tile B I) (tile B J))
    (hxt : sxt = ∑ I : Fin 16, ∑ J : Fin 16, tileSum (tile A I) (tile B J)) :
    (Ideal.div sxx Cert.Spec.npairs + Ideal.div stt Cert.Spec.npairs) - Cert.Spec.two * Ideal.div sxt Cert.Spec.npairs
      = Cert.Spec.mmd x0 x1 x2 x3 x4 x5 := by
  have eA : rows A = Cert.Spec.lin x0 x2 x3 := funext fun i => funext fun k => hA i k
  have eB : rows B = Cert.Spec.lin x1 x4 x5 := funext fun i => funext fun k => hB i k
  rw [hxx, htt, hxt, tiles_pairSum, tiles_pairSum, tiles_pairSum, eA, eB]
  rfl

end Cert.Bridge

end
-- ==== Proof.KernelValue.lean ====
/-
  What the idealized kernel program returns: the last host stretch reads lanes 0, 1, 2 of the second region's result, each
  lane the sum over a row of tiles of that row's accumulated tile sums; the tiles are tiles of the two arrays the first
  region produced, which are the two linear layers of the arguments. Regrouped, this is the specification's value.
-/
import proofs.«172921_j68745246539824_1_alg».proof.Proof.MainFrame
import proofs.«172921_j68745246539824_1_alg».proof.Proof.Region1Result
import proofs.«172921_j68745246539824_1_alg».proof.Proof.KernelHost
import proofs.«172921_j68745246539824_1_alg».proof.Proof.KernelValue0
import proofs.«172921_j68745246539824_1_alg».proof.Proof.Bridge

noncomputable section

namespace Cert.KernelIdeal.HandValue

open Cert.KernelIdeal Cert.KernelIdeal.Gen Cert.KernelIdeal.HandRun Cert.KernelIdeal.Hand1 Cert.KernelIdeal.Hand1V
open Idealize.ShloMosaic Idealize.ShloMosaic.TcCoe Idealize.ShloMosaic.ValueIdx Idealize.SL.Sem
open Cert.Tiles Cert.KernelIdeal.Pay

variable (m : (ℓ : Loc nD τ sig) → Buf (Elt Ideal) ℓ) (ρ : Dev nD → PrngReg)

/-- The first region's two results, as arrays of 8192 rows. -/
abbrev projXt (c : Dev nD) : (⟨2, ![8192, 128]⟩ : Shape).Idx → EReal := fun j => W2 m c (Proc.devRef .tc main_v2_0) j
abbrev projTi (c : Dev nD) : (⟨2, ![8192, 128]⟩ : Shape).Idx → EReal := fun j => W2 m c (Proc.devRef .tc main_v2_1) j

/-- A lane of the second region's result at row tile `I`: the sum over the column tiles of that lane's tile sums. -/
theorem lane0 (c : Dev nD) (I : Fin 16) :
    (W3 m c (Proc.devRef .tc main_v3) : S16x1x128.Idx → EReal) (ix3 I (0 : Fin 1) (0 : Fin 128))
      = ∑ J : Fin 16, tileSum (tile (projXt m c) I) (tile (projXt m c) J) := by
  rw [W3_main_v3]
  exact (final1 (R2 m) c I 0).trans (if_pos rfl)
theorem lane1 (c : Dev nD) (I : Fin 16) :
    (W3 m c (Proc.devRef .tc main_v3) : S16x1x128.Idx → EReal) (ix3 I (0 : Fin 1) (1 : Fin 128))
      = ∑ J : Fin 16, tileSum (tile (projTi m c) I) (tile (projTi m c) J) := by
  rw [W3_main_v3]
  exact (final1 (R2 m) c I 1).trans ((if_neg (by decide)).trans (if_pos rfl))
theorem lane2 (c : Dev nD) (I : Fin 16) :
    (W3 m c (Proc.devRef .tc main_v3) : S16x1x128.Idx → EReal) (ix3 I (0 : Fin 1) (2 : Fin 128))
      = ∑ J : Fin 16, tileSum (tile (projXt m c) I) (tile (projTi m c) J) := by
  rw [W3_main_v3]
  exact (final1 (R2 m) c I 2).trans ((if_neg (by decide)).trans ((if_neg (by decide)).trans (if_pos rfl)))

/-- The program's result buffer at the end holds the specification's value of the argument arrays. -/
theorem result_value (c : Dev nD) :
    W4 m c (Proc.devRef .tc main_v18) = fun _ => Cert.Spec.mmd
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  refine (Cert.KernelIdeal.Host.tail_value (W3 m c)).trans ?_
  funext _
  exact Cert.Bridge.mmd_of_sums _ _ _ _ _ _ (projXt m c) (projTi m c) (proj_xt m c) (proj_ti m c) _ _ _
    (Finset.sum_congr rfl fun I _ => lane0 m c I) (Finset.sum_congr rfl fun I _ => lane1 m c I) (Finset.sum_congr rfl fun I _ => lane2 m c I)

/-- The idealized kernel program runs to the end with its result at the specification's value and its arguments unchanged. -/
theorem run_value : θ_run defs (onTc (τ := τ) (main (F := Ideal))) ⟨m, fun _ => 0, ρ⟩ (fun r => ∀ c : Dev nD,
      r.2.mem ((c.tc : Thread nD τ).loc main_v18) = (fun _ => Cert.Spec.mmd
        (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v18 (by decide))).trans (result_value m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c)⟩) (run_all m ρ)

end Cert.KernelIdeal.HandValue

end
-- ==== Proof.lean ====
/-
  Two programs compute a Gaussian-kernel discrepancy between two sets of 8192 projected feature rows: a pair of Pallas
  kernels (two linear layers; then the pairwise kernel sums over a 16 × 16 grid of 512 × 512 tiles, accumulated per row
  of tiles and finished by a few host operations) and a plain array program. Read over the extended reals, where every
  float operation is exact, both are one function of the six argument arrays: two affine maps of the rows, then
  (S(xt, xt) + S(ti, ti)) / 2²⁶ − 2·S(xt, ti) / 2²⁶ with S(a, b) = ∑_{i, j} exp (−max (|a_i|² + |b_j|² − 2 a_i·b_j, 0) / 2).
  The kernel's side cuts each double sum into tile sums, scales by −1/2 where the reference negates and halves, and adds
  in another order; sums of extended reals may be regrouped freely, and (−1/2)·x = (−x)/2 for every x.

  The word-level kernel program and its idealization run to the end leaving their arguments untouched: each region's body
  obligation is proved per grid point, the two regions are chained through the host stretches, and the second region's
  two twice-read arrays are lent to their windows at half shares. The idealization rewrote nothing, so the preservation
  conjunct is trivial.
-/
import proofs.«172921_j68745246539824_1_alg».proof.Defs
import proofs.«172921_j68745246539824_1_alg».proof.Proof.Gen.Kernel
import proofs.«172921_j68745246539824_1_alg».proof.Proof.Gen.KernelIdeal
import proofs.«172921_j68745246539824_1_alg».proof.Proof.Gen.ReferenceIdeal
import proofs.«172921_j68745246539824_1_alg».proof.Proof.Gen.Pre_finite_inputs
import proofs.«172921_j68745246539824_1_alg».proof.Proof.Gen.ReferenceIdeal.Run
import proofs.«172921_j68745246539824_1_alg».proof.Proof.MainFrame
import proofs.«172921_j68745246539824_1_alg».proof.Proof.MainFrameBits
import proofs.«172921_j68745246539824_1_alg».proof.Proof.RefValue
import proofs.«172921_j68745246539824_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.HandRun.frame m ρ
theorem frame_kernelIdeal : Cert.frame_KernelIdeal := fun m ρ _ => Cert.KernelIdeal.HandRun.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the same scalar: the specification's value of the six argument arrays. -/
theorem algebraic : Cert.algebraic_KernelIdeal_ReferenceIdeal := by
  intro m ρ m' ρ' _ hagree
  refine ⟨fun c => fun _ => Cert.Spec.mmd
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.HandValue.run_value m ρ, ?_⟩
  refine (θ_run Cert.ReferenceIdeal.defs _ _).mono (fun _ h c => ⟨(h c).1.trans ?_, (h c).2⟩)
    (Cert.ReferenceIdeal.Value.run (F := Ideal) m' ρ')
  rw [Cert.RefSide.res_is_mmd, (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
